-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S512x2048 : Shape := ⟨2, ![512, 2048]⟩
abbrev S50257x1024 : Shape := ⟨2, ![50257, 1024]⟩
abbrev S4x2048x1024 : Shape := ⟨3, ![4, 2048, 1024]⟩
abbrev S4x2048 : Shape := ⟨2, ![4, 2048]⟩
abbrev S4x2048x2048 : Shape := ⟨3, ![4, 2048, 2048]⟩
abbrev S50257x2048 : Shape := ⟨2, ![50257, 2048]⟩
abbrev S50257 : Shape := ⟨1, ![50257]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S50257x2048 : S_.BroadcastsInDim S50257x2048 (![] : Fin 0 → Fin S50257x2048.rank)
  reducesTo_S50257x2048_S_d0_1 : S50257x2048.ReducesTo [0, 1] S_
  bcast_S_S50257 : S_.BroadcastsInDim S50257 (![] : Fin 0 → Fin S50257.rank)
  reducesTo_S50257_S_d0 : S50257.ReducesTo [0] S_

variable [Facts]

def fn_part2 {F : FTy → Type} [FloatOps F] (main_arg8 : FVec F S50257x2048 .f32) (main_arg9 : FVec F S50257 .f32) (main_v33 : IVec S_ 1) : IVec S_ 1 :=
  let main_v34 : FVec F S50257x2048 .f32 := Host.absf main_arg8
  let main_cst_12 : FVec F S_ .f32 := constant S_ .f32 0x7F800000#32
  let main_v35 : FVec F S50257x2048 .f32 := broadcastInDim S50257x2048 ![] bcast_S_S50257x2048 main_cst_12
  let main_v36 : IVec S50257x2048 1 := cmpf .olt main_v34 main_v35
  let main_c_13 : IVec S_ 1 := constantI S_ 1 1#1
  let main_v37 : IVec S_ 1 := (fun x v => Host.reduce IntOp.andi x v reducesTo_S50257x2048_S_d0_1 h_S_) main_v36 main_c_13
  let main_v38 : IVec S_ 1 := andi main_v33 main_v37
  let main_v39 : FVec F S50257 .f32 := Host.absf main_arg9
  let main_cst_14 : FVec F S_ .f32 := constant S_ .f32 0x7F800000#32
  let main_v40 : FVec F S50257 .f32 := broadcastInDim S50257 ![] bcast_S_S50257 main_cst_14
  let main_v41 : IVec S50257 1 := cmpf .olt main_v39 main_v40
  let main_c_15 : IVec S_ 1 := constantI S_ 1 1#1
  let main_v42 : IVec S_ 1 := (fun x v => Host.reduce IntOp.andi x v reducesTo_S50257_S_d0 h_S_) main_v41 main_c_15
  let main_v43 : IVec S_ 1 := andi main_v38 main_v42
  main_v43

def fn_part1 {F : FTy → Type} [FloatOps F] (main_arg5 : FVec F S4x2048 .f32) (main_arg6 : FVec F S4x2048x2048 .f32) (main_arg7 : FVec F S4x2048 .f32) (main_arg8 : FVec F S50257x2048 .f32) (main_arg9 : FVec F S50257 .f32) (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  let main_v19 : FVec F S4x2048 .f32 := Host.absf main_arg5
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S4x2048x2048 .f32 := Host.absf main_arg6
  let main_cst_8 : FVec F S_ .f32 := constant S_ .f32 0x7F800000#32
  let main_v25 : FVec F S4x2048x2048 .f32 := broadcastInDim S4x2048x2048 ![] bcast_S_S4x2048x2048 main_cst_8
  let main_v26 : IVec S4x2048x2048 1 := cmpf .olt main_v24 main_v25
  let main_c_9 : IVec S_ 1 := constantI S_ 1 1#1
  let main_v27 : IVec S_ 1 := (fun x v => Host.reduce IntOp.andi x v reducesTo_S4x2048x2048_S_d0_1_2 h_S_) main_v26 main_c_9
  let main_v28 : IVec S_ 1 := andi main_v23 main_v27
  let main_v29 : FVec F S4x2048 .f32 := Host.absf main_arg7
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  fn_part2 (F := F) main_arg8 main_arg9 main_v33

def fn {F : FTy → Type} [FloatOps F] (main_arg0 : IVec S512 32) (main_arg1 : FVec F S512x2048 .f32) (main_arg2 : FVec F S512x2048 .f32) (main_arg3 : FVec F S50257x1024 .f32) (main_arg4 : FVec F S4x2048x1024 .f32) (main_arg5 : FVec F S4x2048 .f32) (main_arg6 : FVec F S4x2048x2048 .f32) (main_arg7 : FVec F S4x2048 .f32) (main_arg8 : FVec F S50257x2048 .f32) (main_arg9 : FVec F S50257 .f32) : IVec S_ 1 :=
  let main_v0 : FVec F S512x2048 .f32 := Host.absf main_arg1
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S4x2048x1024 .f32 := Host.absf main_arg4
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_arg5 main_arg6 main_arg7 main_arg8 main_arg9 main_v13 main_v16
-- ==== Kernel.lean ====
abbrev S512 : Shape := ⟨1, ![512]⟩
abbrev S512x2048 : Shape := ⟨2, ![512, 2048]⟩
abbrev S50257x1024 : Shape := ⟨2, ![50257, 1024]⟩
abbrev S4x2048x1024 : Shape := ⟨3, ![4, 2048, 1024]⟩
abbrev S4x2048 : Shape := ⟨2, ![4, 2048]⟩
abbrev S4x2048x2048 : Shape := ⟨3, ![4, 2048, 2048]⟩
abbrev S50257x2048 : Shape := ⟨2, ![50257, 2048]⟩
abbrev S50257 : Shape := ⟨1, ![50257]⟩
abbrev S_ : Shape := ⟨0, ![]⟩
abbrev S512x1 : Shape := ⟨2, ![512, 1]⟩
abbrev S512x1024 : Shape := ⟨2, ![512, 1024]⟩
abbrev S512x256 : Shape := ⟨2, ![512, 256]⟩
abbrev S4x256x1024 : Shape := ⟨3, ![4, 256, 1024]⟩
abbrev S4x256x2048 : Shape := ⟨3, ![4, 256, 2048]⟩
abbrev S4x256 : Shape := ⟨2, ![4, 256]⟩
abbrev S1x256x1024 : Shape := ⟨3, ![1, 256, 1024]⟩
abbrev S256x1024 : Shape := ⟨2, ![256, 1024]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩
abbrev S512x50257 : Shape := ⟨2, ![512, 50257]⟩
abbrev S1024x2048 : Shape := ⟨2, ![1024, 2048]⟩
abbrev S1024 : Shape := ⟨1, ![1024]⟩
abbrev S1x1024 : Shape := ⟨2, ![1, 1024]⟩

abbrev nBuf : Space → Nat
  | .hbm => 24
  | .vmem => 23
  | .smem => 0
  | _ => 0

abbrev bufTy : (tb : Table) → Fin (tcTables nBuf tb) → BufTy
  | .hbm, ⟨0, _⟩ => ⟨S512, .i32⟩
  | .hbm, ⟨1, _⟩ => ⟨S512x2048, .f32⟩
  | .hbm, ⟨2, _⟩ => ⟨S512x2048, .f32⟩
  | .hbm, ⟨3, _⟩ => ⟨S50257x1024, .f32⟩
  | .hbm, ⟨4, _⟩ => ⟨S4x2048x1024, .f32⟩
  | .hbm, ⟨5, _⟩ => ⟨S4x2048, .f32⟩
  | .hbm, ⟨6, _⟩ => ⟨S4x2048x2048, .f32⟩
  | .hbm, ⟨7, _⟩ => ⟨S4x2048, .f32⟩
  | .hbm, ⟨8, _⟩ => ⟨S50257x2048, .f32⟩
  | .hbm, ⟨9, _⟩ => ⟨S50257, .f32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S512x1024, .f32⟩
  | .hbm, ⟨19, _⟩ => ⟨S4x2048, .f32⟩
  | .hbm, ⟨20, _⟩ => ⟨S512x2048, .f32⟩
  | .hbm, ⟨21, _⟩ => ⟨S512x2048, .f32⟩
  | .hbm, ⟨22, _⟩ => ⟨S512x2048, .bf16⟩
  | .hbm, ⟨23, _⟩ => ⟨S512x50257, .f32⟩
  | .local _ .vmem, ⟨0, _⟩ => ⟨S512x1024, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S4x256x1024, .f32⟩
  | .local _ .vmem, ⟨5, _⟩ => ⟨S4x256x1024, .f32⟩
  | .local _ .vmem, ⟨6, _⟩ => ⟨S4x256x2048, .f32⟩
  | .local _ .vmem, ⟨7, _⟩ => ⟨S4x256x2048, .f32⟩
  | .local _ .vmem, ⟨8, _⟩ => ⟨S4x256, .f32⟩
  | .local _ .vmem, ⟨9, _⟩ => ⟨S4x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | .local _ .vmem, ⟨16, _⟩ => ⟨S512x2048, .bf16⟩
  | .local _ .vmem, ⟨17, _⟩ => ⟨S1024x2048, .f32⟩
  | .local _ .vmem, ⟨18, _⟩ => ⟨S1024x2048, .f32⟩
  | .local _ .vmem, ⟨19, _⟩ => ⟨S1024, .f32⟩
  | .local _ .vmem, ⟨20, _⟩ => ⟨S1024, .f32⟩
  | .local _ .vmem, ⟨21, _⟩ => ⟨S512x1024, .f32⟩
  | .local _ .vmem, ⟨22, _⟩ => ⟨S512x1024, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x256_S512x256_0_0 : ∀ a, (![0, 0] : Fin 2 → Nat) a + S512x256.size a ≤ S512x256.size a
  h_S512x256 : 0 < S512x256.numel
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x1024_S1x256x1024_1_0_0 : ∀ a, (![1, 0, 0] : Fin 3 → Nat) a + S1x256x1024.size a ≤ S4x256x1024.size a
  inb_S4x256x2048_S1x256x2048_1_0_0 : ∀ a, (![1, 0, 0] : Fin 3 → Nat) a + S1x256x2048.size a ≤ S4x256x2048.size a
  inb_S4x256_S1x256_1_0 : ∀ a, (![1, 0] : Fin 2 → Nat) a + S1x256.size a ≤ S4x256.size a
  inb_S4x256x1024_S1x256x1024_2_0_0 : ∀ a, (![2, 0, 0] : Fin 3 → Nat) a + S1x256x1024.size a ≤ S4x256x1024.size a
  inb_S4x256x2048_S1x256x2048_2_0_0 : ∀ a, (![2, 0, 0] : Fin 3 → Nat) a + S1x256x2048.size a ≤ S4x256x2048.size a
  inb_S4x256_S1x256_2_0 : ∀ a, (![2, 0] : Fin 2 → Nat) a + S1x256.size a ≤ S4x256.size a
  inb_S4x256x1024_S1x256x1024_3_0_0 : ∀ a, (![3, 0, 0] : Fin 3 → Nat) a + S1x256x1024.size a ≤ S4x256x1024.size a
  inb_S4x256x2048_S1x256x2048_3_0_0 : ∀ a, (![3, 0, 0] : Fin 3 → Nat) a + S1x256x2048.size a ≤ S4x256x2048.size a
  inb_S4x256_S1x256_3_0 : ∀ a, (![3, 0] : Fin 2 → Nat) a + S1x256.size a ≤ S4x256.size a
  packedbf16_S512x256_S512x256_0_0 : (Rect.unit (s := S512x256) ![0, 0] S512x256.size inb_S512x256_S512x256_0_0).PackedRows (EltTy.packing .bf16)
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  gather_S50257x1024_S512x1_S512x1024_1_0_n_n_0_1_11024_wf : GatherDims.WF S50257x1024 S512x1 S512x1024 [1] [0] [] [0] [] 1 ![1, 1024]
  dot_S512x1024_S256x1024_S512x256_1_1_0_0_n_n_wf : DotDims.WF S512x1024 S256x1024 S512x256 [1] [1] [0] [0] [] []
  dot_S512x2048_S256x2048_S512x256_1_1_0_0_n_n_wf : DotDims.WF S512x2048 S256x2048 S512x256 [1] [1] [0] [0] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x2048.size a
  hwx0_2 : ∀ i : grid0.Coords, EltTy.bits .f32 = 32 ∨ (Rect.block (s := S512x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1024.size a ≤ S4x2048x1024.size a
  hwx0_3 : ∀ i : grid0.Coords, EltTy.bits .f32 = 32 ∨ (Rect.block (s := S4x2048x1024) S4x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .f32 = 32 ∨ (Rect.block (s := S4x2048x2048) S4x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x2048.size a
  hwx0_6 : ∀ i : grid0.Coords, EltTy.bits .f32 = 32 ∨ (Rect.block (s := S512x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x2048.size a
  hwx0_7 : ∀ i : grid0.Coords, EltTy.bits .f32 = 32 ∨ (Rect.block (s := S512x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x2048.size a
  hwx0_8 : ∀ i : grid0.Coords, EltTy.bits .bf16 = 32 ∨ (Rect.block (s := S512x2048) S512x256.size (cc0_transform_8 i) (hinb0_8 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x2048.size a
  hwx1_0 : ∀ i : grid1.Coords, EltTy.bits .bf16 = 32 ∨ (Rect.block (s := S512x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x2048.size a < S50257x2048.size a
  hwx1_1 : ∀ i : grid1.Coords, EltTy.bits .f32 = 32 ∨ (Rect.unit (s := S50257x2048) (fun a => cc1_transform_1 i a * S1024x2048.size a) (fun a => (Pipeline.Clip.of (cc1_transform_1 i a) (S1024x2048.size a) (S50257x2048.size a)).extent (S1024x2048.size a)) fun a => Pipeline.Clip.inb (Pipeline.Clip.ok_of (hstart1_1 i a))).WholeWords (EltTy.packing .f32)
  hwxs1_1 : ∀ i : grid1.Coords, EltTy.bits .f32 = 32 ∨ (Rect.unit (s := S1024x2048) (fun _ => 0) (fun a => (Pipeline.Clip.of (cc1_transform_1 i a) (S1024x2048.size a) (S50257x2048.size a)).extent (S1024x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024.size a < S50257.size a
  hwx1_2 : ∀ i : grid1.Coords, EltTy.bits .f32 = 32 ∨ (Rect.unit (s := S50257) (fun a => cc1_transform_2 i a * S1024.size a) (fun a => (Pipeline.Clip.of (cc1_transform_2 i a) (S1024.size a) (S50257.size a)).extent (S1024.size a)) fun a => Pipeline.Clip.inb (Pipeline.Clip.ok_of (hstart1_2 i a))).WholeWords (EltTy.packing .f32)
  hwxs1_2 : ∀ i : grid1.Coords, EltTy.bits .f32 = 32 ∨ (Rect.unit (s := S1024) (fun _ => 0) (fun a => (Pipeline.Clip.of (cc1_transform_2 i a) (S1024.size a) (S50257.size a)).extent (S1024.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x1024.size a < S512x50257.size a
  hwx1_3 : ∀ i : grid1.Coords, EltTy.bits .f32 = 32 ∨ (Rect.unit (s := S512x50257) (fun a => cc1_transform_3 i a * S512x1024.size a) (fun a => (Pipeline.Clip.of (cc1_transform_3 i a) (S512x1024.size a) (S512x50257.size a)).extent (S512x1024.size a)) fun a => Pipeline.Clip.inb (Pipeline.Clip.ok_of (hstart1_3 i a))).WholeWords (EltTy.packing .f32)
  hwxs1_3 : ∀ i : grid1.Coords, EltTy.bits .f32 = 32 ∨ (Rect.unit (s := S512x1024) (fun _ => 0) (fun a => (Pipeline.Clip.of (cc1_transform_3 i a) (S512x1024.size a) (S512x50257.size a)).extent (S512x1024.size a)) fun a => (Nat.zero_add _).trans_le (Pipeline.Clip.extent_le (Pipeline.Clip.ok_of (hstart1_3 i a)))).WholeWords (EltTy.packing .f32)

variable [Facts₀]

def gather_S50257x1024_S512x1_S512x1024_1_0_n_n_0_1_11024 : GatherDims S50257x1024 S512x1 S512x1024 where
  offsetDims := [1]
  collapsedSliceDims := [0]
  operandBatchingDims := []
  startIndicesBatchingDims := []
  startIndexMap := [0]
  indexVectorDim := 1
  sliceSizes := ![1, 1024]
  wf := gather_S50257x1024_S512x1_S512x1024_1_0_n_n_0_1_11024_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v6) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_2) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8_2) S512x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg8) S1024x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg9) S1024.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v9) S512x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512 : Shape := ⟨1, ![512]⟩
abbrev S512x2048 : Shape := ⟨2, ![512, 2048]⟩
abbrev S50257x1024 : Shape := ⟨2, ![50257, 1024]⟩
abbrev S4x2048x1024 : Shape := ⟨3, ![4, 2048, 1024]⟩
abbrev S4x2048 : Shape := ⟨2, ![4, 2048]⟩
abbrev S4x2048x2048 : Shape := ⟨3, ![4, 2048, 2048]⟩
abbrev S50257x2048 : Shape := ⟨2, ![50257, 2048]⟩
abbrev S50257 : Shape := ⟨1, ![50257]⟩
abbrev S_ : Shape := ⟨0, ![]⟩
abbrev S512x1 : Shape := ⟨2, ![512, 1]⟩
abbrev S512x1024 : Shape := ⟨2, ![512, 1024]⟩
abbrev S512x4x2048 : Shape := ⟨3, ![512, 4, 2048]⟩
abbrev S1x4x2048 : Shape := ⟨3, ![1, 4, 2048]⟩
abbrev S512x1x2048 : Shape := ⟨3, ![512, 1, 2048]⟩
abbrev S2048x50257 : Shape := ⟨2, ![2048, 50257]⟩
abbrev S512x50257 : Shape := ⟨2, ![512, 50257]⟩
abbrev S1x50257 : Shape := ⟨2, ![1, 50257]⟩

abbrev nBuf : Space → Nat
  | .hbm => 71
  | .vmem => 0
  | .smem => 0
  | _ => 0

abbrev bufTy : (tb : Table) → Fin (tcTables nBuf tb) → BufTy
  | .hbm, ⟨0, _⟩ => ⟨S512, .i32⟩
  | .hbm, ⟨1, _⟩ => ⟨S512x2048, .f32⟩
  | .hbm, ⟨2, _⟩ => ⟨S512x2048, .f32⟩
  | .hbm, ⟨3, _⟩ => ⟨S50257x1024, .f32⟩
  | .hbm, ⟨4, _⟩ => ⟨S4x2048x1024, .f32⟩
  | .hbm, ⟨5, _⟩ => ⟨S4x2048, .f32⟩
  | .hbm, ⟨6, _⟩ => ⟨S4x2048x2048, .f32⟩
  | .hbm, ⟨7, _⟩ => ⟨S4x2048, .f32⟩
  | .hbm, ⟨8, _⟩ => ⟨S50257x2048, .f32⟩
  | .hbm, ⟨9, _⟩ => ⟨S50257, .f32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S512x1024, .f32⟩
  | .hbm, ⟨19, _⟩ => ⟨S512x4x2048, .f32⟩
  | .hbm, ⟨20, _⟩ => ⟨S1x4x2048, .f32⟩
  | .hbm, ⟨21, _⟩ => ⟨S512x4x2048, .f32⟩
  | .hbm, ⟨22, _⟩ => ⟨S512x4x2048, .f32⟩
  | .hbm, ⟨23, _⟩ => ⟨S512x4x2048, .f32⟩
  | .hbm, ⟨24, _⟩ => ⟨S512x4x2048, .f32⟩
  | .hbm, ⟨25, _⟩ => ⟨S1x4x2048, .f32⟩
  | .hbm, ⟨26, _⟩ => ⟨S512x4x2048, .f32⟩
  | .hbm, ⟨27, _⟩ => ⟨S512x4x2048, .f32⟩
  | .hbm, ⟨28, _⟩ => ⟨S512x1x2048, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x1x2048, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | .hbm, ⟨48, _⟩ => ⟨S512x1x2048, .f32⟩
  | .hbm, ⟨49, _⟩ => ⟨S512x2048, .f32⟩
  | .hbm, ⟨50, _⟩ => ⟨S512x2048, .f32⟩
  | .hbm, ⟨51, _⟩ => ⟨S512x2048, .f32⟩
  | .hbm, ⟨52, _⟩ => ⟨S_, .f32⟩
  | .hbm, ⟨53, _⟩ => ⟨S512x2048, .f32⟩
  | .hbm, ⟨54, _⟩ => ⟨S512x2048, .f32⟩
  | .hbm, ⟨55, _⟩ => ⟨S_, .f32⟩
  | .hbm, ⟨56, _⟩ => ⟨S512x2048, .f32⟩
  | .hbm, ⟨57, _⟩ => ⟨S512x2048, .f32⟩
  | .hbm, ⟨58, _⟩ => ⟨S512x1x2048, .f32⟩
  | .hbm, ⟨59, _⟩ => ⟨S512x2048, .f32⟩
  | .hbm, ⟨60, _⟩ => ⟨S512x2048, .f32⟩
  | .hbm, ⟨61, _⟩ => ⟨S512x2048, .f32⟩
  | .hbm, ⟨62, _⟩ => ⟨S512x2048, .f32⟩
  | .hbm, ⟨63, _⟩ => ⟨S512x2048, .f32⟩
  | .hbm, ⟨64, _⟩ => ⟨S512x2048, .f32⟩
  | .hbm, ⟨65, _⟩ => ⟨S512x2048, .f32⟩
  | .hbm, ⟨66, _⟩ => ⟨S2048x50257, .f32⟩
  | .hbm, ⟨67, _⟩ => ⟨S512x50257, .f32⟩
  | .hbm, ⟨68, _⟩ => ⟨S1x50257, .f32⟩
  | .hbm, ⟨69, _⟩ => ⟨S512x50257, .f32⟩
  | .hbm, ⟨70, _⟩ => ⟨S512x50257, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S4x2048_S1x4x2048_1_2 : S4x2048.BroadcastsInDim S1x4x2048 (![1, 2] : Fin 2 → Fin S1x4x2048.rank)
  bcast_S1x4x2048_S512x4x2048_0_1_2 : S1x4x2048.BroadcastsInDim S512x4x2048 (![0, 1, 2] : Fin 3 → Fin S512x4x2048.rank)
  slices_S512x4x2048_S512x1x2048_0_0_0 : S512x4x2048.Slices ![0, 0, 0] S512x1x2048
  shapeCasts_S512x1x2048_S512x2048 : S512x1x2048.ShapeCasts S512x2048
  bcast_S_S512x2048 : S_.BroadcastsInDim S512x2048 (![] : Fin 0 → Fin S512x2048.rank)
  slices_S512x4x2048_S512x1x2048_0_1_0 : S512x4x2048.Slices ![0, 1, 0] S512x1x2048
  slices_S512x4x2048_S512x1x2048_0_2_0 : S512x4x2048.Slices ![0, 2, 0] S512x1x2048
  slices_S512x4x2048_S512x1x2048_0_3_0 : S512x4x2048.Slices ![0, 3, 0] S512x1x2048
  transposes_S50257x2048_S2048x50257_1_0 : S50257x2048.Transposes [1, 0] S2048x50257
  bcast_S50257_S1x50257_1 : S50257.BroadcastsInDim S1x50257 (![1] : Fin 1 → Fin S1x50257.rank)
  bcast_S1x50257_S512x50257_0_1 : S1x50257.BroadcastsInDim S512x50257 (![0, 1] : Fin 2 → Fin S512x50257.rank)
  gather_S50257x1024_S512x1_S512x1024_1_0_n_n_0_1_11024_wf : GatherDims.WF S50257x1024 S512x1 S512x1024 [1] [0] [] [0] [] 1 ![1, 1024]
  dot_S512x1024_S4x2048x1024_S512x4x2048_1_2_0_01_n_n_wf : DotDims.WF S512x1024 S4x2048x1024 S512x4x2048 [1] [2] [0] [0, 1] [] []
  dot_S512x2048_S4x2048x2048_S512x4x2048_1_2_0_01_n_n_wf : DotDims.WF S512x2048 S4x2048x2048 S512x4x2048 [1] [2] [0] [0, 1] [] []
  dot_S512x2048_S2048x50257_S512x50257_1_0_0_1_n_n_wf : DotDims.WF S512x2048 S2048x50257 S512x50257 [1] [0] [0] [1] [] []

variable [Facts₀]

def gather_S50257x1024_S512x1_S512x1024_1_0_n_n_0_1_11024 : GatherDims S50257x1024 S512x1 S512x1024 where
  offsetDims := [1]
  collapsedSliceDims := [0]
  operandBatchingDims := []
  startIndicesBatchingDims := []
  startIndexMap := [0]
  indexVectorDim := 1
  sliceSizes := ![1, 1024]
  wf := gather_S50257x1024_S512x1_S512x1024_1_0_n_n_0_1_11024_wf
def dot_S512x1024_S4x2048x1024_S512x4x2048_1_2_0_01_n_n : DotDims S512x1024 S4x2048x1024 S512x4x2048 where
  lhsContracting := [1]
  rhsContracting := [2]
  lhsNonContracting := [0]
  rhsNonContracting := [0, 1]
  lhsBatch := []
  rhsBatch := []
  wf := dot_S512x1024_S4x2048x1024_S512x4x2048_1_2_0_01_n_n_wf
def dot_S512x2048_S4x2048x2048_S512x4x2048_1_2_0_01_n_n : DotDims S512x2048 S4x2048x2048 S512x4x2048 where
  lhsContracting := [1]
  rhsContracting := [2]
  lhsNonContracting := [0]
  rhsNonContracting := [0, 1]
  lhsBatch := []
  rhsBatch := []
  wf := dot_S512x2048_S4x2048x2048_S512x4x2048_1_2_0_01_n_n_wf
def dot_S512x2048_S2048x50257_S512x50257_1_0_0_1_n_n : DotDims S512x2048 S2048x50257 S512x50257 where
  lhsContracting := [1]
  rhsContracting := [0]
  lhsNonContracting := [0]
  rhsNonContracting := [1]
  lhsBatch := []
  rhsBatch := []
  wf := dot_S512x2048_S2048x50257_S512x50257_1_0_0_1_n_n_wf

class Facts : Prop extends Facts₀ where

variable [Facts]
-- ==== Proof.Spec.lean ====
/-
  The specification of one LSTM step followed by a dense decoder, as functions on the extended reals, index by index.

  From the embedded inputs `x` (512 × 1024), the previous state `h0`, `c0` (512 × 2048), the four gates' weights
  `Wx` (4 × 2048 × 1024), `Wh` (4 × 2048 × 2048) and biases `bx`, `bh` (4 × 2048), gate `g` at row `p` and unit `q` is
      gate g p q = (∑ e, x p e · Wx g q e + ∑ k, h0 p k · Wh g q k) + (bx g q + bh g q),
  the new cell state is  cx p q = σ(gate 0) · c0 p q + σ(gate 1) · tanh(gate 3),  the new hidden state
  hx p q = σ(gate 2) · tanh(cx p q),  and the decoder's logits are  out p v = ∑ k, hx p k · Wd v k + bd v,
  with σ x = 1 / (1 + e^(−x)) and every operation the extended reals' own.
  `gate_assoc` is the one algebraic law the certificate needs: the bias may be added in two steps around the second
  product, ((∑ x·Wx + bx) + ∑ h0·Wh) + bh, since addition on the extended reals is commutative and associative
  (no finiteness is used).
-/
import Idealize.ShloMosaic.PureOps.Ideal
import Idealize.ShloMosaic.Lib.ValueIdx

noncomputable section

namespace Cert.LstmSpec

open Idealize.ShloMosaic Idealize.ShloMosaic.ValueIdx

/-- Rows of the batch, hidden units, embedding width, vocabulary. -/
abbrev SBxE : Shape := ⟨2, ![512, 1024]⟩
abbrev SBxH : Shape := ⟨2, ![512, 2048]⟩
abbrev SGxHxE : Shape := ⟨3, ![4, 2048, 1024]⟩
abbrev SGxHxH : Shape := ⟨3, ![4, 2048, 2048]⟩
abbrev SGxH : Shape := ⟨2, ![4, 2048]⟩
abbrev SVxH : Shape := ⟨2, ![50257, 2048]⟩
abbrev SV : Shape := ⟨1, ![50257]⟩
abbrev SBxV : Shape := ⟨2, ![512, 50257]⟩

variable (x : SBxE.Idx → EReal) (h0 c0 : SBxH.Idx → EReal) (Wx : SGxHxE.Idx → EReal) (bx : SGxH.Idx → EReal)
  (Wh : SGxHxH.Idx → EReal) (bh : SGxH.Idx → EReal) (Wd : SVxH.Idx → EReal) (bd : SV.Idx → EReal)

/-- The input projection of gate `g`: row `p` of `x` against row `q` of `Wx g`. -/
def projX (g : Fin 4) (p : Fin 512) (q : Fin 2048) : EReal := ∑ e : Fin 1024, x (ix2 p e) * Wx (ix3 g q e)
/-- The recurrent projection of gate `g`: row `p` of `h0` against row `q` of `Wh g`. -/
def projH (g : Fin 4) (p : Fin 512) (q : Fin 2048) : EReal := ∑ k : Fin 2048, h0 (ix2 p k) * Wh (ix3 g q k)

/-- Gate `g` before its nonlinearity, the two biases summed first. -/
def gate (g : Fin 4) (p : Fin 512) (q : Fin 2048) : EReal :=
  (projX x Wx g p q + projH h0 Wh g p q) + (bx (ix2 g q) + bh (ix2 g q))

/-- The same with each bias added right after its own product: equal, by commutativity and associativity of `+`. -/
theorem gate_assoc (g : Fin 4) (p : Fin 512) (q : Fin 2048) :
    ((projX x Wx g p q + bx (ix2 g q)) + projH h0 Wh g p q) + bh (ix2 g q) = gate x h0 Wx bx Wh bh g p q := by
  unfold gate; ac_rfl

/-- The new cell state. -/
def cx (p : Fin 512) (q : Fin 2048) : EReal :=
  Ideal.logistic (gate x h0 Wx bx Wh bh 0 p q) * c0 (ix2 p q)
    + Ideal.logistic (gate x h0 Wx bx Wh bh 1 p q) * Ideal.tanh (gate x h0 Wx bx Wh bh 3 p q)

/-- The new hidden state. -/
def hx (p : Fin 512) (q : Fin 2048) : EReal :=
  Ideal.logistic (gate x h0 Wx bx Wh bh 2 p q) * Ideal.tanh (cx x h0 c0 Wx bx Wh bh p q)

/-- The decoder's logits. -/
def out (p : Fin 512) (v : Fin 50257) : EReal :=
  (∑ k : Fin 2048, hx x h0 c0 Wx bx Wh bh p k * Wd (ix2 v k)) + bd (ix1 v)

/-- The three results as whole arrays. -/
def cxArr : SBxH.Idx → EReal := fun j => cx x h0 c0 Wx bx Wh bh (j 0) (j 1)
def hxArr : SBxH.Idx → EReal := fun j => hx x h0 c0 Wx bx Wh bh (j 0) (j 1)
def outArr : SBxV.Idx → EReal := fun j => out x h0 c0 Wx bx Wh bh Wd bd (j 0) (j 1)

theorem cxArr_ix2 (p : Fin 512) (q : Fin 2048) : cxArr x h0 c0 Wx bx Wh bh (ix2 p q) = cx x h0 c0 Wx bx Wh bh p q := rfl
theorem hxArr_ix2 (p : Fin 512) (q : Fin 2048) : hxArr x h0 c0 Wx bx Wh bh (ix2 p q) = hx x h0 c0 Wx bx Wh bh p q := rfl
theorem outArr_ix2 (p : Fin 512) (v : Fin 50257) :
    outArr x h0 c0 Wx bx Wh bh Wd bd (ix2 p v) = out x h0 c0 Wx bx Wh bh Wd bd p v := rfl

end Cert.LstmSpec

end
-- ==== Proof.RefGate.lean ====
/-
  The reference's four gate pre-activations, read at an index.

  The reference embeds the token ids (the index normalisation followed by the row lookup in the embedding
  table); that embedded input is kept as one function `xOf inp E` of the ids and the table and is never opened.
  It then forms, in ONE array of shape 512 × 4 × 2048, for every row p, gate g and unit q,
      ((∑ e, x p e · Wx g q e  +  bx g q)  +  ∑ k, h0 p k · Wh g q k)  +  bh g q,
  each bias broadcast over the rows and added right after its own product. By commutativity and associativity
  of addition on the extended reals this is the specification's `gate g p q`, whose two biases are summed first.
  Gate g of the 512 × 2048 arrays the nonlinearities act on is the slice [·, g, ·] of that array with its unit
  axis dropped: entry (p, q) of the slice is entry (p, g, q), because (p · 2048 + q) / 2048 = p and
  (p · 2048 + q) % 2048 = q for q < 2048.
-/
import proofs.«178993_j37374805410197_2_alg».proof.Proof.Gen.ReferenceIdeal.Read
import proofs.«178993_j37374805410197_2_alg».proof.Proof.Spec

noncomputable section

namespace Cert.RefBridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The embedded input: row `p` is the embedding-table row selected by the (normalised) token id of row `p`.
    One function of the ids and the table; nothing below depends on how it is computed. -/
def xOf (inp : (⟨S512, .i32⟩ : BufTy).Contents (Elt Ideal)) (E : (⟨S50257x1024, .f32⟩ : BufTy).Contents (Elt Ideal)) :
    (⟨S512x1024, .f32⟩ : BufTy).Contents (Elt Ideal) :=
  val_main_v6 (F := Ideal) inp E

theorem xOf_def (inp : (⟨S512, .i32⟩ : BufTy).Contents (Elt Ideal)) (E : (⟨S50257x1024, .f32⟩ : BufTy).Contents (Elt Ideal)) :
    val_main_v6 (F := Ideal) inp E = xOf inp E := rfl

/-! ## Where each operand of entry (p, g, q) is read -/

section Indices
variable (p : Fin 512) (g : Fin 4) (q : Fin 2048)

/-- The input product reads row `p` of the embedded input … -/
theorem lidx7 (k : Fin 1024) : lidx_main_v7 (ix3 p g q) k = ix2 p k :=
  funext fun a => Fin.ext (by match a with | ⟨0, _⟩ => rfl | ⟨1, _⟩ => rfl)
/-- … against row `q` of gate `g`'s input weights. -/
theorem ridx7 (k : Fin 1024) : ridx_main_v7 (ix3 p g q) k = ix3 g q k :=
  funext fun a => Fin.ext (by match a with | ⟨0, _⟩ => rfl | ⟨1, _⟩ => rfl | ⟨2, _⟩ => rfl)
/-- The recurrent product reads row `p` of the previous hidden state … -/
theorem lidx11 (k : Fin 2048) : lidx_main_v11 (ix3 p g q) k = ix2 p k :=
  funext fun a => Fin.ext (by match a with | ⟨0, _⟩ => rfl | ⟨1, _⟩ => rfl)
/-- … against row `q` of gate `g`'s recurrent weights. -/
theorem ridx11 (k : Fin 2048) : ridx_main_v11 (ix3 p g q) k = ix3 g q k :=
  funext fun a => Fin.ext (by match a with | ⟨0, _⟩ => rfl | ⟨1, _⟩ => rfl | ⟨2, _⟩ => rfl)
/-- The input bias, broadcast over the rows, is read at (g, q). -/
theorem idx89 : idx_main_v8 (idx_main_v9 (ix3 p g q)) = ix2 g q :=
  funext fun a => Fin.ext (by match a with | ⟨0, _⟩ => rfl | ⟨1, _⟩ => rfl)
/-- The recurrent bias, broadcast over the rows, is read at (g, q). -/
theorem idx1314 : idx_main_v13 (idx_main_v14 (ix3 p g q)) = ix2 g q :=
  funext fun a => Fin.ext (by match a with | ⟨0, _⟩ => rfl | ⟨1, _⟩ => rfl)

end Indices

/-! ## The gate array -/

/-- Entry (p, g, q) of the reference's gate array is the specification's gate `g` at row `p`, unit `q`. -/
theorem v15_gate (x0 : (⟨S512, .i32⟩ : BufTy).Contents (Elt Ideal)) (x1 : (⟨S512x2048, .f32⟩ : BufTy).Contents (Elt Ideal))
    (x3 : (⟨S50257x1024, .f32⟩ : BufTy).Contents (Elt Ideal)) (x4 : (⟨S4x2048x1024, .f32⟩ : BufTy).Contents (Elt Ideal))
    (x5 : (⟨S4x2048, .f32⟩ : BufTy).Contents (Elt Ideal)) (x6 : (⟨S4x2048x2048, .f32⟩ : BufTy).Contents (Elt Ideal))
    (x7 : (⟨S4x2048, .f32⟩ : BufTy).Contents (Elt Ideal)) (p : Fin 512) (g : Fin 4) (q : Fin 2048) :
    val_main_v15 (F := Ideal) x0 x1 x3 x4 x5 x6 x7 (ix3 p g q)
      = LstmSpec.gate (xOf x0 x3) x1 x4 x5 x6 x7 g p q := by
  rw [val_main_v15_apply, val_main_v12_apply, val_main_v10_apply, val_main_v7_apply, val_main_v9_apply, val_main_v8_apply,
    val_main_v11_apply, val_main_v14_apply, val_main_v13_apply]
  simp only [lidx7, ridx7, lidx11, ridx11, idx89, idx1314, Ideal.addf_def, xOf_def]
  exact LstmSpec.gate_assoc (xOf x0 x3) x1 x4 x5 x6 x7 g p q

end Cert.RefBridge

end
-- ==== Proof.RefCell.lean ====
/-
  The reference's new cell state and hidden state, read at an index.

  Gate g of the 512 × 2048 arrays the nonlinearities act on is the slice [·, g, ·] of the 512 × 4 × 2048 gate array
  with its unit axis dropped: entry (p, q) of it is entry (p, g, q) of the gate array, because
  (p · 2048 + q) / 2048 = p and (p · 2048 + q) % 2048 = q for q < 2048.
  The reference spells the sigmoid out as 1 / (1 + e^(−t)) with both 1's the float 1.0 broadcast to the array;
  the float 1.0 is the real number 1, so this is the extended reals' logistic function by its definition.
  Then  cx = σ(gate 0) · c0 + σ(gate 1) · tanh(gate 3)  and  hx = σ(gate 2) · tanh(cx), entry by entry.
-/
import proofs.«178993_j37374805410197_2_alg».proof.Proof.RefGate
import Idealize.ShloMosaic.PureOps.IdealRules

noncomputable section

namespace Cert.RefBridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The float 1.0 is the real number 1. -/
theorem one_f32 : Ideal.ofBits .f32 0x3F800000#32 = 1 := IdealRules.sign_bit.ideal_onePat .f32

/-- 1 / (1 + e^(−t)), spelt with the float 1.0, is the logistic function. -/
theorem logistic_spelt (t : EReal) :
    Ideal.div (Ideal.ofBits .f32 0x3F800000#32) (Ideal.ofBits .f32 0x3F800000#32 + Ideal.exp (-t)) = Ideal.logistic t := by
  rw [one_f32]; rfl

/-! ## Entry (p, q) of the slice of gate g is entry (p, g, q) of the gate array -/

section Indices
variable (p : Fin 512) (q : Fin 2048)

theorem idx_gate0 : idx_main_v16 (idx_main_v17 (ix2 p q)) = ix3 p (0 : Fin 4) q := by
  have hp := p.isLt; have hq := q.isLt
  exact funext fun a => Fin.ext (by
    match a with
    | ⟨0, _⟩ => show (p.val * 2048 + q.val) / 2048 = p.val; omega
    | ⟨1, _⟩ => rfl
    | ⟨2, _⟩ => show (p.val * 2048 + q.val) % 2048 = q.val; omega)
theorem idx_gate1 : idx_main_v24 (idx_main_v25 (ix2 p q)) = ix3 p (1 : Fin 4) q := by
  have hp := p.isLt; have hq := q.isLt
  exact funext fun a => Fin.ext (by
    match a with
    | ⟨0, _⟩ => show (p.val * 2048 + q.val) / 2048 = p.val; omega
    | ⟨1, _⟩ => rfl
    | ⟨2, _⟩ => show (p.val * 2048 + q.val) % 2048 = q.val; omega)
theorem idx_gate2 : idx_main_v32 (idx_main_v33 (ix2 p q)) = ix3 p (2 : Fin 4) q := by
  have hp := p.isLt; have hq := q.isLt
  exact funext fun a => Fin.ext (by
    match a with
    | ⟨0, _⟩ => show (p.val * 2048 + q.val) / 2048 = p.val; omega
    | ⟨1, _⟩ => rfl
    | ⟨2, _⟩ => show (p.val * 2048 + q.val) % 2048 = q.val; omega)
theorem idx_gate3 : idx_main_v40 (idx_main_v41 (ix2 p q)) = ix3 p (3 : Fin 4) q := by
  have hp := p.isLt; have hq := q.isLt
  exact funext fun a => Fin.ext (by
    match a with
    | ⟨0, _⟩ => show (p.val * 2048 + q.val) / 2048 = p.val; omega
    | ⟨1, _⟩ => rfl
    | ⟨2, _⟩ => show (p.val * 2048 + q.val) % 2048 = q.val; omega)

end Indices

section Stages
variable (x0 : (⟨S512, .i32⟩ : BufTy).Contents (Elt Ideal)) (x1 x2 : (⟨S512x2048, .f32⟩ : BufTy).Contents (Elt Ideal))
  (x3 : (⟨S50257x1024, .f32⟩ : BufTy).Contents (Elt Ideal)) (x4 : (⟨S4x2048x1024, .f32⟩ : BufTy).Contents (Elt Ideal))
  (x5 : (⟨S4x2048, .f32⟩ : BufTy).Contents (Elt Ideal)) (x6 : (⟨S4x2048x2048, .f32⟩ : BufTy).Contents (Elt Ideal))
  (x7 : (⟨S4x2048, .f32⟩ : BufTy).Contents (Elt Ideal)) (p : Fin 512) (q : Fin 2048)

/-- The forget gate: σ(gate 0). -/
theorem v23_sigmoid : val_main_v23 (F := Ideal) x0 x1 x3 x4 x5 x6 x7 (ix2 p q)
    = Ideal.logistic (LstmSpec.gate (xOf x0 x3) x1 x4 x5 x6 x7 0 p q) := by
  rw [val_main_v23_apply, val_main_v22_apply, val_main_cst_1_apply, val_main_v21_apply, val_main_v20_apply, val_main_cst_apply,
    val_main_v19_apply, val_main_v18_apply, val_main_v17_apply, val_main_v16_apply, idx_gate0, v15_gate]
  simp only [Ideal.hostDivf_def, Ideal.addf_def, Ideal.hostUnary_exp_def, Ideal.hostNegf_def, Ideal.negf_def, Ideal.ofBits_def]
  exact logistic_spelt _

/-- The input gate: σ(gate 1). -/
theorem v31_sigmoid : val_main_v31 (F := Ideal) x0 x1 x3 x4 x5 x6 x7 (ix2 p q)
    = Ideal.logistic (LstmSpec.gate (xOf x0 x3) x1 x4 x5 x6 x7 1 p q) := by
  rw [val_main_v31_apply, val_main_v30_apply, val_main_cst_3_apply, val_main_v29_apply, val_main_v28_apply, val_main_cst_2_apply,
    val_main_v27_apply, val_main_v26_apply, val_main_v25_apply, val_main_v24_apply, idx_gate1, v15_gate]
  simp only [Ideal.hostDivf_def, Ideal.addf_def, Ideal.hostUnary_exp_def, Ideal.hostNegf_def, Ideal.negf_def, Ideal.ofBits_def]
  exact logistic_spelt _

/-- The output gate: σ(gate 2). -/
theorem v39_sigmoid : val_main_v39 (F := Ideal) x0 x1 x3 x4 x5 x6 x7 (ix2 p q)
    = Ideal.logistic (LstmSpec.gate (xOf x0 x3) x1 x4 x5 x6 x7 2 p q) := by
  rw [val_main_v39_apply, val_main_v38_apply, val_main_cst_5_apply, val_main_v37_apply, val_main_v36_apply, val_main_cst_4_apply,
    val_main_v35_apply, val_main_v34_apply, val_main_v33_apply, val_main_v32_apply, idx_gate2, v15_gate]
  simp only [Ideal.hostDivf_def, Ideal.addf_def, Ideal.hostUnary_exp_def, Ideal.hostNegf_def, Ideal.negf_def, Ideal.ofBits_def]
  exact logistic_spelt _

/-- The candidate cell state: tanh(gate 3). -/
theorem v42_tanh : val_main_v42 (F := Ideal) x0 x1 x3 x4 x5 x6 x7 (ix2 p q)
    = Ideal.tanh (LstmSpec.gate (xOf x0 x3) x1 x4 x5 x6 x7 3 p q) := by
  rw [val_main_v42_apply, val_main_v41_apply, val_main_v40_apply, idx_gate3, v15_gate]
  rfl

/-- The new cell state at (p, q). -/
theorem v45_cx : val_main_v45 (F := Ideal) x0 x1 x2 x3 x4 x5 x6 x7 (ix2 p q)
    = LstmSpec.cx (xOf x0 x3) x1 x2 x4 x5 x6 x7 p q := by
  rw [val_main_v45_apply, val_main_v43_apply, val_main_v44_apply, v23_sigmoid, v31_sigmoid, v42_tanh]
  rfl

/-- The new hidden state at (p, q). -/
theorem v47_hx : val_main_v47 (F := Ideal) x0 x1 x2 x3 x4 x5 x6 x7 (ix2 p q)
    = LstmSpec.hx (xOf x0 x3) x1 x2 x4 x5 x6 x7 p q := by
  rw [val_main_v47_apply, val_main_v46_apply, v39_sigmoid, v45_cx]
  rfl

end Stages

/-! ## The two state arrays -/

section Arrays
variable (x0 : (⟨S512, .i32⟩ : BufTy).Contents (Elt Ideal)) (x1 x2 : (⟨S512x2048, .f32⟩ : BufTy).Contents (Elt Ideal))
  (x3 : (⟨S50257x1024, .f32⟩ : BufTy).Contents (Elt Ideal)) (x4 : (⟨S4x2048x1024, .f32⟩ : BufTy).Contents (Elt Ideal))
  (x5 : (⟨S4x2048, .f32⟩ : BufTy).Contents (Elt Ideal)) (x6 : (⟨S4x2048x2048, .f32⟩ : BufTy).Contents (Elt Ideal))
  (x7 : (⟨S4x2048, .f32⟩ : BufTy).Contents (Elt Ideal))

theorem v45_cxArr : val_main_v45 (F := Ideal) x0 x1 x2 x3 x4 x5 x6 x7 = LstmSpec.cxArr (xOf x0 x3) x1 x2 x4 x5 x6 x7 := by
  funext i
  obtain ⟨p, q, rfl⟩ : ∃ (p : Fin 512) (q : Fin 2048), i = ix2 p q := ⟨i 0, i 1, eq_ix2 i⟩
  rw [LstmSpec.cxArr_ix2]
  exact v45_cx x0 x1 x2 x3 x4 x5 x6 x7 p q

theorem v47_hxArr : val_main_v47 (F := Ideal) x0 x1 x2 x3 x4 x5 x6 x7 = LstmSpec.hxArr (xOf x0 x3) x1 x2 x4 x5 x6 x7 := by
  funext i
  obtain ⟨p, q, rfl⟩ : ∃ (p : Fin 512) (q : Fin 2048), i = ix2 p q := ⟨i 0, i 1, eq_ix2 i⟩
  rw [LstmSpec.hxArr_ix2]
  exact v47_hx x0 x1 x2 x3 x4 x5 x6 x7 p q

end Arrays

end Cert.RefBridge

end
-- ==== Proof.RefOut.lean ====
/-
  The reference's decoder, read at an index, and the three results of its run.

  The decoder multiplies the new hidden state (512 × 2048) by the TRANSPOSE of the decoder weights (2048 × 50257)
  and adds the bias broadcast over the rows: entry (p, v) is  ∑ k, hx p k · Wd v k  +  bd v, the transposed
  matrix's entry (k, v) being Wd's entry (v, k).
-/
import proofs.«178993_j37374805410197_2_alg».proof.Proof.RefCell

noncomputable section

namespace Cert.RefBridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Indices
variable (p : Fin 512) (v : Fin 50257) (k : Fin 2048)

/-- The decoder's product reads row `p` of the hidden state … -/
theorem lidx49 : lidx_main_v49 (ix2 p v) k = ix2 p k :=
  funext fun a => Fin.ext (by match a with | ⟨0, _⟩ => rfl | ⟨1, _⟩ => rfl)
/-- … against column `v` of the transposed weights, that is row `v` of the weights. -/
theorem idx48_ridx49 : idx_main_v48 (ridx_main_v49 (ix2 p v) k) = ix2 v k :=
  funext fun a => Fin.ext (by match a with | ⟨0, _⟩ => rfl | ⟨1, _⟩ => rfl)
/-- The decoder's bias, broadcast over the rows, is read at `v`. -/
theorem idx5051 : idx_main_v50 (idx_main_v51 (ix2 p v)) = ix1 v :=
  funext fun a => Fin.ext (by match a with | ⟨0, _⟩ => rfl)

end Indices

section Arrays
variable (x0 : (⟨S512, .i32⟩ : BufTy).Contents (Elt Ideal)) (x1 x2 : (⟨S512x2048, .f32⟩ : BufTy).Contents (Elt Ideal))
  (x3 : (⟨S50257x1024, .f32⟩ : BufTy).Contents (Elt Ideal)) (x4 : (⟨S4x2048x1024, .f32⟩ : BufTy).Contents (Elt Ideal))
  (x5 : (⟨S4x2048, .f32⟩ : BufTy).Contents (Elt Ideal)) (x6 : (⟨S4x2048x2048, .f32⟩ : BufTy).Contents (Elt Ideal))
  (x7 : (⟨S4x2048, .f32⟩ : BufTy).Contents (Elt Ideal)) (x8 : (⟨S50257x2048, .f32⟩ : BufTy).Contents (Elt Ideal))
  (x9 : (⟨S50257, .f32⟩ : BufTy).Contents (Elt Ideal))

/-- The logits at (p, v). -/
theorem v52_out (p : Fin 512) (v : Fin 50257) : val_main_v52 (F := Ideal) x0 x1 x2 x3 x4 x5 x6 x7 x8 x9 (ix2 p v)
    = LstmSpec.out (xOf x0 x3) x1 x2 x4 x5 x6 x7 x8 x9 p v := by
  rw [val_main_v52_apply, val_main_v49_apply, val_main_v51_apply, val_main_v50_apply, idx5051]
  have hsum : (∑ k : Fin 2048, val_main_v47 (F := Ideal) x0 x1 x2 x3 x4 x5 x6 x7 (lidx_main_v49 (ix2 p v) k)
        * val_main_v48 (F := Ideal) x8 (ridx_main_v49 (ix2 p v) k))
      = ∑ k : Fin 2048, LstmSpec.hx (xOf x0 x3) x1 x2 x4 x5 x6 x7 p k * x8 (ix2 v k) :=
    Finset.sum_congr rfl fun k _ => by rw [lidx49, v47_hx, val_main_v48_apply, idx48_ridx49]
  rw [hsum]
  rfl

theorem v52_outArr : val_main_v52 (F := Ideal) x0 x1 x2 x3 x4 x5 x6 x7 x8 x9
    = LstmSpec.outArr (xOf x0 x3) x1 x2 x4 x5 x6 x7 x8 x9 := by
  funext i
  obtain ⟨p, v, rfl⟩ : ∃ (p : Fin 512) (v : Fin 50257), i = ix2 p v := ⟨i 0, i 1, eq_ix2 i⟩
  rw [LstmSpec.outArr_ix2]
  exact v52_out x0 x1 x2 x3 x4 x5 x6 x7 x8 x9 p v

end Arrays

end Cert.RefBridge

end
-- ==== Proof.RefRun.lean ====
/-
  The reference's run, with its three results stated by the specification.

  Every weakly fair execution of the reference program terminates with the logits, the new hidden state and the
  new cell state equal, as whole arrays, to the specification's `outArr`, `hxArr` and `cxArr` of the program's
  arguments as the run found them (the embedded input being `xOf` of the token ids and the embedding table),
  and with the ten arguments unchanged.
-/
import proofs.«178993_j37374805410197_2_alg».proof.Proof.RefOut

noncomputable section

namespace Cert.RefBridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Results
variable (m : (ℓ : Loc nD τ sig) → Buf (Elt Ideal) ℓ) (c : Dev nD)

/-- The new cell state the run leaves is the specification's. -/
theorem res_cx : Cert.ReferenceIdeal.Value.res_main_v45 (F := Ideal) m c
    = LstmSpec.cxArr (xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  (val_main_v45_eq m c).trans (v45_cxArr _ _ _ _ _ _ _ _)

/-- The new hidden state the run leaves is the specification's. -/
theorem res_hx : Cert.ReferenceIdeal.Value.res_main_v47 (F := Ideal) m c
    = LstmSpec.hxArr (xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  (val_main_v47_eq m c).trans (v47_hxArr _ _ _ _ _ _ _ _)

/-- The logits the run leaves are the specification's. -/
theorem res_out : Cert.ReferenceIdeal.Value.res_main_v52 (F := Ideal) m c
    = LstmSpec.outArr (xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (val_main_v52_eq m c).trans (v52_outArr _ _ _ _ _ _ _ _ _ _)

end Results

/-- The reference's run: it terminates, its three results are the specification's arrays of its arguments, and
    the arguments are unchanged. -/
theorem ref_run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v52) = LstmSpec.outArr (xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v47) = LstmSpec.hxArr (xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v45) = LstmSpec.cxArr (xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run Cert.ReferenceIdeal.defs _ _).mono
    (fun _ h c => ⟨(h c).1.trans (res_out m c), (h c).2.1.trans (res_hx m c), (h c).2.2.1.trans (res_cx m c), (h c).2.2.2⟩)
    (Cert.ReferenceIdeal.Value.run (F := Ideal) m ρ)

end Cert.RefBridge

end
-- ==== Proof.KI.Region0.lean ====
import proofs.«178993_j37374805410197_2_alg».proof.Proof.Gen.KernelIdeal.Launch
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate kernel's region (pipeline 0), at the contents `V` of the TensorCore's buffers when the region is entered

One grid point computes one column tile (256 hidden units) of the four gates for all 512 rows and stores the
tile of the new hidden state (in two float formats) and of the new cell state. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rA1 : Rect S512x1024 := Rect.unit (s := S512x1024) ![0, 0] S512x1024.size inb_S512x1024_S512x1024_0_0
abbrev rA2 : Rect S512x2048 := Rect.unit (s := S512x2048) ![0, 0] S512x2048.size inb_S512x2048_S512x2048_0_0
abbrev rA3 : Rect S512x256 := Rect.unit (s := S512x256) ![0, 0] S512x256.size inb_S512x256_S512x256_0_0
abbrev rX0 : Rect S4x256x1024 := Rect.unit (s := S4x256x1024) ![0, 0, 0] S1x256x1024.size inb_S4x256x1024_S1x256x1024_0_0_0
abbrev rH0 : Rect S4x256x2048 := Rect.unit (s := S4x256x2048) ![0, 0, 0] S1x256x2048.size inb_S4x256x2048_S1x256x2048_0_0_0
abbrev rB0 : Rect S4x256 := Rect.unit (s := S4x256) ![0, 0] S1x256.size inb_S4x256_S1x256_0_0
abbrev rX1 : Rect S4x256x1024 := Rect.unit (s := S4x256x1024) ![1, 0, 0] S1x256x1024.size inb_S4x256x1024_S1x256x1024_1_0_0
abbrev rH1 : Rect S4x256x2048 := Rect.unit (s := S4x256x2048) ![1, 0, 0] S1x256x2048.size inb_S4x256x2048_S1x256x2048_1_0_0
abbrev rB1 : Rect S4x256 := Rect.unit (s := S4x256) ![1, 0] S1x256.size inb_S4x256_S1x256_1_0
abbrev rX2 : Rect S4x256x1024 := Rect.unit (s := S4x256x1024) ![2, 0, 0] S1x256x1024.size inb_S4x256x1024_S1x256x1024_2_0_0
abbrev rH2 : Rect S4x256x2048 := Rect.unit (s := S4x256x2048) ![2, 0, 0] S1x256x2048.size inb_S4x256x2048_S1x256x2048_2_0_0
abbrev rB2 : Rect S4x256 := Rect.unit (s := S4x256) ![2, 0] S1x256.size inb_S4x256_S1x256_2_0
abbrev rX3 : Rect S4x256x1024 := Rect.unit (s := S4x256x1024) ![3, 0, 0] S1x256x1024.size inb_S4x256x1024_S1x256x1024_3_0_0
abbrev rH3 : Rect S4x256x2048 := Rect.unit (s := S4x256x2048) ![3, 0, 0] S1x256x2048.size inb_S4x256x2048_S1x256x2048_3_0_0
abbrev rB3 : Rect S4x256 := Rect.unit (s := S4x256) ![3, 0] S1x256.size inb_S4x256_S1x256_3_0

/-! ## What the body leaves in each output window's buffer -/

/-- The tile of the new cell state, from the six input blocks. -/
def cxTile (x1 : Vec F S512x1024 .f32) (x2 : Vec F S512x2048 .f32) (x3 : Vec F S512x256 .f32) (x4 : Vec F S4x256x1024 .f32) (x5 : Vec F S4x256x2048 .f32) (x6 : Vec F S4x256 .f32) : FVec F S512x256 .f32 :=
  k0_pay7 (k0_pay2 (View.ld x1 rA1)) (k0_pay3 (View.ld x2 rA2)) (View.ld x3 rA3) (k0_pay4 (View.ld x1 rA1) (View.ld x2 rA2) (View.ld x4 rX0) (View.ld x5 rH0) (View.ld x6 rB0)) (k0_pay5 (View.ld x1 rA1) (View.ld x2 rA2) (View.ld x4 rX1) (View.ld x5 rH1)) (k0_pay6 (View.ld x6 rB1)) (View.ld x4 rX3) (View.ld x5 rH3) (View.ld x6 rB3)
/-- The tile of the new hidden state, from the six input blocks. -/
def hxTile (x1 : Vec F S512x1024 .f32) (x2 : Vec F S512x2048 .f32) (x3 : Vec F S512x256 .f32) (x4 : Vec F S4x256x1024 .f32) (x5 : Vec F S4x256x2048 .f32) (x6 : Vec F S4x256 .f32) : FVec F S512x256 .f32 :=
  k0_pay8 (k0_pay2 (View.ld x1 rA1)) (k0_pay3 (View.ld x2 rA2)) (View.ld x3 rA3) (k0_pay4 (View.ld x1 rA1) (View.ld x2 rA2) (View.ld x4 rX0) (View.ld x5 rH0) (View.ld x6 rB0)) (k0_pay5 (View.ld x1 rA1) (View.ld x2 rA2) (View.ld x4 rX1) (View.ld x5 rH1)) (k0_pay6 (View.ld x6 rB1)) (View.ld x4 rX2) (View.ld x5 rH2) (View.ld x6 rB2) (View.ld x4 rX3) (View.ld x5 rH3) (View.ld x6 rB3)

def out0_6 (x1 : Vec F S512x1024 .f32) (x2 : Vec F S512x2048 .f32) (x3 : Vec F S512x256 .f32) (x4 : Vec F S4x256x1024 .f32) (x5 : Vec F S4x256x2048 .f32) (x6 : Vec F S4x256 .f32) : Vec F S512x256 .f32 := View.canon [⟨rA3, hxTile x1 x2 x3 x4 x5 x6⟩]
def out0_7 (x1 : Vec F S512x1024 .f32) (x2 : Vec F S512x2048 .f32) (x3 : Vec F S512x256 .f32) (x4 : Vec F S4x256x1024 .f32) (x5 : Vec F S4x256x2048 .f32) (x6 : Vec F S4x256 .f32) : Vec F S512x256 .f32 := View.canon [⟨rA3, cxTile x1 x2 x3 x4 x5 x6⟩]
def out0_8 (x1 : Vec F S512x1024 .f32) (x2 : Vec F S512x2048 .f32) (x3 : Vec F S512x256 .f32) (x4 : Vec F S4x256x1024 .f32) (x5 : Vec F S4x256x2048 .f32) (x6 : Vec F S4x256 .f32) : Vec F S512x256 .bf16 := View.canon [⟨rA3, k0_pay1 (hxTile x1 x2 x3 x4 x5 x6)⟩]

/-- One store of the whole tile covers the buffer. -/
theorem cover0_f32 (p0 : Vec F S512x256 .f32) (y : S512x256.Idx) :
    ∃ pc ∈ ([⟨rA3, p0⟩] : List (View.Piece (Elt F) S512x256 .f32)), y ∈ pc.1.set :=
  View.cover_of_tiled [⟨rA3, p0⟩] S512x256.size (by rfl) y
theorem cover0_bf16 (p0 : Vec F S512x256 .bf16) (y : S512x256.Idx) :
    ∃ pc ∈ ([⟨rA3, p0⟩] : List (View.Piece (Elt F) S512x256 .bf16)), y ∈ pc.1.set :=
  View.cover_of_tiled [⟨rA3, p0⟩] S512x256.size (by rfl) y

/-! ## The body's triple -/

set_option maxHeartbeats 4000000 in
/-- The kernel body on whole staging memrefs, the inputs' at contents `x1 … x6` and the outputs' at anything, runs to
    the continuation holding the inputs' as they were and the outputs' at the three tiles. -/
theorem sound_kernel0 (c : Dev nD) (E : Set ℕ) (i : grid0.Coords) (arg1 : Memref sig .tc .vmem S512x1024 .f32) (harg1 : arg1.IsWhole) (arg2 : Memref sig .tc .vmem S512x2048 .f32) (harg2 : arg2.IsWhole) (arg3 : Memref sig .tc .vmem S512x256 .f32) (harg3 : arg3.IsWhole) (arg4 : Memref sig .tc .vmem S4x256x1024 .f32) (harg4 : arg4.IsWhole) (arg5 : Memref sig .tc .vmem S4x256x2048 .f32) (harg5 : arg5.IsWhole) (arg6 : Memref sig .tc .vmem S4x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .bf16) (harg9 : arg9.IsWhole)
    (x1 : Vec F S512x1024 .f32) (x2 : Vec F S512x2048 .f32) (x3 : Vec F S512x256 .f32) (x4 : Vec F S4x256x1024 .f32) (x5 : Vec F S4x256x2048 .f32) (x6 : Vec F S4x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_6 x1 x2 x3 x4 x5 x6) ∗ owns (c : Thread nD τ) arg8 fullShare (out0_7 x1 x2 x3 x4 x5 x6) ∗ owns (c : Thread nD τ) arg9 fullShare (out0_8 x1 x2 x3 x4 x5 x6)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9) K := by
  simp only [cc0__gate_kernel_eq_skeleton]; unfold cc0__gate_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_f32 _)
  isplitl [H8]
  · iexists _; isplitr
    swap; · iexact H8
    ipureintro
    try dsimp only
    exact View.read_writes_eq_canon _ _ _ (cover0_f32 _)
  iexists _; isplitr
  swap; · iexact H9
  ipureintro
  try dsimp only
  exact View.read_writes_eq_canon _ _ _ (cover0_bf16 _)

/-! ## The pipeline's proof data -/

/-- The proof data of the gate pipeline on core `c`: the arrays as the region finds them; after the body at point `t`
    each input's buffer at its block and each output's at its tile of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Body.lean ====
import proofs.«178993_j37374805410197_2_alg».proof.Proof.Gen.KernelIdeal.Launch
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The decoder kernel's body (pipeline 1)

One grid point computes one tile of 1024 logits for all 512 rows: the hidden state (whole) against 1024 rows of the
decoder's weights, plus their biases. -/

abbrev rD1 : Rect S512x2048 := Rect.unit (s := S512x2048) ![0, 0] S512x2048.size inb_S512x2048_S512x2048_0_0
abbrev rD2 : Rect S1024x2048 := Rect.unit (s := S1024x2048) ![0, 0] S1024x2048.size inb_S1024x2048_S1024x2048_0_0
abbrev rD3 : Rect S1024 := Rect.unit (s := S1024) ![0] S1024.size inb_S1024_S1024_0
abbrev rD4 : Rect S512x1024 := Rect.unit (s := S512x1024) ![0, 0] S512x1024.size inb_S512x1024_S512x1024_0_0

/-- The tile of logits, from the three input blocks. -/
def outTile (y1 : Vec F S512x2048 .bf16) (y2 : Vec F S1024x2048 .f32) (y3 : Vec F S1024 .f32) : FVec F S512x1024 .f32 :=
  k1_pay1 (View.ld y1 rD1) (View.ld y2 rD2) (View.ld y3 rD3)

def out1_3 (y1 : Vec F S512x2048 .bf16) (y2 : Vec F S1024x2048 .f32) (y3 : Vec F S1024 .f32) : Vec F S512x1024 .f32 := View.canon [⟨rD4, outTile y1 y2 y3⟩]

/-- One store of the whole tile covers the buffer. -/
theorem cover1_3 (p0 : Vec F S512x1024 .f32) (y : S512x1024.Idx) :
    ∃ pc ∈ ([⟨rD4, p0⟩] : List (View.Piece (Elt F) S512x1024 .f32)), y ∈ pc.1.set :=
  View.cover_of_tiled [⟨rD4, p0⟩] S512x1024.size (by rfl) y

set_option maxHeartbeats 2000000 in
/-- The kernel body on whole staging memrefs, the inputs' at contents `y1 y2 y3` and the output's at anything, runs to
    the continuation holding the inputs' as they were and the output's at the tile. -/
theorem sound_kernel1 (c : Dev nD) (E : Set ℕ) (i : grid1.Coords) (arg1 : Memref sig .tc .vmem S512x2048 .bf16) (harg1 : arg1.IsWhole) (arg2 : Memref sig .tc .vmem S1024x2048 .f32) (harg2 : arg2.IsWhole) (arg3 : Memref sig .tc .vmem S1024 .f32) (harg3 : arg3.IsWhole) (arg4 : Memref sig .tc .vmem S512x1024 .f32) (harg4 : arg4.IsWhole)
    (y1 : Vec F S512x2048 .bf16) (y2 : Vec F S1024x2048 .f32) (y3 : Vec F S1024 .f32) (K : PUnit → sProp 𝕄) :
    iprop(owns (c : Thread nD τ) arg1 fullShare y1 ∗ owns (c : Thread nD τ) arg2 fullShare y2 ∗ owns (c : Thread nD τ) arg3 fullShare y3 ∗ (∃ d, owns (c : Thread nD τ) arg4 fullShare d)
        ∗ (iprop(owns (c : Thread nD τ) arg1 fullShare y1 ∗ owns (c : Thread nD τ) arg2 fullShare y2 ∗ owns (c : Thread nD τ) arg3 fullShare y3 ∗ owns (c : Thread nD τ) arg4 fullShare (out1_3 y1 y2 y3)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_3 _)

end Cert.KernelIdeal.Hand1

end
-- ==== Proof.PayMatmul.lean ====
/-
  A matrix product into a zero accumulator, read at one entry, on the extended reals.

  Each of the three products of the two bodies contracts the second axis of its left operand with the second axis of
  its right operand (A · Bᵀ, no batch axis): entry (p, q) of the result is  ∑ k, l (p, k) · r (q, k).  The zero
  accumulator contributes 0 + _, and the one-axis contraction index is re-indexed by its single coordinate.
-/
import proofs.«178993_j37374805410197_2_alg».proof.Proof.Gen.KernelIdeal.Skeleton
import Idealize.ShloMosaic.Lib.ValueIdx
import Idealize.ShloMosaic.PureOps.Ideal.Laws

noncomputable section

namespace Cert.KernelIdeal.PayVal

open Cert.KernelIdeal Cert.KernelIdeal.Gen Idealize.ShloMosaic Idealize.ShloMosaic.ValueIdx

/-- The input projection's product: a 512×1024 block against a 256×1024 slab, at entry (p, q). -/
theorem matmul_x_apply (l : FVec Ideal S512x1024 .bf16) (r : FVec Ideal S256x1024 .bf16) (p : Fin 512) (q : Fin 256) :
    matmul dot_S512x1024_S256x1024_S512x256_1_1_0_0_n_n none l r (constant (F := Ideal) S512x256 .f32 0x00000000#32) (ix2 p q)
      = ∑ k : Fin 1024, l (ix2 p k) * r (ix2 q k) := by
  show FloatOps.matmul dot_S512x1024_S256x1024_S512x256_1_1_0_0_n_n none l r (constant (F := Ideal) S512x256 .f32 0x00000000#32) (ix2 p q) = _
  rw [Ideal.matmul_constant_zero_apply, ← Equiv.sum_comp (contrEquiv1 dot_S512x1024_S256x1024_S512x256_1_1_0_0_n_n 1024 rfl rfl).symm]
  refine Finset.sum_congr rfl fun k _ => ?_
  have hk := contrEquiv1_symm_val dot_S512x1024_S256x1024_S512x256_1_1_0_0_n_n 1024 rfl rfl k
  have el : dot_S512x1024_S256x1024_S512x256_1_1_0_0_n_n.lhsIdx (ix2 p q) ((contrEquiv1 dot_S512x1024_S256x1024_S512x256_1_1_0_0_n_n 1024 rfl rfl).symm k) = ix2 p k := funext fun a => Fin.ext (by
    match a with
    | ⟨0, _⟩ =>
      show (dot_S512x1024_S256x1024_S512x256_1_1_0_0_n_n.lhsIdx (ix2 p q) _ 0).val = p.val
      unfold DotDims.lhsIdx
      rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
      rfl
    | ⟨1, _⟩ => exact (dot_S512x1024_S256x1024_S512x256_1_1_0_0_n_n.lhsIdx_val_of_single rfl _ _).trans hk)
  have er : dot_S512x1024_S256x1024_S512x256_1_1_0_0_n_n.rhsIdx (ix2 p q) ((contrEquiv1 dot_S512x1024_S256x1024_S512x256_1_1_0_0_n_n 1024 rfl rfl).symm k) = ix2 q k := funext fun a => Fin.ext (by
    match a with
    | ⟨0, _⟩ =>
      show (dot_S512x1024_S256x1024_S512x256_1_1_0_0_n_n.rhsIdx (ix2 p q) _ 0).val = q.val
      unfold DotDims.rhsIdx
      rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
      rfl
    | ⟨1, _⟩ => exact (dot_S512x1024_S256x1024_S512x256_1_1_0_0_n_n.rhsIdx_val_of_single rfl _ _).trans hk)
  rw [el, er]

/-- The recurrent projection's product: a 512×2048 block against a 256×2048 slab, at entry (p, q). -/
theorem matmul_h_apply (l : FVec Ideal S512x2048 .bf16) (r : FVec Ideal S256x2048 .bf16) (p : Fin 512) (q : Fin 256) :
    matmul dot_S512x2048_S256x2048_S512x256_1_1_0_0_n_n none l r (constant (F := Ideal) S512x256 .f32 0x00000000#32) (ix2 p q)
      = ∑ k : Fin 2048, l (ix2 p k) * r (ix2 q k) := by
  show FloatOps.matmul dot_S512x2048_S256x2048_S512x256_1_1_0_0_n_n none l r (constant (F := Ideal) S512x256 .f32 0x00000000#32) (ix2 p q) = _
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k := funext fun a => Fin.ext (by
    match a with
    | ⟨0, _⟩ =>
      show (dot_S512x2048_S256x2048_S512x256_1_1_0_0_n_n.lhsIdx (ix2 p q) _ 0).val = p.val
      unfold DotDims.lhsIdx
      rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
      rfl
    | ⟨1, _⟩ => exact (dot_S512x2048_S256x2048_S512x256_1_1_0_0_n_n.lhsIdx_val_of_single rfl _ _).trans hk)
  have er : dot_S512x2048_S256x2048_S512x256_1_1_0_0_n_n.rhsIdx (ix2 p q) ((contrEquiv1 dot_S512x2048_S256x2048_S512x256_1_1_0_0_n_n 2048 rfl rfl).symm k) = ix2 q k := funext fun a => Fin.ext (by
    match a with
    | ⟨0, _⟩ =>
      show (dot_S512x2048_S256x2048_S512x256_1_1_0_0_n_n.rhsIdx (ix2 p q) _ 0).val = q.val
      unfold DotDims.rhsIdx
      rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
      rfl
    | ⟨1, _⟩ => exact (dot_S512x2048_S256x2048_S512x256_1_1_0_0_n_n.rhsIdx_val_of_single rfl _ _).trans hk)
  rw [el, er]

/-- The decoder's product: a 512×2048 block against a 1024×2048 tile of the decoder's weights, at entry (p, o). -/
theorem matmul_d_apply (l : FVec Ideal S512x2048 .bf16) (r : FVec Ideal S1024x2048 .bf16) (p : Fin 512) (q : Fin 1024) :
    matmul dot_S512x2048_S1024x2048_S512x1024_1_1_0_0_n_n none l r (constant (F := Ideal) S512x1024 .f32 0x00000000#32) (ix2 p q)
      = ∑ k : Fin 2048, l (ix2 p k) * r (ix2 q k) := by
  show FloatOps.matmul dot_S512x2048_S1024x2048_S512x1024_1_1_0_0_n_n none l r (constant (F := Ideal) S512x1024 .f32 0x00000000#32) (ix2 p q) = _
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p q) ((contrEquiv1 dot_S512x2048_S1024x2048_S512x1024_1_1_0_0_n_n 2048 rfl rfl).symm k) = ix2 p k := funext fun a => Fin.ext (by
    match a with
    | ⟨0, _⟩ =>
      show (dot_S512x2048_S1024x2048_S512x1024_1_1_0_0_n_n.lhsIdx (ix2 p q) _ 0).val = p.val
      unfold DotDims.lhsIdx
      rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
      rfl
    | ⟨1, _⟩ => exact (dot_S512x2048_S1024x2048_S512x1024_1_1_0_0_n_n.lhsIdx_val_of_single rfl _ _).trans hk)
  have er : dot_S512x2048_S1024x2048_S512x1024_1_1_0_0_n_n.rhsIdx (ix2 p q) ((contrEquiv1 dot_S512x2048_S1024x2048_S512x1024_1_1_0_0_n_n 2048 rfl rfl).symm k) = ix2 q k := funext fun a => Fin.ext (by
    match a with
    | ⟨0, _⟩ =>
      show (dot_S512x2048_S1024x2048_S512x1024_1_1_0_0_n_n.rhsIdx (ix2 p q) _ 0).val = q.val
      unfold DotDims.rhsIdx
      rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
      rfl
    | ⟨1, _⟩ => exact (dot_S512x2048_S1024x2048_S512x1024_1_1_0_0_n_n.rhsIdx_val_of_single rfl _ _).trans hk)
  rw [el, er]

end Cert.KernelIdeal.PayVal

end
-- ==== Proof.PayLayout.lean ====
/-
  The layout operations of the two bodies, read at one entry.

  A [1, 256, n] slab of a gate's weights becomes a 256 × n matrix by dropping its unit axis: entry (q, e) is the slab's
  entry (0, q, e).  A bias row [1, 256] is flattened, given its unit axis back and laid along all 512 rows: entry
  (p, q) is the row's entry (0, q).  The decoder's bias [1024] is given a unit axis and laid along all 512 rows:
  entry (p, o) is the bias's entry o.  A cast to the same shape changes nothing, and on the extended reals a change of
  float format is the identity.
-/
import proofs.«178993_j37374805410197_2_alg».proof.Proof.Gen.KernelIdeal.Skeleton
import Idealize.ShloMosaic.Lib.ValueLayout

noncomputable section

namespace Cert.KernelIdeal.PayVal

open Cert.KernelIdeal Cert.KernelIdeal.Gen Idealize.ShloMosaic Idealize.ShloMosaic.ValueIdx

/-- A gate's slab of input weights as a matrix: entry (q, e) is the slab's (0, q, e). -/
theorem slab_x_apply (v : Vec Ideal S1x256x1024 .f32) (h : S1x256x1024.ShapeCasts S256x1024) (q : Fin 256) (e : Fin 1024) :
    shapeCast S256x1024 v h (ix2 q e) = v (ix3 (0 : Fin 1) q e) :=
  shapeCast_1ab_ab_apply v h q e

/-- A gate's slab of recurrent weights as a matrix: entry (q, k) is the slab's (0, q, k). -/
theorem slab_h_apply (v : Vec Ideal S1x256x2048 .f32) (h : S1x256x2048.ShapeCasts S256x2048) (q : Fin 256) (k : Fin 2048) :
    shapeCast S256x2048 v h (ix2 q k) = v (ix3 (0 : Fin 1) q k) :=
  shapeCast_1ab_ab_apply v h q k

/-- A gate's bias row flattened, unflattened and laid along every row: entry (p, q) is the row's (0, q). -/
theorem bias_row_apply (v : Vec Ideal S1x256 .f32) (h1 : S1x256.ShapeCasts S256) (h2 : S256.ShapeCasts S1x256)
    (h3 : S1x256.Broadcasts S512x256) (p : Fin 512) (q : Fin 256) :
    broadcastTo S512x256 (shapeCast S1x256 (shapeCast S256 v h1) h2) h3 (ix2 p q) = v (ix2 (0 : Fin 1) q) :=
  (broadcastTo_1b_ab_apply _ h3 p q).trans
    ((shapeCast_a_1a_apply _ h2 (0 : Fin 1) q).trans (shapeCast_1a_a_apply v h1 q))

/-- The decoder's bias given a unit axis and laid along every row: entry (p, o) is the bias's entry o. -/
theorem bias_d_apply (v : Vec Ideal S1024 .f32) (h1 : S1024.ShapeCasts S1x1024) (h2 : S1x1024.Broadcasts S512x1024)
    (p : Fin 512) (o : Fin 1024) :
    broadcastTo S512x1024 (shapeCast S1x1024 v h1) h2 (ix2 p o) = v (ix1 o) :=
  (broadcastTo_1b_ab_apply _ h2 p o).trans (shapeCast_a_1a_apply v h1 (0 : Fin 1) o)

/-- A narrowing change of float format is the identity on the extended reals. -/
theorem truncf_bf16_eq {s : Shape} (v : FVec Ideal s .f32) (h : FTy.bits .bf16 < FTy.bits .f32) :
    (truncf .bf16 v h : FVec Ideal s .bf16) = v := rfl

/-- A cast to the same shape is the identity. -/
theorem shapeCast_same {s : Shape} (v : s.Idx → EReal) (h : s.ShapeCasts s) : shapeCast s v h = v :=
  shapeCast_self v h

end Cert.KernelIdeal.PayVal

end
-- ==== Proof.PayGate.lean ====
/-
  The two bodies' arithmetic at one entry, on the extended reals.

  The gate body computes, for one 512 × 256 column tile of hidden units, each gate before its nonlinearity as
      (∑ e, x (p, e) · Wx (0, q, e) + ∑ k, h (p, k) · Wh (0, q, k)) + b (0, q)
  from the gate's own slabs of weights and its bias row (inside the tile the slab's leading index is 0), then the new
  cell state  σ(i) · c + σ(f) · tanh(g)  and the new hidden state  σ(o) · tanh(cell).  The decoder body computes one
  512 × 1024 tile of logits  ∑ k, h (p, k) · Wd (o, k) + bd o.  Sums, products, σ and tanh act entry by entry; the
  matrix products and the layout steps are read by the lemmas of the two modules imported here.
-/
import proofs.«178993_j37374805410197_2_alg».proof.Proof.PayMatmul
import proofs.«178993_j37374805410197_2_alg».proof.Proof.PayLayout

noncomputable section

namespace Cert.KernelIdeal.PayVal

open Cert.KernelIdeal Cert.KernelIdeal.Gen Idealize.ShloMosaic Idealize.ShloMosaic.ValueIdx

/-- The two products of one gate, summed: entry (p, q) from rows p of the two left operands and rows q of the slabs. -/
theorem proj_apply (l2 : FVec Ideal S512x1024 .bf16) (l4 : FVec Ideal S512x2048 .bf16)
    (wx : Vec Ideal S1x256x1024 .f32) (wh : Vec Ideal S1x256x2048 .f32)
    (hx : S1x256x1024.ShapeCasts S256x1024) (hh : S1x256x2048.ShapeCasts S256x2048)
    (hb : FTy.bits .bf16 < FTy.bits .f32) (p : Fin 512) (q : Fin 256) :
    addf (matmul dot_S512x1024_S256x1024_S512x256_1_1_0_0_n_n none l2 (truncf .bf16 (shapeCast S256x1024 wx hx) hb)
            (constant (F := Ideal) S512x256 .f32 0x00000000#32))
         (matmul dot_S512x2048_S256x2048_S512x256_1_1_0_0_n_n none l4 (truncf .bf16 (shapeCast S256x2048 wh hh) hb)
            (constant (F := Ideal) S512x256 .f32 0x00000000#32)) (ix2 p q)
      = (∑ e : Fin 1024, l2 (ix2 p e) * wx (ix3 (0 : Fin 1) q e)) + (∑ k : Fin 2048, l4 (ix2 p k) * wh (ix3 (0 : Fin 1) q k)) := by
  refine (congrArg₂ (· + ·) (matmul_x_apply l2 _ p q) (matmul_h_apply l4 _ p q)).trans ?_
  refine congrArg₂ (· + ·) (Finset.sum_congr rfl fun e _ => ?_) (Finset.sum_congr rfl fun k _ => ?_)
  · exact congrArg (l2 (ix2 p e) * ·) (slab_x_apply wx hx q e)
  · exact congrArg (l4 (ix2 p k) * ·) (slab_h_apply wh hh q k)

/-- One gate before its nonlinearity: the two products and the gate's bias row. -/
theorem gate_apply (l2 : FVec Ideal S512x1024 .bf16) (l4 : FVec Ideal S512x2048 .bf16)
    (wx : Vec Ideal S1x256x1024 .f32) (wh : Vec Ideal S1x256x2048 .f32) (b : Vec Ideal S1x256 .f32)
    (hx : S1x256x1024.ShapeCasts S256x1024) (hh : S1x256x2048.ShapeCasts S256x2048)
    (hb : FTy.bits .bf16 < FTy.bits .f32) (h1 : S1x256.ShapeCasts S256) (h2 : S256.ShapeCasts S1x256)
    (h3 : S1x256.Broadcasts S512x256) (p : Fin 512) (q : Fin 256) :
    addf (addf (matmul dot_S512x1024_S256x1024_S512x256_1_1_0_0_n_n none l2 (truncf .bf16 (shapeCast S256x1024 wx hx) hb)
                  (constant (F := Ideal) S512x256 .f32 0x00000000#32))
               (matmul dot_S512x2048_S256x2048_S512x256_1_1_0_0_n_n none l4 (truncf .bf16 (shapeCast S256x2048 wh hh) hb)
                  (constant (F := Ideal) S512x256 .f32 0x00000000#32)))
         (broadcastTo S512x256 (shapeCast S1x256 (shapeCast S256 b h1) h2) h3) (ix2 p q)
      = ((∑ e : Fin 1024, l2 (ix2 p e) * wx (ix3 (0 : Fin 1) q e)) + (∑ k : Fin 2048, l4 (ix2 p k) * wh (ix3 (0 : Fin 1) q k)))
          + b (ix2 (0 : Fin 1) q) :=
  congrArg₂ (· + ·) (proj_apply l2 l4 wx wh hx hh hb p q) (bias_row_apply b h1 h2 h3 p q)

/-- The embedded inputs enter the products unchanged. -/
theorem k0_pay2_eq (v0 : Vec Ideal S512x1024 .f32) : k0_pay2 (F := Ideal) v0 = v0 := by
  unfold k0_pay2
  exact shapeCast_self v0 _

/-- The previous hidden state enters the products unchanged. -/
theorem k0_pay3_eq (v3 : Vec Ideal S512x2048 .f32) : k0_pay3 (F := Ideal) v3 = v3 := rfl

/-- The hidden state is stored unchanged. -/
theorem k0_pay1_eq (v70 : FVec Ideal S512x256 .f32) : k0_pay1 (F := Ideal) v70 = v70 := rfl

/-- The first gate before its nonlinearity. -/
theorem k0_pay4_apply (v0 : Vec Ideal S512x1024 .f32) (v3 : Vec Ideal S512x2048 .f32) (v6 : Vec Ideal S1x256x1024 .f32)
    (v9 : Vec Ideal S1x256x2048 .f32) (v15 : Vec Ideal S1x256 .f32) (p : Fin 512) (q : Fin 256) :
    k0_pay4 (F := Ideal) v0 v3 v6 v9 v15 (ix2 p q)
      = ((∑ e : Fin 1024, v0 (ix2 p e) * v6 (ix3 (0 : Fin 1) q e)) + (∑ k : Fin 2048, v3 (ix2 p k) * v9 (ix3 (0 : Fin 1) q k)))
          + v15 (ix2 (0 : Fin 1) q) := by
  unfold k0_pay4
  refine (gate_apply (k0_pay2 v0) (k0_pay3 v3) v6 v9 v15 _ _ _ _ _ _ p q).trans ?_
  rw [k0_pay2_eq, k0_pay3_eq]

/-- The second gate's two products, its bias still to come. -/
theorem k0_pay5_apply (v0 : Vec Ideal S512x1024 .f32) (v3 : Vec Ideal S512x2048 .f32) (v20 : Vec Ideal S1x256x1024 .f32)
    (v23 : Vec Ideal S1x256x2048 .f32) (p : Fin 512) (q : Fin 256) :
    k0_pay5 (F := Ideal) v0 v3 v20 v23 (ix2 p q)
      = (∑ e : Fin 1024, v0 (ix2 p e) * v20 (ix3 (0 : Fin 1) q e)) + (∑ k : Fin 2048, v3 (ix2 p k) * v23 (ix3 (0 : Fin 1) q k)) := by
  unfold k0_pay5
  refine (proj_apply (k0_pay2 v0) (k0_pay3 v3) v20 v23 _ _ _ p q).trans ?_
  rw [k0_pay2_eq, k0_pay3_eq]

/-- The second gate's bias row laid along the rows. -/
theorem k0_pay6_apply (v29 : Vec Ideal S1x256 .f32) (p : Fin 512) (q : Fin 256) :
    k0_pay6 (F := Ideal) v29 (ix2 p q) = v29 (ix2 (0 : Fin 1) q) := by
  unfold k0_pay6
  exact bias_row_apply v29 _ _ _ p q

/-- The new cell state: σ(first gate) · old cell + σ(second gate) · tanh(fourth gate). -/
theorem k0_pay7_apply (v2 : FVec Ideal S512x1024 .bf16) (v4 : FVec Ideal S512x2048 .bf16) (v5 : Vec Ideal S512x256 .f32)
    (v19 v28 v32 : FVec Ideal S512x256 .f32) (v48 : Vec Ideal S1x256x1024 .f32) (v51 : Vec Ideal S1x256x2048 .f32)
    (v57 : Vec Ideal S1x256 .f32) (p : Fin 512) (q : Fin 256) :
    k0_pay7 (F := Ideal) v2 v4 v5 v19 v28 v32 v48 v51 v57 (ix2 p q)
      = Ideal.logistic (v19 (ix2 p q)) * v5 (ix2 p q)
          + Ideal.logistic (v28 (ix2 p q) + v32 (ix2 p q))
            * Ideal.tanh (((∑ e : Fin 1024, v2 (ix2 p e) * v48 (ix3 (0 : Fin 1) q e))
                + (∑ k : Fin 2048, v4 (ix2 p k) * v51 (ix3 (0 : Fin 1) q k))) + v57 (ix2 (0 : Fin 1) q)) := by
  unfold k0_pay7
  exact congrArg
    (fun t => Ideal.logistic (v19 (ix2 p q)) * v5 (ix2 p q) + Ideal.logistic (v28 (ix2 p q) + v32 (ix2 p q)) * Ideal.tanh t)
    (gate_apply v2 v4 v48 v51 v57 _ _ _ _ _ _ p q)

/-- The new hidden state: σ(third gate) · tanh(new cell state). -/
theorem k0_pay8_apply (v2 : FVec Ideal S512x1024 .bf16) (v4 : FVec Ideal S512x2048 .bf16) (v5 : Vec Ideal S512x256 .f32)
    (v19 v28 v32 : FVec Ideal S512x256 .f32) (v34 : Vec Ideal S1x256x1024 .f32) (v37 : Vec Ideal S1x256x2048 .f32)
    (v43 : Vec Ideal S1x256 .f32) (v48 : Vec Ideal S1x256x1024 .f32) (v51 : Vec Ideal S1x256x2048 .f32)
    (v57 : Vec Ideal S1x256 .f32) (p : Fin 512) (q : Fin 256) :
    k0_pay8 (F := Ideal) v2 v4 v5 v19 v28 v32 v34 v37 v43 v48 v51 v57 (ix2 p q)
      = Ideal.logistic (((∑ e : Fin 1024, v2 (ix2 p e) * v34 (ix3 (0 : Fin 1) q e))
            + (∑ k : Fin 2048, v4 (ix2 p k) * v37 (ix3 (0 : Fin 1) q k))) + v43 (ix2 (0 : Fin 1) q))
          * Ideal.tanh (k0_pay7 (F := Ideal) v2 v4 v5 v19 v28 v32 v48 v51 v57 (ix2 p q)) := by
  unfold k0_pay8
  exact congrArg
    (fun t => Ideal.logistic t * Ideal.tanh (k0_pay7 (F := Ideal) v2 v4 v5 v19 v28 v32 v48 v51 v57 (ix2 p q)))
    (gate_apply v2 v4 v34 v37 v43 _ _ _ _ _ _ p q)

/-- One tile of the decoder's logits: row p of the hidden state against row o of the weights' tile, plus the bias. -/
theorem k1_pay1_apply (v0 : Vec Ideal S512x2048 .bf16) (v2 : Vec Ideal S1024x2048 .f32) (v4 : Vec Ideal S1024 .f32)
    (p : Fin 512) (o : Fin 1024) :
    k1_pay1 (F := Ideal) v0 v2 v4 (ix2 p o) = (∑ k : Fin 2048, v0 (ix2 p k) * v2 (ix2 o k)) + v4 (ix1 o) := by
  unfold k1_pay1
  refine (congrArg₂ (· + ·) (matmul_d_apply (shapeCast S512x2048 v0 _) (truncf .bf16 v2 _) p o) (bias_d_apply v4 _ _ p o)).trans ?_
  rw [shapeCast_self v0]
  rfl

end Cert.KernelIdeal.PayVal

end
-- ==== Proof.KI.Region1.lean ====
import proofs.«178993_j37374805410197_2_alg».proof.Proof.Gen.KernelIdeal.Launch
import proofs.«178993_j37374805410197_2_alg».proof.Proof.KI.Region1Body
import proofs.«178993_j37374805410197_2_alg».proof.Proof.PayGate
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-! # The decoder's region (pipeline 1) at the exact instance, at the contents `V` found when the region is entered

The vocabulary (50257) is not a multiple of the tile (1024): the last of the 50 tiles has 81 columns inside the arrays.
The fetches of the weights' rows and of the biases, and the write-back of the logits, are cut there; the staging
buffers' rows past the cut hold words nothing names. A logit in a column inside the array is the sum over the hidden
units of the hidden state's row against THAT column's row of weights, plus that column's bias: it reads nothing of
the unnamed rows (`outTile_local`). -/

variable (V : (c : Dev nD) → (b : Ref sig .tc) → Buf (Elt Ideal) ((c : Thread nD τ).loc b))

/-- Window `w`'s block at point `t`, read off its array as the region finds it: its part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

theorem before1_0_of {c : Dev nD} (dat : Dat τ (Elt Ideal) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' and the biases' staging buffers after a fetch, the rows past the arrays' end filled with zero. -/
def wdBuf (c : Dev nD) (t : Fin cfg1.N) : S1024x2048.Idx → Elt Ideal .f32 :=
  win1_1.fill (grid1.coords t) (fun _ => Scalar.ofBits (F := Ideal) .f32 0#32) (iblk1 V c 1 t)
def bdBuf (c : Dev nD) (t : Fin cfg1.N) : S1024.Idx → Elt Ideal .f32 :=
  win1_2.fill (grid1.coords t) (fun _ => Scalar.ofBits (F := Ideal) .f32 0#32) (iblk1 V c 2 t)

/-- The proof data of the decoder pipeline on core `c`. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wdBuf V c t
    | ⟨2, _⟩ => bdBuf V c t
    | ⟨3, _⟩ => out1_3 (iblk1 V c 0 t) (wdBuf V c t) (bdBuf V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wdBuf V c t := by dsimp only [dat1]
theorem after1_2 (c : Dev nD) (t : Fin cfg1.N) : (dat1 V c).after 2 t = bdBuf V c t := by dsimp only [dat1]
theorem after1_3 (c : Dev nD) (t : Fin cfg1.N) :
    (dat1 V c).after 3 t = out1_3 (iblk1 V c 0 t) (wdBuf V c t) (bdBuf V c t) := by dsimp only [dat1]

theorem before1_0 (c : Dev nD) (t : Fin cfg1.N) (d) : (dat1 V c).before 0 t d = iblk1 V c 0 t :=
  before1_0_of V (dat1 V c) (A_eq1 V c 0) (after1_0 V c) t d
/-- The weights' and biases' buffers just fetched: the block on the rows inside the array, `d` elsewhere. -/
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

/-! ## A logit inside the array reads nothing past the arrays' end -/

theorem hz2 : (![0, 0] : Fin 2 → Nat) = fun _ => 0 := funext fun a => by fin_cases a <;> rfl
theorem hz1 : (![0] : Fin 1 → Nat) = fun _ => 0 := funext fun a => by fin_cases a; rfl

/-- The stored tile is the body's arithmetic of the three buffers' contents. -/
theorem out1_3_eq (y1 : Vec Ideal S512x2048 .bf16) (y2 : Vec Ideal S1024x2048 .f32) (y3 : Vec Ideal S1024 .f32) :
    out1_3 (F := Ideal) y1 y2 y3 = k1_pay1 (F := Ideal) y1 y2 y3 := by
  unfold out1_3 outTile
  rw [View.canon_unit_zero hz2, View.ld_unit_zero (S := S512x2048) hz2, View.ld_unit_zero (S := S1024x2048) hz2,
    View.ld_unit_zero (S := S1024) hz1]

/-- What the three cut transfers move at a point: as many rows of weights and as many biases as columns of logits,
    and every row of weights whole. -/
theorem xsize_facts : ∀ t : Fin cfg1.N, win1_1.xsize (grid1.coords t) 0 = win1_3.xsize (grid1.coords t) 1
      ∧ win1_1.xsize (grid1.coords t) 1 = 2048 ∧ win1_2.xsize (grid1.coords t) 0 = win1_3.xsize (grid1.coords t) 1 :=
  (by decide +kernel : ∀ t : Fin grid1.N, win1_1.xsize (grid1.coords t) 0 = win1_3.xsize (grid1.coords t) 1
      ∧ win1_1.xsize (grid1.coords t) 1 = 2048 ∧ win1_2.xsize (grid1.coords t) 0 = win1_3.xsize (grid1.coords t) 1)

theorem outTile_local (t : Fin cfg1.N) (y1 : Vec Ideal S512x2048 .bf16)
    (B1 : (win1_1.xblock (grid1.coords t)).Idx → EReal) (B2 : (win1_2.xblock (grid1.coords t)).Idx → EReal)
    (d1 d1' : S1024x2048.Idx → EReal) (d2 d2' : S1024.Idx → EReal) :
    win1_3.cut (grid1.coords t) (out1_3 (F := Ideal) y1 (win1_1.fill (grid1.coords t) d1 B1) (win1_2.fill (grid1.coords t) d2 B2))
      = win1_3.cut (grid1.coords t) (out1_3 (F := Ideal) y1 (win1_1.fill (grid1.coords t) d1' B1) (win1_2.fill (grid1.coords t) d2' B2)) := by
  obtain ⟨h10, h11, h20⟩ := xsize_facts t
  funext y
  show out1_3 (F := Ideal) y1 _ _ (win1_3.xinj (grid1.coords t) y) = out1_3 (F := Ideal) y1 _ _ (win1_3.xinj (grid1.coords t) y)
  rw [out1_3_eq, out1_3_eq]
  obtain ⟨p, o, hpo⟩ : ∃ (p : Fin 512) (o : Fin 1024), win1_3.xinj (grid1.coords t) y = ix2 p o :=
    ⟨(win1_3.xinj (grid1.coords t) y) 0, (win1_3.xinj (grid1.coords t) y) 1, eq_ix2 _⟩
  have ho : o.val < win1_3.xsize (grid1.coords t) 1 := by
    have h2 : (y 1).val = o.val := congrArg Fin.val (congrFun hpo 1)
    rw [← h2]; exact (y 1).isLt
  rw [hpo, Cert.KernelIdeal.PayVal.k1_pay1_apply, Cert.KernelIdeal.PayVal.k1_pay1_apply]
  have hm1 : ∀ k : Fin 2048, win1_1.moved (grid1.coords t) (ix2 o k) = true := fun k =>
    (win1_1.moved_iff (grid1.coords t) _).mpr fun a => by
      match a with
      | ⟨0, _⟩ => show o.val < win1_1.xsize (grid1.coords t) 0; rw [h10]; exact ho
      | ⟨1, _⟩ => show k.val < win1_1.xsize (grid1.coords t) 1; rw [h11]; exact k.isLt
  have hm2 : win1_2.moved (grid1.coords t) (ix1 o) = true :=
    (win1_2.moved_iff (grid1.coords t) _).mpr fun a => by
      match a with
      | ⟨0, _⟩ => show o.val < win1_2.xsize (grid1.coords t) 0; rw [h20]; exact ho
  have e1 : ∀ k : Fin 2048, win1_1.fill (grid1.coords t) d1 B1 (ix2 o k) = win1_1.fill (grid1.coords t) d1' B1 (ix2 o k) := fun k => by
    unfold Window.fill; rw [dif_pos (hm1 k), dif_pos (hm1 k)]
  have e2 : win1_2.fill (grid1.coords t) d2 B2 (ix1 o) = win1_2.fill (grid1.coords t) d2' B2 (ix1 o) := by
    unfold Window.fill; rw [dif_pos hm2, dif_pos hm2]
  simp only [e1, e2]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the clipped windows' buffers stated on the part inside the arrays only. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

set_option maxHeartbeats 2000000 in
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 (F := Ideal) c Set.univ _ _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win1_1.cut (grid1.coords t) (wdBuf V c t) = iblk1 V c 1 t := win1_1.cut_fill _ _ _
  have h2 : win1_2.cut (grid1.coords t) (bdBuf V c t) = iblk1 V c 2 t := win1_2.cut_fill _ _ _
  isplitl [H0]; · iexact H0
  isplitl [H1]
  · iexists d1; rw [h1]; iexact H1
  isplitl [H2]
  · iexists d2; rw [h2]; iexact H2
  · iexists out1_3 (F := Ideal) (iblk1 V c 0 t) (win1_1.fill (grid1.coords t) d1 (iblk1 V c 1 t)) (win1_2.fill (grid1.coords t) d2 (iblk1 V c 2 t))
    rw [show win1_3.cut (grid1.coords t) (out1_3 (F := Ideal) (iblk1 V c 0 t) (wdBuf V c t) (bdBuf V c t))
        = win1_3.cut (grid1.coords t) (out1_3 (F := Ideal) (iblk1 V c 0 t) (win1_1.fill (grid1.coords t) d1 (iblk1 V c 1 t)) (win1_2.fill (grid1.coords t) d2 (iblk1 V c 2 t)))
      from outTile_local t _ _ _ _ _ _ _, win1_3.fill_cut]
    iexact H3

/-- The library's body obligation in its loose form, at every point. -/
theorem body_obligation1 (c : Dev nD) : BodyObligationLoose (dat1 V c) (defs₀ (F := Ideal)) Variants.none () Set.univ := fun t => by
  rw [bigSep_W1, bigSep_W1]
  exact sound_body1 V c t

end Cert.KernelIdeal.Hand1

end
-- ==== Proof.KI.RunV.lean ====
import proofs.«178993_j37374805410197_2_alg».proof.Proof.Gen.KernelIdeal.Launch
import proofs.«178993_j37374805410197_2_alg».proof.Proof.KI.Region0
import proofs.«178993_j37374805410197_2_alg».proof.Proof.KI.Region1
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunV

open Cert.KernelIdeal Cert.KernelIdeal.Gen Cert.KernelIdeal.Hand Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! # The run of the idealized kernel at the exact instance: the host stretch, the gate region, the decoder region

The buffer contents at each boundary are a fold from the launch memory: after the host stretch; after the gate region
(its arrays at what its write-backs leave); after the decoder region. The run ends with every unscoped buffer at the
last of these. -/

variable (m : (ℓ : Loc nD τ sig) → Buf (Elt Ideal) ℓ) (ρ : Dev nD → PrngReg)

/-- Core `c`'s buffers at launch, -/
abbrev WA0 : Dev nD → Valuation τ sig (Elt Ideal) := fun c b => (s₀ m ρ).mem ((c : Dev nD), b)
/-- after the host stretch (the gate region's entry), -/
abbrev WA1 : Dev nD → Valuation τ sig (Elt Ideal) := fun c => StableHlo.after hostOps0 (WA0 m ρ c)
abbrev VA1 : (c : Dev nD) → (b : Ref sig .tc) → Buf (Elt Ideal) ((c : Thread nD τ).loc b) := fun c b => WA1 m ρ c b
/-- at the gate region's exit (the decoder region's entry), -/
def WA2 (c : Dev nD) : Valuation τ sig (Elt Ideal) :=
  Pipeline.withArrays spec0 c (WA1 m ρ c) fun w => (dat0 (F := Ideal) (VA1 m ρ) c).arrAt w cfg0.N
theorem WA2_arr (c : Dev nD) (w : Fin cfg0.W) :
    WA2 m ρ c (Proc.devRef .tc (Pipeline.arrRef spec0 w)) = (dat0 (F := Ideal) (VA1 m ρ) c).arrAt w cfg0.N := by
  unfold WA2; exact Pipeline.withArrays_arr spec0 launch0.win.arr_inj c _ _ w
theorem WA2_of_ne (c : Dev nD) (b : Ref sig .tc) (hb : ∀ w, Pipeline.arrRef spec0 w ≠ b) :
    WA2 m ρ c (Proc.devRef .tc b) = WA1 m ρ c (Proc.devRef .tc b) := by
  unfold WA2; exact Pipeline.withArrays_of_ne spec0 c _ _ b hb
abbrev VA2 : (c : Dev nD) → (b : Ref sig .tc) → Buf (Elt Ideal) ((c : Thread nD τ).loc b) := fun c b => WA2 m ρ c b
theorem hF0 (c : Dev nD) (w : Fin cfg0.W) : (dat0 (F := Ideal) (VA1 m ρ) c).arrAt w cfg0.N = VA2 m ρ c (Pipeline.arrRef spec0 w) :=
  (WA2_arr m ρ c w).symm
theorem hrest0 (c : Dev nD) : ∀ b, b ∉ Finset.univ.image (Pipeline.arrRef spec0) → VA2 m ρ c b = VA1 m ρ c b :=
  fun b hb => WA2_of_ne m ρ c b fun w e => hb (Finset.mem_image.mpr ⟨w, Finset.mem_univ _, e⟩)
/-- and at the decoder region's exit. -/
def WA3 (c : Dev nD) : Valuation τ sig (Elt Ideal) :=
  Pipeline.withArrays spec1 c (WA2 m ρ c) fun w => (dat1 (VA2 m ρ) c).arrAt w cfg1.N
theorem WA3_arr (c : Dev nD) (w : Fin cfg1.W) :
    WA3 m ρ c (Proc.devRef .tc (Pipeline.arrRef spec1 w)) = (dat1 (VA2 m ρ) c).arrAt w cfg1.N := by
  unfold WA3; exact Pipeline.withArrays_arr spec1 launch1.win.arr_inj c _ _ w
theorem WA3_of_ne (c : Dev nD) (b : Ref sig .tc) (hb : ∀ w, Pipeline.arrRef spec1 w ≠ b) :
    WA3 m ρ c (Proc.devRef .tc b) = WA2 m ρ c (Proc.devRef .tc b) := by
  unfold WA3; exact Pipeline.withArrays_of_ne spec1 c _ _ b hb
abbrev VA3 : (c : Dev nD) → (b : Ref sig .tc) → Buf (Elt Ideal) ((c : Thread nD τ).loc b) := fun c b => WA3 m ρ c b
theorem hF1 (c : Dev nD) (w : Fin cfg1.W) : (dat1 (VA2 m ρ) c).arrAt w cfg1.N = VA3 m ρ c (Pipeline.arrRef spec1 w) :=
  (WA3_arr m ρ c w).symm
theorem hrest1 (c : Dev nD) : ∀ b, b ∉ Finset.univ.image (Pipeline.arrRef spec1) → VA3 m ρ c b = VA2 m ρ c b :=
  fun b hb => WA3_of_ne m ρ c b fun w e => hb (Finset.mem_image.mpr ⟨w, Finset.mem_univ _, e⟩)

/-! ## The proof data family and the thread state -/

abbrev adm : (p : Fin 2) → (pcfgs (F := Ideal) p).Adm := fun p => (cfgs p).toPCfg_adm
def pdats : (p : Fin 2) → (c : Dev nD) → Dat τ (Elt Ideal) Unit ℕ (UR sig nD τ) ℕ (Pipeline.pin (pcfgs (F := Ideal)) adm p) c
  | ⟨0, _⟩ => fun c => dat0 (F := Ideal) (VA1 m ρ) c
  | ⟨1, _⟩ => fun c => dat1 (VA2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt Ideal))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WA3 m ρ c) ∗ ∃ r, prngReg c r)

/-! ## The regions as segments -/

set_option backward.isDefEq.respectTransparency.types false in
/-- Region 0 over the thread state: entered from every unscoped buffer at `WA1`, left at `WA2`. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (VA1 m ρ) c).loose
  hwaits := Pipeline.hwaits_of_owed_zero _ _ _ _ L lv 0 fun _ _ => rfl
  pre c := iprop(StableHlo.held (c : Thread nD τ) (Pipeline.ucRefs τ sig) (WA1 m ρ c) ∗ R c)
  post c := iprop(StableHlo.held (c : Thread nD τ) (Pipeline.ucRefs τ sig) (WA2 m ρ c) ∗ R c)
  X c := iprop(∃ r, prngReg c r)
  Y c := iprop(∃ r, prngReg c r)
  Z c := Pipeline.unscopedRest (Ix := Unit) (Name := ℕ) (U := UR sig nD τ) (Lvl := ℕ) spec0 c (VA1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (VA1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (VA1 m ρ c) (VA2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `WA2`, left at `WA3`. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (VA2 m ρ) c
  hwaits := Pipeline.hwaits_of_owed_zero _ _ _ _ L lv 1 fun _ _ => rfl
  pre c := iprop(StableHlo.held (c : Thread nD τ) (Pipeline.ucRefs τ sig) (WA2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VA2 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (VA2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (VA2 m ρ c) (VA3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := Ideal)) adm (pdats m ρ) () defs₀ 𝒱₀ L lv) :=
  [ .host (hseg hostOps0 hostOps0_sub hostOps0_fresh (WA0 m ρ)),
    .region (reg0 m ρ),
    .region (reg1 m ρ) ]
theorem main_run (c : Dev nD) : main (F := Ideal) c = Pipeline.Seg.run (segs m ρ) := (main_chain c).trans (by chain_rfl)

set_option backward.isDefEq.respectTransparency.types false in
/-- THE RUN: every weakly fair execution of @main from memory `m` with zero counters terminates, nothing faulting,
    with every unscoped buffer of every core at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = WA3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA0 m ρ c)
        from Pipeline.unscopedBufs_held c (WA0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WA3 m ρ c b)
    (hfin := fun c s' => by
      iintro ⟨⟨Hh, -⟩, HSI⟩
      unfold StableHlo.held
      imodintro
      iapply (pointsTo_read_all (Pipeline.ucRefs τ sig) (fun b => (((c : Thread nD τ)).1, b)) (WA3 m ρ c) s')
      isplitl [Hh] <;> iassumption)
    (hQ := fun s h c => h c)

end Cert.KernelIdeal.RunV

end
-- ==== Proof.KI.Boundary.lean ====
import proofs.«178993_j37374805410197_2_alg».proof.Proof.Gen.KernelIdeal.Launch
import proofs.«178993_j37374805410197_2_alg».proof.Proof.Gen.KernelIdeal.Regions
import proofs.«178993_j37374805410197_2_alg».proof.Proof.KI.RunV
import proofs.«178993_j37374805410197_2_alg».proof.Proof.RefRun
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunV

open Cert.KernelIdeal Cert.KernelIdeal.Gen Cert.KernelIdeal.Hand Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What the boundaries' contents are, buffer by buffer

No host operation and no region writes an argument array; the gate region finds the embedded rows (the gather), the
two biases summed, and the arguments; the decoder region finds the hidden state the gate region left and the arguments. -/

variable (m : (ℓ : Loc nD τ sig) → Buf (Elt Ideal) ℓ) (ρ : Dev nD → PrngReg)

/-- A buffer the host stretch does not write holds its launch contents after it. -/
theorem WA1_of (c : Dev nD) (r : Ref sig .tc) (h : r ∉ hostOps0_W) :
    WA1 m ρ c (Proc.devRef .tc r) = m ((c : Thread nD τ).loc r) :=
  StableHlo.after_of_writes_sub hostOps0 _ hostOps0_writes h

theorem WA2_main_arg0 (c : Dev nD) : WA2 m ρ c (Proc.devRef .tc main_arg0) = m ((c : Thread nD τ).loc main_arg0) :=
  (WA2_of_ne m ρ c main_arg0 (by decide)).trans (WA1_of m ρ c main_arg0 (by decide))
theorem WA3_main_arg0 (c : Dev nD) : WA3 m ρ c (Proc.devRef .tc main_arg0) = m ((c : Thread nD τ).loc main_arg0) :=
  (WA3_of_ne m ρ c main_arg0 (by decide)).trans (WA2_main_arg0 m ρ c)
theorem WA2_main_arg1 (c : Dev nD) : WA2 m ρ c (Proc.devRef .tc main_arg1) = m ((c : Thread nD τ).loc main_arg1) :=
  ((WA2_arr m ρ c 1).trans (((dat0 (F := Ideal) (VA1 m ρ) c).arrAt_in 1 rfl _).trans (A_eq0 (VA1 m ρ) c 1))).trans (WA1_of m ρ c main_arg1 (by decide))
theorem WA3_main_arg1 (c : Dev nD) : WA3 m ρ c (Proc.devRef .tc main_arg1) = m ((c : Thread nD τ).loc main_arg1) :=
  (WA3_of_ne m ρ c main_arg1 (by decide)).trans (WA2_main_arg1 m ρ c)
theorem WA2_main_arg2 (c : Dev nD) : WA2 m ρ c (Proc.devRef .tc main_arg2) = m ((c : Thread nD τ).loc main_arg2) :=
  ((WA2_arr m ρ c 2).trans (((dat0 (F := Ideal) (VA1 m ρ) c).arrAt_in 2 rfl _).trans (A_eq0 (VA1 m ρ) c 2))).trans (WA1_of m ρ c main_arg2 (by decide))
theorem WA3_main_arg2 (c : Dev nD) : WA3 m ρ c (Proc.devRef .tc main_arg2) = m ((c : Thread nD τ).loc main_arg2) :=
  (WA3_of_ne m ρ c main_arg2 (by decide)).trans (WA2_main_arg2 m ρ c)
theorem WA2_main_arg3 (c : Dev nD) : WA2 m ρ c (Proc.devRef .tc main_arg3) = m ((c : Thread nD τ).loc main_arg3) :=
  (WA2_of_ne m ρ c main_arg3 (by decide)).trans (WA1_of m ρ c main_arg3 (by decide))
theorem WA3_main_arg3 (c : Dev nD) : WA3 m ρ c (Proc.devRef .tc main_arg3) = m ((c : Thread nD τ).loc main_arg3) :=
  (WA3_of_ne m ρ c main_arg3 (by decide)).trans (WA2_main_arg3 m ρ c)
theorem WA2_main_arg4 (c : Dev nD) : WA2 m ρ c (Proc.devRef .tc main_arg4) = m ((c : Thread nD τ).loc main_arg4) :=
  ((WA2_arr m ρ c 3).trans (((dat0 (F := Ideal) (VA1 m ρ) c).arrAt_in 3 rfl _).trans (A_eq0 (VA1 m ρ) c 3))).trans (WA1_of m ρ c main_arg4 (by decide))
theorem WA3_main_arg4 (c : Dev nD) : WA3 m ρ c (Proc.devRef .tc main_arg4) = m ((c : Thread nD τ).loc main_arg4) :=
  (WA3_of_ne m ρ c main_arg4 (by decide)).trans (WA2_main_arg4 m ρ c)
theorem WA2_main_arg5 (c : Dev nD) : WA2 m ρ c (Proc.devRef .tc main_arg5) = m ((c : Thread nD τ).loc main_arg5) :=
  (WA2_of_ne m ρ c main_arg5 (by decide)).trans (WA1_of m ρ c main_arg5 (by decide))
theorem WA3_main_arg5 (c : Dev nD) : WA3 m ρ c (Proc.devRef .tc main_arg5) = m ((c : Thread nD τ).loc main_arg5) :=
  (WA3_of_ne m ρ c main_arg5 (by decide)).trans (WA2_main_arg5 m ρ c)
theorem WA2_main_arg6 (c : Dev nD) : WA2 m ρ c (Proc.devRef .tc main_arg6) = m ((c : Thread nD τ).loc main_arg6) :=
  ((WA2_arr m ρ c 4).trans (((dat0 (F := Ideal) (VA1 m ρ) c).arrAt_in 4 rfl _).trans (A_eq0 (VA1 m ρ) c 4))).trans (WA1_of m ρ c main_arg6 (by decide))
theorem WA3_main_arg6 (c : Dev nD) : WA3 m ρ c (Proc.devRef .tc main_arg6) = m ((c : Thread nD τ).loc main_arg6) :=
  (WA3_of_ne m ρ c main_arg6 (by decide)).trans (WA2_main_arg6 m ρ c)
theorem WA2_main_arg7 (c : Dev nD) : WA2 m ρ c (Proc.devRef .tc main_arg7) = m ((c : Thread nD τ).loc main_arg7) :=
  (WA2_of_ne m ρ c main_arg7 (by decide)).trans (WA1_of m ρ c main_arg7 (by decide))
theorem WA3_main_arg7 (c : Dev nD) : WA3 m ρ c (Proc.devRef .tc main_arg7) = m ((c : Thread nD τ).loc main_arg7) :=
  (WA3_of_ne m ρ c main_arg7 (by decide)).trans (WA2_main_arg7 m ρ c)
theorem WA2_main_arg8 (c : Dev nD) : WA2 m ρ c (Proc.devRef .tc main_arg8) = m ((c : Thread nD τ).loc main_arg8) :=
  (WA2_of_ne m ρ c main_arg8 (by decide)).trans (WA1_of m ρ c main_arg8 (by decide))
theorem WA3_main_arg8 (c : Dev nD) : WA3 m ρ c (Proc.devRef .tc main_arg8) = m ((c : Thread nD τ).loc main_arg8) :=
  ((WA3_arr m ρ c 1).trans (((dat1 (VA2 m ρ) c).arrAt_in 1 rfl _).trans (A_eq1 (VA2 m ρ) c 1))).trans (WA2_main_arg8 m ρ c)
theorem WA2_main_arg9 (c : Dev nD) : WA2 m ρ c (Proc.devRef .tc main_arg9) = m ((c : Thread nD τ).loc main_arg9) :=
  (WA2_of_ne m ρ c main_arg9 (by decide)).trans (WA1_of m ρ c main_arg9 (by decide))
theorem WA3_main_arg9 (c : Dev nD) : WA3 m ρ c (Proc.devRef .tc main_arg9) = m ((c : Thread nD τ).loc main_arg9) :=
  ((WA3_arr m ρ c 2).trans (((dat1 (VA2 m ρ) c).arrAt_in 2 rfl _).trans (A_eq1 (VA2 m ρ) c 2))).trans (WA2_main_arg9 m ρ c)

/-! ## The three results -/

theorem WA3_main_v9 (c : Dev nD) : WA3 m ρ c (Proc.devRef .tc main_v9) = (dat1 (VA2 m ρ) c).arrAt 3 cfg1.N :=
  WA3_arr m ρ c 3
theorem WA3_main_v8_0 (c : Dev nD) : WA3 m ρ c (Proc.devRef .tc main_v8_0) = (dat0 (F := Ideal) (VA1 m ρ) c).arrAt 6 cfg0.N :=
  (WA3_of_ne m ρ c main_v8_0 (by decide)).trans (WA2_arr m ρ c 6)
theorem WA3_main_v8_1 (c : Dev nD) : WA3 m ρ c (Proc.devRef .tc main_v8_1) = (dat0 (F := Ideal) (VA1 m ρ) c).arrAt 7 cfg0.N :=
  (WA3_of_ne m ρ c main_v8_1 (by decide)).trans (WA2_arr m ρ c 7)

/-! ## What each region finds -/

/-- The gate region finds the arguments as launched, -/
theorem VA1_main_arg1 (c : Dev nD) : VA1 m ρ c main_arg1 = m ((c : Thread nD τ).loc main_arg1) := WA1_of m ρ c main_arg1 (by decide)
theorem VA1_main_arg2 (c : Dev nD) : VA1 m ρ c main_arg2 = m ((c : Thread nD τ).loc main_arg2) := WA1_of m ρ c main_arg2 (by decide)
theorem VA1_main_arg4 (c : Dev nD) : VA1 m ρ c main_arg4 = m ((c : Thread nD τ).loc main_arg4) := WA1_of m ρ c main_arg4 (by decide)
theorem VA1_main_arg6 (c : Dev nD) : VA1 m ρ c main_arg6 = m ((c : Thread nD τ).loc main_arg6) := WA1_of m ρ c main_arg6 (by decide)
/-- the two biases summed, -/
theorem VA1_main_v7 (c : Dev nD) :
    VA1 m ρ c main_v7 = (addf (m ((c : Thread nD τ).loc main_arg5) : FVec Ideal S4x2048 .f32) (m ((c : Thread nD τ).loc main_arg7)) : FVec Ideal S4x2048 .f32) := by
  show StableHlo.after hostOps0 _ (Proc.devRef .tc main_v7) = _
  after_results; try rfl
/-- and the embedded rows: the same index normalisation and gather as the reference's. -/
theorem VA1_main_v6 (c : Dev nD) :
    VA1 m ρ c main_v6 = Cert.RefBridge.xOf (m ((c : Thread nD τ).loc main_arg0)) (m ((c : Thread nD τ).loc main_arg3)) := by
  show StableHlo.after hostOps0 _ (Proc.devRef .tc main_v6) = _
  after_results; try rfl
/-- The decoder region finds the hidden state the gate region left, and the arguments as launched. -/
theorem VA2_main_v8_2 (c : Dev nD) : VA2 m ρ c main_v8_2 = (dat0 (F := Ideal) (VA1 m ρ) c).arrAt 8 cfg0.N := WA2_arr m ρ c 8
theorem VA2_main_arg8 (c : Dev nD) : VA2 m ρ c main_arg8 = m ((c : Thread nD τ).loc main_arg8) := WA2_main_arg8 m ρ c
theorem VA2_main_arg9 (c : Dev nD) : VA2 m ρ c main_arg9 = m ((c : Thread nD τ).loc main_arg9) := WA2_main_arg9 m ρ c

end Cert.KernelIdeal.RunV

end
-- ==== Proof.KI.ValueOut.lean ====
import proofs.«178993_j37374805410197_2_alg».proof.Proof.Gen.KernelIdeal.Launch
import proofs.«178993_j37374805410197_2_alg».proof.Proof.KI.Region1
import proofs.«178993_j37374805410197_2_alg».proof.Proof.PayGate
import Idealize.ShloMosaic.Lib.Pipeline.Value
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValueOut

open Cert.KernelIdeal Cert.KernelIdeal.Gen Cert.KernelIdeal.Hand1
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The logits' array after the decoder region

Point `t` of the 50 writes columns 1024·t … of the logits, as many as lie inside the array (81 at the last point). A logit
at row `p`, column `v` is the hidden state's row `p` (as the region found it) against row `v` of the weights, plus bias `v`. -/

variable (V : (c : Dev nD) → (b : Ref sig .tc) → Buf (Elt Ideal) ((c : Thread nD τ).loc b))

/-- The logits from the hidden state, the weights and the biases the region finds. -/
def logits (hxb : S512x2048.Idx → EReal) (Wd : S50257x2048.Idx → EReal) (bd : S50257.Idx → EReal) : S512x50257.Idx → EReal :=
  fun j => (∑ k : Fin 2048, hxb (ix2 (j 0) k) * Wd (ix2 (j 1) k)) + bd (ix1 (j 1))

/-- The block index maps, and what the cut transfers move, over the grid. -/
theorem idx_facts1 : ∀ t : Fin cfg1.N, win1_0.index t 0 = 0 ∧ win1_0.index t 1 = 0 ∧ win1_1.index t 0 = t.val ∧ win1_1.index t 1 = 0
      ∧ win1_2.index t 0 = t.val ∧ win1_3.index t 0 = 0 ∧ win1_3.index t 1 = t.val
      ∧ win1_3.xsize (grid1.coords t) 0 = 512 ∧ win1_3.xsize (grid1.coords t) 1 = min 1024 (50257 - 1024 * t.val) :=
  (by decide +kernel : ∀ t : Fin grid1.N, win1_0.index t 0 = 0 ∧ win1_0.index t 1 = 0 ∧ win1_1.index t 0 = t.val ∧ win1_1.index t 1 = 0
      ∧ win1_2.index t 0 = t.val ∧ win1_3.index t 0 = 0 ∧ win1_3.index t 1 = t.val
      ∧ win1_3.xsize (grid1.coords t) 0 = 512 ∧ win1_3.xsize (grid1.coords t) 1 = min 1024 (50257 - 1024 * t.val))

/-- The hidden state's block is the whole array at every point. -/
theorem hx_block (c : Dev nD) (t : Fin cfg1.N) (p p' : Fin 512) (k : Fin 2048) (hp : p'.val = p.val) :
    (iblk1 V c 0 t : S512x2048.Idx → EReal) (ix2 p k) = (V c main_v8_2 : S512x2048.Idx → EReal) (ix2 p' k) := by
  obtain ⟨h00, h01, -⟩ := idx_facts1 t
  unfold iblk1
  rw [View.read_apply]
  show (V c main_v8_2 : S512x2048.Idx → EReal) _ = (V c main_v8_2 : S512x2048.Idx → EReal) _
  congr 1
  funext a
  apply Fin.ext
  match a with
  | ⟨0, _⟩ => show win1_0.index t 0 * 512 + 1 * p.val = p'.val; rw [h00, hp]; omega
  | ⟨1, _⟩ => show win1_0.index t 1 * 2048 + 1 * k.val = k.val; rw [h01]; omega

/-- A row of the weights' buffer inside the array is that row of the weights. -/
theorem wd_block (c : Dev nD) (t : Fin cfg1.N) (o : Fin 1024) (k : Fin 2048) (r : Fin 50257)
    (hr : r.val = 1024 * t.val + o.val) (ho : o.val < win1_3.xsize (grid1.coords t) 1) :
    wdBuf V c t (ix2 o k) = (V c main_arg8 : S50257x2048.Idx → EReal) (ix2 r k) := by
  obtain ⟨h10, h11, h20⟩ := xsize_facts t
  obtain ⟨-, -, i10, i11, -⟩ := idx_facts1 t
  have hm : win1_1.moved (grid1.coords t) (ix2 o k) = true :=
    (win1_1.moved_iff (grid1.coords t) _).mpr fun a => by
      match a with
      | ⟨0, _⟩ => show o.val < win1_1.xsize (grid1.coords t) 0; rw [h10]; exact ho
      | ⟨1, _⟩ => show k.val < win1_1.xsize (grid1.coords t) 1; rw [h11]; exact k.isLt
  unfold wdBuf Window.fill
  rw [dif_pos hm]
  unfold iblk1
  rw [View.read_apply]
  show (V c main_arg8 : S50257x2048.Idx → EReal) _ = (V c main_arg8 : S50257x2048.Idx → EReal) _
  congr 1
  funext a
  apply Fin.ext
  match a with
  | ⟨0, _⟩ => show win1_1.index t 0 * 1024 + 1 * o.val = r.val; rw [i10, hr]; omega
  | ⟨1, _⟩ => show win1_1.index t 1 * 2048 + 1 * k.val = k.val; rw [i11]; omega

/-- A bias in the buffer inside the array is that column's bias. -/
theorem bd_block (c : Dev nD) (t : Fin cfg1.N) (o : Fin 1024) (r : Fin 50257)
    (hr : r.val = 1024 * t.val + o.val) (ho : o.val < win1_3.xsize (grid1.coords t) 1) :
    bdBuf V c t (ix1 o) = (V c main_arg9 : S50257.Idx → EReal) (ix1 r) := by
  obtain ⟨h10, h11, h20⟩ := xsize_facts t
  obtain ⟨-, -, -, -, i20, -⟩ := idx_facts1 t
  have hm : win1_2.moved (grid1.coords t) (ix1 o) = true :=
    (win1_2.moved_iff (grid1.coords t) _).mpr fun a => by
      match a with
      | ⟨0, _⟩ => show o.val < win1_2.xsize (grid1.coords t) 0; rw [h20]; exact ho
  unfold bdBuf Window.fill
  rw [dif_pos hm]
  unfold iblk1
  rw [View.read_apply]
  show (V c main_arg9 : S50257.Idx → EReal) _ = (V c main_arg9 : S50257.Idx → EReal) _
  congr 1
  funext a
  apply Fin.ext
  match a with
  | ⟨0, _⟩ => show win1_2.index t 0 * 1024 + 1 * o.val = r.val; rw [i20, hr]; omega

/-- What point `t` writes back is its block of the logits. -/
theorem flushed_eq (c : Dev nD) (t : Fin cfg1.N) (hf : (cfg1.win 3).flush t = true) :
    (dat1 V c).flushed 3 t = ((cfg1.win 3).blk t).view.read (Elt Ideal) (logits (V c main_v8_2) (V c main_arg8) (V c main_arg9)) := by
  obtain ⟨-, -, -, -, -, i30, i31, -⟩ := idx_facts1 t
  show (cfg1.win 3).cut (grid1.coords t) ((dat1 V c).after 3 t) = _
  rw [after1_3]
  funext y
  rw [View.read_apply]
  show out1_3 (F := Ideal) _ _ _ (win1_3.xinj (grid1.coords t) y) = _
  rw [out1_3_eq]
  obtain ⟨p, o, hpo⟩ : ∃ (p : Fin 512) (o : Fin 1024), win1_3.xinj (grid1.coords t) y = ix2 p o :=
    ⟨(win1_3.xinj (grid1.coords t) y) 0, (win1_3.xinj (grid1.coords t) y) 1, eq_ix2 _⟩
  have hp : (y 0).val = p.val := congrArg Fin.val (congrFun hpo 0)
  have ho' : (y 1).val = o.val := congrArg Fin.val (congrFun hpo 1)
  have ho : o.val < win1_3.xsize (grid1.coords t) 1 := by rw [← ho']; exact (y 1).isLt
  rw [hpo, Cert.KernelIdeal.PayVal.k1_pay1_apply]
  unfold logits
  have e0 : ((((cfg1.win 3).blk t).view.emb y) 0).val = p.val := by
    show win1_3.index t 0 * 512 + 1 * (y 0).val = p.val; rw [i30, hp]; omega
  have e1 : ((((cfg1.win 3).blk t).view.emb y) 1).val = 1024 * t.val + o.val := by
    show win1_3.index t 1 * 1024 + 1 * (y 1).val = 1024 * t.val + o.val; rw [i31, ho']; omega
  refine congrArg₂ (· + ·) (Finset.sum_congr rfl fun k _ => congrArg₂ (· * ·) ?_ ?_) ?_
  · exact hx_block V c t p _ k e0
  · exact wd_block V c t o k _ e1 ho
  · exact bd_block V c t o _ e1 ho

/-- The decoder region leaves the logits in its output array. -/
theorem final_out (c : Dev nD) :
    (dat1 V c).arrAt 3 cfg1.N = logits (V c main_v8_2) (V c main_arg8) (V c main_arg9) :=
  (dat1 V c).arrAt_eq_of_cover 3 _ (flushed_eq V c) fun i => by
    have h0 : (i 0 : Nat) < 512 := (i 0).isLt
    have h1 : (i 1 : Nat) < 50257 := (i 1).isLt
    have hN : cfg1.N = 50 := N_1
    obtain ⟨t, ht⟩ : ∃ t : Fin cfg1.N, t.val = (i 1 : Nat) / 1024 := ⟨⟨(i 1 : Nat) / 1024, by rw [hN]; omega⟩, rfl⟩
    obtain ⟨-, -, -, -, -, i30, i31, x30, x31⟩ := idx_facts1 t
    refine ⟨t, flush1_3 t, ?_⟩
    show i ∈ ((View.whole main_v9).slice (win1_3.rect t)).set
    rw [View.set_slice_whole, Rect.mem_set_unit]
    intro a
    match a with
    | ⟨0, _⟩ =>
      show win1_3.index t 0 * win1_3.size 0 ≤ (i 0 : Nat) ∧ (i 0 : Nat) < win1_3.index t 0 * win1_3.size 0 + win1_3.xsize (grid1.coords t) 0
      rw [i30, x30]; omega
    | ⟨1, _⟩ =>
      show win1_3.index t 1 * win1_3.size 1 ≤ (i 1 : Nat) ∧ (i 1 : Nat) < win1_3.index t 1 * win1_3.size 1 + win1_3.xsize (grid1.coords t) 1
      rw [i31, x31, ht]
      show (i 1 : Nat) / 1024 * 1024 ≤ (i 1 : Nat) ∧ (i 1 : Nat) < (i 1 : Nat) / 1024 * 1024 + min 1024 (50257 - 1024 * ((i 1 : Nat) / 1024))
      omega

end Cert.KernelIdeal.ValueOut

end
-- ==== Proof.PayBody.lean ====
/-
  The values the gate body stores, as functions of its loads, at one entry.

  With  G w u b = (∑ e, x (p, e) · w (0, q, e) + ∑ k, h (p, k) · u (0, q, k)) + b (0, q)  for a gate's two slabs and
  bias row, the body stores the new cell state
      σ(G of the first gate) · c (p, q) + σ(products of the second gate + its bias row) · tanh(G of the fourth gate)
  and the new hidden state  σ(G of the third gate) · tanh(new cell state), the latter once more unchanged in the
  narrower float format.
-/
import proofs.«178993_j37374805410197_2_alg».proof.Proof.PayGate

noncomputable section

namespace Cert.KernelIdeal.PayVal

open Cert.KernelIdeal Cert.KernelIdeal.Gen Idealize.ShloMosaic Idealize.ShloMosaic.ValueIdx

/-- One gate before its nonlinearity, from the two left operands, the gate's slabs and its bias row. -/
def gateAt (x : Vec Ideal S512x1024 .f32) (h : Vec Ideal S512x2048 .f32) (w : Vec Ideal S1x256x1024 .f32)
    (u : Vec Ideal S1x256x2048 .f32) (b : Vec Ideal S1x256 .f32) (p : Fin 512) (q : Fin 256) : EReal :=
  ((∑ e : Fin 1024, x (ix2 p e) * w (ix3 (0 : Fin 1) q e)) + (∑ k : Fin 2048, h (ix2 p k) * u (ix3 (0 : Fin 1) q k)))
    + b (ix2 (0 : Fin 1) q)

/-- The new cell state from the body's loads. -/
def cellAt (x : Vec Ideal S512x1024 .f32) (h : Vec Ideal S512x2048 .f32) (c : Vec Ideal S512x256 .f32)
    (w0 : Vec Ideal S1x256x1024 .f32) (u0 : Vec Ideal S1x256x2048 .f32) (b0 : Vec Ideal S1x256 .f32)
    (w1 : Vec Ideal S1x256x1024 .f32) (u1 : Vec Ideal S1x256x2048 .f32) (b1 : Vec Ideal S1x256 .f32)
    (w3 : Vec Ideal S1x256x1024 .f32) (u3 : Vec Ideal S1x256x2048 .f32) (b3 : Vec Ideal S1x256 .f32)
    (p : Fin 512) (q : Fin 256) : EReal :=
  Ideal.logistic (gateAt x h w0 u0 b0 p q) * c (ix2 p q)
    + Ideal.logistic (gateAt x h w1 u1 b1 p q) * Ideal.tanh (gateAt x h w3 u3 b3 p q)

/-- The stored cell state is `cellAt` of the loads. -/
theorem stored_cell_apply (v0 : Vec Ideal S512x1024 .f32) (v3 : Vec Ideal S512x2048 .f32) (v5 : Vec Ideal S512x256 .f32)
    (v6 : Vec Ideal S1x256x1024 .f32) (v9 : Vec Ideal S1x256x2048 .f32) (v15 : Vec Ideal S1x256 .f32)
    (v20 : Vec Ideal S1x256x1024 .f32) (v23 : Vec Ideal S1x256x2048 .f32) (v29 : Vec Ideal S1x256 .f32)
    (v48 : Vec Ideal S1x256x1024 .f32) (v51 : Vec Ideal S1x256x2048 .f32) (v57 : Vec Ideal S1x256 .f32)
    (p : Fin 512) (q : Fin 256) :
    k0_pay7 (F := Ideal) (k0_pay2 v0) (k0_pay3 v3) v5 (k0_pay4 v0 v3 v6 v9 v15) (k0_pay5 v0 v3 v20 v23) (k0_pay6 v29)
        v48 v51 v57 (ix2 p q)
      = cellAt v0 v3 v5 v6 v9 v15 v20 v23 v29 v48 v51 v57 p q := by
  rw [k0_pay7_apply, k0_pay4_apply, k0_pay5_apply, k0_pay6_apply, k0_pay2_eq, k0_pay3_eq]
  rfl

/-- The stored hidden state is σ(third gate) · tanh(`cellAt`) of the loads. -/
theorem stored_hidden_apply (v0 : Vec Ideal S512x1024 .f32) (v3 : Vec Ideal S512x2048 .f32) (v5 : Vec Ideal S512x256 .f32)
    (v6 : Vec Ideal S1x256x1024 .f32) (v9 : Vec Ideal S1x256x2048 .f32) (v15 : Vec Ideal S1x256 .f32)
    (v20 : Vec Ideal S1x256x1024 .f32) (v23 : Vec Ideal S1x256x2048 .f32) (v29 : Vec Ideal S1x256 .f32)
    (v34 : Vec Ideal S1x256x1024 .f32) (v37 : Vec Ideal S1x256x2048 .f32) (v43 : Vec Ideal S1x256 .f32)
    (v48 : Vec Ideal S1x256x1024 .f32) (v51 : Vec Ideal S1x256x2048 .f32) (v57 : Vec Ideal S1x256 .f32)
    (p : Fin 512) (q : Fin 256) :
    k0_pay8 (F := Ideal) (k0_pay2 v0) (k0_pay3 v3) v5 (k0_pay4 v0 v3 v6 v9 v15) (k0_pay5 v0 v3 v20 v23) (k0_pay6 v29)
        v34 v37 v43 v48 v51 v57 (ix2 p q)
      = Ideal.logistic (gateAt v0 v3 v34 v37 v43 p q)
          * Ideal.tanh (cellAt v0 v3 v5 v6 v9 v15 v20 v23 v29 v48 v51 v57 p q) := by
  rw [k0_pay8_apply, stored_cell_apply, k0_pay2_eq, k0_pay3_eq]
  rfl

end Cert.KernelIdeal.PayVal

end
-- ==== Proof.KI.ValueGateSpec.lean ====
/-
  One gate of the body against the specification's gate.

  The body's gate at entry (p, q) of a column tile is built from row p of the two left operands, row q of the gate's
  two slabs of weights and entry q of its bias row.  When those agree with row p of x and h0, with row Q of the
  gate's weights in the whole arrays and with the sum of the two biases at (g, Q), it is the specification's gate g
  at (p, Q): both are  (∑ e, x (p, e) · Wx (g, Q, e) + ∑ k, h0 (p, k) · Wh (g, Q, k)) + (bx (g, Q) + bh (g, Q)).
-/
import proofs.«178993_j37374805410197_2_alg».proof.Proof.PayBody
import proofs.«178993_j37374805410197_2_alg».proof.Proof.Spec

noncomputable section

namespace Cert.KernelIdeal.ValueGate

open Cert.KernelIdeal Cert.KernelIdeal.Gen Cert.KernelIdeal.PayVal Cert.LstmSpec
open Idealize.ShloMosaic Idealize.ShloMosaic.ValueIdx

variable (x : SBxE.Idx → EReal) (h0 c0 : SBxH.Idx → EReal) (Wx : SGxHxE.Idx → EReal) (bx : SGxH.Idx → EReal)
  (Wh : SGxHxH.Idx → EReal) (bh : SGxH.Idx → EReal)

/-- The body's gate from loads that agree with the arrays at row p and column Q is the specification's gate. -/
theorem gateAt_eq_gate (xb : Vec Ideal S512x1024 .f32) (hb : Vec Ideal S512x2048 .f32) (w : Vec Ideal S1x256x1024 .f32)
    (u : Vec Ideal S1x256x2048 .f32) (b : Vec Ideal S1x256 .f32) (g : Fin 4) (p : Fin 512) (q : Fin 256) (Q : Fin 2048)
    (hx : ∀ e : Fin 1024, xb (ix2 p e) = x (ix2 p e)) (hh : ∀ k : Fin 2048, hb (ix2 p k) = h0 (ix2 p k))
    (hw : ∀ e : Fin 1024, w (ix3 (0 : Fin 1) q e) = Wx (ix3 g Q e))
    (hu : ∀ k : Fin 2048, u (ix3 (0 : Fin 1) q k) = Wh (ix3 g Q k))
    (hbias : b (ix2 (0 : Fin 1) q) = bx (ix2 g Q) + bh (ix2 g Q)) :
    gateAt xb hb w u b p q = gate x h0 Wx bx Wh bh g p Q := by
  unfold gateAt gate projX projH
  exact congrArg₂ (· + ·)
    (congrArg₂ (· + ·) (Finset.sum_congr rfl fun e _ => by rw [hx e, hw e])
      (Finset.sum_congr rfl fun k _ => by rw [hh k, hu k]))
    hbias

/-- The body's cell state from loads whose gates are the specification's and whose old cell state is c0 at (p, Q). -/
theorem cellAt_eq_cx (xb : Vec Ideal S512x1024 .f32) (hb : Vec Ideal S512x2048 .f32) (c : Vec Ideal S512x256 .f32)
    (w0 : Vec Ideal S1x256x1024 .f32) (u0 : Vec Ideal S1x256x2048 .f32) (b0 : Vec Ideal S1x256 .f32)
    (w1 : Vec Ideal S1x256x1024 .f32) (u1 : Vec Ideal S1x256x2048 .f32) (b1 : Vec Ideal S1x256 .f32)
    (w3 : Vec Ideal S1x256x1024 .f32) (u3 : Vec Ideal S1x256x2048 .f32) (b3 : Vec Ideal S1x256 .f32)
    (p : Fin 512) (q : Fin 256) (Q : Fin 2048)
    (hc : c (ix2 p q) = c0 (ix2 p Q))
    (hg0 : gateAt xb hb w0 u0 b0 p q = gate x h0 Wx bx Wh bh 0 p Q)
    (hg1 : gateAt xb hb w1 u1 b1 p q = gate x h0 Wx bx Wh bh 1 p Q)
    (hg3 : gateAt xb hb w3 u3 b3 p q = gate x h0 Wx bx Wh bh 3 p Q) :
    cellAt xb hb c w0 u0 b0 w1 u1 b1 w3 u3 b3 p q = cx x h0 c0 Wx bx Wh bh p Q := by
  unfold cellAt cx
  rw [hg0, hg1, hg3, hc]

end Cert.KernelIdeal.ValueGate

end
-- ==== Proof.KI.ValueGateTile.lean ====
/-
  The body's two tiles against the specification, at one entry.

  A grid point's six input blocks are a row block of x and of h0 (whole), a column tile of c0, and the same tile of
  rows of the four gates' weights and of the summed bias.  The body loads the whole of the first three and, gate by
  gate, the slab (g, ·, ·) of the weights' blocks and the row (g, ·) of the bias block.  When the blocks agree with the
  arrays at row p and column Q of the arrays for column q of the tile, the tile of the new cell state at (p, q) is
  the specification's cell state at (p, Q), and likewise the new hidden state.
-/
import proofs.«178993_j37374805410197_2_alg».proof.Proof.KI.ValueGateSpec
import proofs.«178993_j37374805410197_2_alg».proof.Proof.KI.Region0
import Idealize.ShloMosaic.Lib.Pipeline.Value

noncomputable section

namespace Cert.KernelIdeal.ValueGate

open Cert.KernelIdeal Cert.KernelIdeal.Gen Cert.KernelIdeal.PayVal Cert.KernelIdeal.Hand Cert.LstmSpec
open Idealize.ShloMosaic Idealize.ShloMosaic.ValueIdx

theorem hz2 : (![0, 0] : Fin 2 → Nat) = fun _ => 0 := funext fun a => by fin_cases a <;> rfl

/-- The slab of gate g of a block of input weights: entry (0, q, e) of the slab is entry (g, q, e) of the block. -/
theorem ld_slabX (X : Vec Ideal S4x256x1024 .f32) (g : Fin 4)
    (inb : ∀ a, (![g.val, 0, 0] : Fin 3 → Nat) a + S1x256x1024.size a ≤ S4x256x1024.size a) (q : Fin 256) (e : Fin 1024) :
    View.ld X (Rect.unit (s := S4x256x1024) ![g.val, 0, 0] S1x256x1024.size inb) (ix3 (0 : Fin 1) q e) = X (ix3 g q e) := by
  refine congrArg X (funext fun a => Fin.ext ?_)
  match a with
  | ⟨0, _⟩ => show g.val + 1 * 0 = g.val; omega
  | ⟨1, _⟩ => show 0 + 1 * q.val = q.val; omega
  | ⟨2, _⟩ => show 0 + 1 * e.val = e.val; omega

/-- The slab of gate g of a block of recurrent weights. -/
theorem ld_slabH (X : Vec Ideal S4x256x2048 .f32) (g : Fin 4)
    (inb : ∀ a, (![g.val, 0, 0] : Fin 3 → Nat) a + S1x256x2048.size a ≤ S4x256x2048.size a) (q : Fin 256) (k : Fin 2048) :
    View.ld X (Rect.unit (s := S4x256x2048) ![g.val, 0, 0] S1x256x2048.size inb) (ix3 (0 : Fin 1) q k) = X (ix3 g q k) := by
  refine congrArg X (funext fun a => Fin.ext ?_)
  match a with
  | ⟨0, _⟩ => show g.val + 1 * 0 = g.val; omega
  | ⟨1, _⟩ => show 0 + 1 * q.val = q.val; omega
  | ⟨2, _⟩ => show 0 + 1 * k.val = k.val; omega

/-- The row of gate g of a block of biases. -/
theorem ld_rowB (X : Vec Ideal S4x256 .f32) (g : Fin 4)
    (inb : ∀ a, (![g.val, 0] : Fin 2 → Nat) a + S1x256.size a ≤ S4x256.size a) (q : Fin 256) :
    View.ld X (Rect.unit (s := S4x256) ![g.val, 0] S1x256.size inb) (ix2 (0 : Fin 1) q) = X (ix2 g q) := by
  refine congrArg X (funext fun a => Fin.ext ?_)
  match a with
  | ⟨0, _⟩ => show g.val + 1 * 0 = g.val; omega
  | ⟨1, _⟩ => show 0 + 1 * q.val = q.val; omega

variable (x : SBxE.Idx → EReal) (h0 c0 : SBxH.Idx → EReal) (Wx : SGxHxE.Idx → EReal) (bx : SGxH.Idx → EReal)
  (Wh : SGxHxH.Idx → EReal) (bh : SGxH.Idx → EReal)

/-- Gate g from the blocks' loads is the specification's gate g at (p, Q). -/
theorem gate_of_blocks (x1 : Vec Ideal S512x1024 .f32) (x2 : Vec Ideal S512x2048 .f32) (x4 : Vec Ideal S4x256x1024 .f32)
    (x5 : Vec Ideal S4x256x2048 .f32) (x6 : Vec Ideal S4x256 .f32) (g : Fin 4)
    (inbX : ∀ a, (![g.val, 0, 0] : Fin 3 → Nat) a + S1x256x1024.size a ≤ S4x256x1024.size a)
    (inbH : ∀ a, (![g.val, 0, 0] : Fin 3 → Nat) a + S1x256x2048.size a ≤ S4x256x2048.size a)
    (inbB : ∀ a, (![g.val, 0] : Fin 2 → Nat) a + S1x256.size a ≤ S4x256.size a)
    (p : Fin 512) (q : Fin 256) (Q : Fin 2048)
    (h1 : ∀ e : Fin 1024, x1 (ix2 p e) = x (ix2 p e)) (h2 : ∀ k : Fin 2048, x2 (ix2 p k) = h0 (ix2 p k))
    (h4 : ∀ (g : Fin 4) (e : Fin 1024), x4 (ix3 g q e) = Wx (ix3 g Q e))
    (h5 : ∀ (g : Fin 4) (k : Fin 2048), x5 (ix3 g q k) = Wh (ix3 g Q k))
    (h6 : ∀ g : Fin 4, x6 (ix2 g q) = bx (ix2 g Q) + bh (ix2 g Q)) :
    gateAt (View.ld x1 rA1) (View.ld x2 rA2) (View.ld x4 (Rect.unit (s := S4x256x1024) ![g.val, 0, 0] S1x256x1024.size inbX))
        (View.ld x5 (Rect.unit (s := S4x256x2048) ![g.val, 0, 0] S1x256x2048.size inbH))
        (View.ld x6 (Rect.unit (s := S4x256) ![g.val, 0] S1x256.size inbB)) p q
      = gate x h0 Wx bx Wh bh g p Q :=
  gateAt_eq_gate x h0 Wx bx Wh bh _ _ _ _ _ g p q Q
    (fun e => (congrFun (View.ld_unit_zero hz2 _ x1) _).trans (h1 e))
    (fun k => (congrFun (View.ld_unit_zero hz2 _ x2) _).trans (h2 k))
    (fun e => (ld_slabX x4 g inbX q e).trans (h4 g e))
    (fun k => (ld_slabH x5 g inbH q k).trans (h5 g k))
    ((ld_rowB x6 g inbB q).trans (h6 g))

/-- The tile of the new cell state at (p, q) is the specification's cell state at (p, Q). -/
theorem cxTile_eq (x1 : Vec Ideal S512x1024 .f32) (x2 : Vec Ideal S512x2048 .f32) (x3 : Vec Ideal S512x256 .f32)
    (x4 : Vec Ideal S4x256x1024 .f32) (x5 : Vec Ideal S4x256x2048 .f32) (x6 : Vec Ideal S4x256 .f32)
    (p : Fin 512) (q : Fin 256) (Q : Fin 2048)
    (h1 : ∀ e : Fin 1024, x1 (ix2 p e) = x (ix2 p e)) (h2 : ∀ k : Fin 2048, x2 (ix2 p k) = h0 (ix2 p k))
    (h3 : x3 (ix2 p q) = c0 (ix2 p Q))
    (h4 : ∀ (g : Fin 4) (e : Fin 1024), x4 (ix3 g q e) = Wx (ix3 g Q e))
    (h5 : ∀ (g : Fin 4) (k : Fin 2048), x5 (ix3 g q k) = Wh (ix3 g Q k))
    (h6 : ∀ g : Fin 4, x6 (ix2 g q) = bx (ix2 g Q) + bh (ix2 g Q)) :
    cxTile x1 x2 x3 x4 x5 x6 (ix2 p q) = cx x h0 c0 Wx bx Wh bh p Q := by
  unfold cxTile
  refine (stored_cell_apply (View.ld x1 rA1) (View.ld x2 rA2) (View.ld x3 rA3) (View.ld x4 rX0) (View.ld x5 rH0)
    (View.ld x6 rB0) (View.ld x4 rX1) (View.ld x5 rH1) (View.ld x6 rB1) (View.ld x4 rX3) (View.ld x5 rH3)
    (View.ld x6 rB3) p q).trans ?_
  exact cellAt_eq_cx x h0 c0 Wx bx Wh bh _ _ _ _ _ _ _ _ _ _ _ _ p q Q
    ((congrFun (View.ld_unit_zero hz2 _ x3) _).trans h3)
    (gate_of_blocks x h0 Wx bx Wh bh x1 x2 x4 x5 x6 0 _ _ _ p q Q h1 h2 h4 h5 h6)
    (gate_of_blocks x h0 Wx bx Wh bh x1 x2 x4 x5 x6 1 _ _ _ p q Q h1 h2 h4 h5 h6)
    (gate_of_blocks x h0 Wx bx Wh bh x1 x2 x4 x5 x6 3 _ _ _ p q Q h1 h2 h4 h5 h6)

/-- The tile of the new hidden state at (p, q) is the specification's hidden state at (p, Q). -/
theorem hxTile_eq (x1 : Vec Ideal S512x1024 .f32) (x2 : Vec Ideal S512x2048 .f32) (x3 : Vec Ideal S512x256 .f32)
    (x4 : Vec Ideal S4x256x1024 .f32) (x5 : Vec Ideal S4x256x2048 .f32) (x6 : Vec Ideal S4x256 .f32)
    (p : Fin 512) (q : Fin 256) (Q : Fin 2048)
    (h1 : ∀ e : Fin 1024, x1 (ix2 p e) = x (ix2 p e)) (h2 : ∀ k : Fin 2048, x2 (ix2 p k) = h0 (ix2 p k))
    (h3 : x3 (ix2 p q) = c0 (ix2 p Q))
    (h4 : ∀ (g : Fin 4) (e : Fin 1024), x4 (ix3 g q e) = Wx (ix3 g Q e))
    (h5 : ∀ (g : Fin 4) (k : Fin 2048), x5 (ix3 g q k) = Wh (ix3 g Q k))
    (h6 : ∀ g : Fin 4, x6 (ix2 g q) = bx (ix2 g Q) + bh (ix2 g Q)) :
    hxTile x1 x2 x3 x4 x5 x6 (ix2 p q) = hx x h0 c0 Wx bx Wh bh p Q := by
  unfold hxTile
  refine (stored_hidden_apply (View.ld x1 rA1) (View.ld x2 rA2) (View.ld x3 rA3) (View.ld x4 rX0) (View.ld x5 rH0)
    (View.ld x6 rB0) (View.ld x4 rX1) (View.ld x5 rH1) (View.ld x6 rB1) (View.ld x4 rX2) (View.ld x5 rH2)
    (View.ld x6 rB2) (View.ld x4 rX3) (View.ld x5 rH3) (View.ld x6 rB3) p q).trans ?_
  show _ = Ideal.logistic (gate x h0 Wx bx Wh bh 2 p Q) * Ideal.tanh (cx x h0 c0 Wx bx Wh bh p Q)
  exact congrArg₂ (· * ·)
    (congrArg Ideal.logistic (gate_of_blocks x h0 Wx bx Wh bh x1 x2 x4 x5 x6 2 _ _ _ p q Q h1 h2 h4 h5 h6))
    (congrArg Ideal.tanh (cellAt_eq_cx x h0 c0 Wx bx Wh bh _ _ _ _ _ _ _ _ _ _ _ _ p q Q
      ((congrFun (View.ld_unit_zero hz2 _ x3) _).trans h3)
      (gate_of_blocks x h0 Wx bx Wh bh x1 x2 x4 x5 x6 0 _ _ _ p q Q h1 h2 h4 h5 h6)
      (gate_of_blocks x h0 Wx bx Wh bh x1 x2 x4 x5 x6 1 _ _ _ p q Q h1 h2 h4 h5 h6)
      (gate_of_blocks x h0 Wx bx Wh bh x1 x2 x4 x5 x6 3 _ _ _ p q Q h1 h2 h4 h5 h6)))

end Cert.KernelIdeal.ValueGate

end
-- ==== Proof.KI.ValueGateBlocks.lean ====
/-
  The gate region's input blocks, read off their arrays.

  The grid has 8 points; at point t the blocks of x and h0 are the whole arrays, the block of c0 is the column tile
  t (columns 256 t … 256 t + 255), the blocks of the two weight arrays are rows 256 t … 256 t + 255 of every gate, and
  the block of the summed bias is columns 256 t … 256 t + 255 of every gate: an element of a block sits in its array,
  on each axis, at the block index times the block's size plus its own coordinate.
-/
import proofs.«178993_j37374805410197_2_alg».proof.Proof.KI.Region0
import Idealize.ShloMosaic.Lib.Pipeline.Value
import Idealize.ShloMosaic.Lib.ValueIdx

noncomputable section

namespace Cert.KernelIdeal.ValueGate

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The block index of every window at every grid point: 0 on each axis the window does not move along, the point's
    number on the axis it does (decided over the 8 points). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

variable (V : (c : Dev nD) → (b : Ref sig .tc) → Buf (Elt Ideal) ((c : Thread nD τ).loc b))

/-- The block of x is x. -/
theorem iblk_x (c : Dev nD) (t : Fin cfg0.N) (p : Fin 512) (e : Fin 1024) :
    (iblk0 V c 0 t : Vec Ideal S512x1024 .f32) (ix2 p e) = (V c main_v6 : S512x1024.Idx → EReal) (ix2 p e) := by
  obtain ⟨e0, e1, -⟩ := idx_facts t
  unfold iblk0
  rw [View.read_apply]
  show (V c main_v6 : S512x1024.Idx → EReal) _ = _
  refine congrArg _ (funext fun a => Fin.ext ?_)
  match a with
  | ⟨0, _⟩ => show win0_0.index t (0 : Fin 2) * 512 + 1 * p.val = p.val; omega
  | ⟨1, _⟩ => show win0_0.index t (1 : Fin 2) * 1024 + 1 * e.val = e.val; omega

/-- The block of h0 is h0. -/
theorem iblk_h (c : Dev nD) (t : Fin cfg0.N) (p : Fin 512) (k : Fin 2048) :
    (iblk0 V c 1 t : Vec Ideal S512x2048 .f32) (ix2 p k) = (V c main_arg1 : S512x2048.Idx → EReal) (ix2 p k) := by
  obtain ⟨-, -, e0, e1, -⟩ := idx_facts t
  unfold iblk0
  rw [View.read_apply]
  show (V c main_arg1 : S512x2048.Idx → EReal) _ = _
  refine congrArg _ (funext fun a => Fin.ext ?_)
  match a with
  | ⟨0, _⟩ => show win0_1.index t (0 : Fin 2) * 512 + 1 * p.val = p.val; omega
  | ⟨1, _⟩ => show win0_1.index t (1 : Fin 2) * 2048 + 1 * k.val = k.val; omega

/-- The block of c0 at point t is its column tile t. -/
theorem iblk_c (c : Dev nD) (t : Fin cfg0.N) (p : Fin 512) (q : Fin 256) (Q : Fin 2048) (hQ : Q.val = t.val * 256 + q.val) :
    (iblk0 V c 2 t : Vec Ideal S512x256 .f32) (ix2 p q) = (V c main_arg2 : S512x2048.Idx → EReal) (ix2 p Q) := by
  obtain ⟨-, -, -, -, e0, e1, -⟩ := idx_facts t
  unfold iblk0
  rw [View.read_apply]
  show (V c main_arg2 : S512x2048.Idx → EReal) _ = _
  refine congrArg _ (funext fun a => Fin.ext ?_)
  match a with
  | ⟨0, _⟩ => show win0_2.index t (0 : Fin 2) * 512 + 1 * p.val = p.val; omega
  | ⟨1, _⟩ => show win0_2.index t (1 : Fin 2) * 256 + 1 * q.val = Q.val; omega

/-- The block of the input weights at point t is rows 256 t … of every gate. -/
theorem iblk_wx (c : Dev nD) (t : Fin cfg0.N) (g : Fin 4) (q : Fin 256) (e : Fin 1024) (Q : Fin 2048)
    (hQ : Q.val = t.val * 256 + q.val) :
    (iblk0 V c 3 t : Vec Ideal S4x256x1024 .f32) (ix3 g q e) = (V c main_arg4 : S4x2048x1024.Idx → EReal) (ix3 g Q e) := by
  obtain ⟨-, -, -, -, -, -, e0, e1, e2, -⟩ := idx_facts t
  unfold iblk0
  rw [View.read_apply]
  show (V c main_arg4 : S4x2048x1024.Idx → EReal) _ = _
  refine congrArg _ (funext fun a => Fin.ext ?_)
  match a with
  | ⟨0, _⟩ => show win0_3.index t (0 : Fin 3) * 4 + 1 * g.val = g.val; omega
  | ⟨1, _⟩ => show win0_3.index t (1 : Fin 3) * 256 + 1 * q.val = Q.val; omega
  | ⟨2, _⟩ => show win0_3.index t (2 : Fin 3) * 1024 + 1 * e.val = e.val; omega

/-- The block of the recurrent weights at point t is rows 256 t … of every gate. -/
theorem iblk_wh (c : Dev nD) (t : Fin cfg0.N) (g : Fin 4) (q : Fin 256) (k : Fin 2048) (Q : Fin 2048)
    (hQ : Q.val = t.val * 256 + q.val) :
    (iblk0 V c 4 t : Vec Ideal S4x256x2048 .f32) (ix3 g q k) = (V c main_arg6 : S4x2048x2048.Idx → EReal) (ix3 g Q k) := by
  obtain ⟨-, -, -, -, -, -, -, -, -, e0, e1, e2, -⟩ := idx_facts t
  unfold iblk0
  rw [View.read_apply]
  show (V c main_arg6 : S4x2048x2048.Idx → EReal) _ = _
  refine congrArg _ (funext fun a => Fin.ext ?_)
  match a with
  | ⟨0, _⟩ => show win0_4.index t (0 : Fin 3) * 4 + 1 * g.val = g.val; omega
  | ⟨1, _⟩ => show win0_4.index t (1 : Fin 3) * 256 + 1 * q.val = Q.val; omega
  | ⟨2, _⟩ => show win0_4.index t (2 : Fin 3) * 2048 + 1 * k.val = k.val; omega

/-- The block of the summed bias at point t is columns 256 t … of every gate. -/
theorem iblk_b (c : Dev nD) (t : Fin cfg0.N) (g : Fin 4) (q : Fin 256) (Q : Fin 2048) (hQ : Q.val = t.val * 256 + q.val) :
    (iblk0 V c 5 t : Vec Ideal S4x256 .f32) (ix2 g q) = (V c main_v7 : S4x2048.Idx → EReal) (ix2 g Q) := by
  obtain ⟨-, -, -, -, -, -, -, -, -, -, -, -, e0, e1, -⟩ := idx_facts t
  unfold iblk0
  rw [View.read_apply]
  show (V c main_v7 : S4x2048.Idx → EReal) _ = _
  refine congrArg _ (funext fun a => Fin.ext ?_)
  match a with
  | ⟨0, _⟩ => show win0_5.index t (0 : Fin 2) * 4 + 1 * g.val = g.val; omega
  | ⟨1, _⟩ => show win0_5.index t (1 : Fin 2) * 256 + 1 * q.val = Q.val; omega

end Cert.KernelIdeal.ValueGate

end
-- ==== Proof.KI.ValueGateFinal.lean ====
/-
  From the blocks to the arrays: what the gate region leaves in its three output arrays.

  Point t writes back, for each output, the column tile t of one whole-array function of the region's input arrays:
  the specification's new cell state, and its new hidden state (twice, the second time in a narrower float format,
  the same extended reals).  The 8 tiles of 256 columns cover the 2048 columns — column j lies in the tile of point
  j / 256 —, so each array ends holding that function.
-/
import proofs.«178993_j37374805410197_2_alg».proof.Proof.KI.ValueGateTile
import proofs.«178993_j37374805410197_2_alg».proof.Proof.KI.ValueGateBlocks

noncomputable section

namespace Cert.KernelIdeal.ValueGate

open Cert.KernelIdeal Cert.KernelIdeal.Gen Cert.KernelIdeal.PayVal Cert.KernelIdeal.Hand Cert.LstmSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What point t writes back to the cell state's array is the column tile t of the specification's cell state. -/
theorem flushed7_eq (c : Dev nD) (bx bh : SGxH.Idx → EReal)
    (hb : ∀ (g : Fin 4) (q : Fin 2048), (V c main_v7 : S4x2048.Idx → EReal) (ix2 g q) = bx (ix2 g q) + bh (ix2 g q))
    (t : Fin cfg0.N) :
    (dat0 (F := Ideal) V c).flushed 7 t = ((cfg0.win 7).blk t).view.read (Elt Ideal)
      (cxArr (V c main_v6) (V c main_arg1) (V c main_arg2) (V c main_arg4) bx (V c main_arg6) bh) := by
  obtain ⟨-, -, -, -, -, -, -, -, -, -, -, -, -, -, -, -, e0, e1, -⟩ := idx_facts t
  have ht : t.val < 8 := Nat.lt_of_lt_of_eq t.isLt (show cfg0.N = 8 from N_0)
  show (cfg0.win 7).cut (grid0.coords t) ((dat0 V c).after 7 t) = _
  rw [after0_7]
  unfold out0_7
  rw [View.canon_unit_zero hz2]
  funext j
  obtain ⟨p, q, rfl⟩ : ∃ (p : Fin 512) (q : Fin 256), j = ix2 p q := ⟨j 0, j 1, eq_ix2 (n0 := 512) (n1 := 256) j⟩
  have hQ : t.val * 256 + q.val < 2048 := by have := q.isLt; omega
  rw [View.read_apply]
  refine (cxTile_eq (V c main_v6) (V c main_arg1) (V c main_arg2) (V c main_arg4) bx (V c main_arg6) bh
    (iblk0 V c 0 t) (iblk0 V c 1 t) (iblk0 V c 2 t) (iblk0 V c 3 t) (iblk0 V c 4 t) (iblk0 V c 5 t) p q ⟨t.val * 256 + q.val, hQ⟩
    (fun e => iblk_x V c t p e) (fun k => iblk_h V c t p k) (iblk_c V c t p q _ rfl)
    (fun g e => iblk_wx V c t g q e _ rfl) (fun g k => iblk_wh V c t g q k _ rfl)
    (fun g => (iblk_b V c t g q _ rfl).trans (hb g _))).trans ?_
  show cxArr (V c main_v6) (V c main_arg1) (V c main_arg2) (V c main_arg4) bx (V c main_arg6) bh (ix2 p ⟨t.val * 256 + q.val, hQ⟩) = cxArr (V c main_v6) (V c main_arg1) (V c main_arg2) (V c main_arg4) bx (V c main_arg6) bh _
  refine congrArg _ (funext fun a => Fin.ext ?_)
  match a with
  | ⟨0, _⟩ => show p.val = win0_7.index t (0 : Fin 2) * 512 + 1 * p.val; omega
  | ⟨1, _⟩ => show t.val * 256 + q.val = win0_7.index t (1 : Fin 2) * 256 + 1 * q.val; omega

/-- Every entry of the array is in the block of the point that owns its column tile. -/
theorem cover7 (i : S512x2048.Idx) :
    ∃ t : Fin cfg0.N, (cfg0.win 7).flush t = true ∧ i ∈ ((cfg0.win 7).blk t).view.set := by
  have h0 : (i 0).val < 512 := (i 0).isLt
  have h1 : (i 1).val < 2048 := (i 1).isLt
  have hN : cfg0.N = 8 := N_0
  have hlt : (i 1).val / 256 < cfg0.N := by rw [hN]; omega
  obtain ⟨-, -, -, -, -, -, -, -, -, -, -, -, -, -, -, -, e0, e1, -⟩ := idx_facts ⟨(i 1).val / 256, hlt⟩
  refine ⟨⟨(i 1).val / 256, hlt⟩, flush0_7 _, ?_⟩
  show i ∈ ((View.whole main_v8_1).slice (win0_7.rect ⟨(i 1).val / 256, hlt⟩)).set
  rw [View.set_slice_whole, Rect.mem_set_unit]
  intro a
  match a with
  | ⟨0, _⟩ =>
    show win0_7.index ⟨(i 1).val / 256, hlt⟩ (0 : Fin 2) * 512 ≤ (i 0).val
      ∧ (i 0).val < win0_7.index ⟨(i 1).val / 256, hlt⟩ (0 : Fin 2) * 512 + 512
    rw [e0]; omega
  | ⟨1, _⟩ =>
    show win0_7.index ⟨(i 1).val / 256, hlt⟩ (1 : Fin 2) * 256 ≤ (i 1).val
      ∧ (i 1).val < win0_7.index ⟨(i 1).val / 256, hlt⟩ (1 : Fin 2) * 256 + 256
    rw [e1]; show (i 1).val / 256 * 256 ≤ (i 1).val ∧ (i 1).val < (i 1).val / 256 * 256 + 256; omega

/-- The cell state's array after the region is the specification's. -/
theorem final_cx (c : Dev nD) (bx bh : SGxH.Idx → EReal)
    (hb : ∀ (g : Fin 4) (q : Fin 2048), (V c main_v7 : S4x2048.Idx → EReal) (ix2 g q) = bx (ix2 g q) + bh (ix2 g q)) :
    ((dat0 (F := Ideal) V c).arrAt 7 cfg0.N : S512x2048.Idx → EReal)
      = cxArr (V c main_v6) (V c main_arg1) (V c main_arg2) (V c main_arg4) bx (V c main_arg6) bh :=
  (dat0 (F := Ideal) V c).arrAt_eq_of_cover 7 (cxArr (V c main_v6) (V c main_arg1) (V c main_arg2) (V c main_arg4) bx (V c main_arg6) bh)
    (fun t _ => flushed7_eq V c bx bh hb t) (fun i => cover7 i)

/-- What point t writes back to the hidden state's array is the column tile t of the specification's hidden state. -/
theorem flushed6_eq (c : Dev nD) (bx bh : SGxH.Idx → EReal)
    (hb : ∀ (g : Fin 4) (q : Fin 2048), (V c main_v7 : S4x2048.Idx → EReal) (ix2 g q) = bx (ix2 g q) + bh (ix2 g q))
    (t : Fin cfg0.N) :
    (dat0 (F := Ideal) V c).flushed 6 t = ((cfg0.win 6).blk t).view.read (Elt Ideal)
      (hxArr (V c main_v6) (V c main_arg1) (V c main_arg2) (V c main_arg4) bx (V c main_arg6) bh) := by
  obtain ⟨-, -, -, -, -, -, -, -, -, -, -, -, -, -, e0, e1, -⟩ := idx_facts t
  have ht : t.val < 8 := Nat.lt_of_lt_of_eq t.isLt (show cfg0.N = 8 from N_0)
  show (cfg0.win 6).cut (grid0.coords t) ((dat0 V c).after 6 t) = _
  rw [after0_6]
  unfold out0_6
  rw [View.canon_unit_zero hz2]
  funext j
  obtain ⟨p, q, rfl⟩ : ∃ (p : Fin 512) (q : Fin 256), j = ix2 p q := ⟨j 0, j 1, eq_ix2 (n0 := 512) (n1 := 256) j⟩
  have hQ : t.val * 256 + q.val < 2048 := by have := q.isLt; omega
  rw [View.read_apply]
  refine (hxTile_eq (V c main_v6) (V c main_arg1) (V c main_arg2) (V c main_arg4) bx (V c main_arg6) bh
    (iblk0 V c 0 t) (iblk0 V c 1 t) (iblk0 V c 2 t) (iblk0 V c 3 t) (iblk0 V c 4 t) (iblk0 V c 5 t) p q ⟨t.val * 256 + q.val, hQ⟩
    (fun e => iblk_x V c t p e) (fun k => iblk_h V c t p k) (iblk_c V c t p q _ rfl)
    (fun g e => iblk_wx V c t g q e _ rfl) (fun g k => iblk_wh V c t g q k _ rfl)
    (fun g => (iblk_b V c t g q _ rfl).trans (hb g _))).trans ?_
  show hxArr (V c main_v6) (V c main_arg1) (V c main_arg2) (V c main_arg4) bx (V c main_arg6) bh (ix2 p ⟨t.val * 256 + q.val, hQ⟩) = hxArr (V c main_v6) (V c main_arg1) (V c main_arg2) (V c main_arg4) bx (V c main_arg6) bh _
  refine congrArg _ (funext fun a => Fin.ext ?_)
  match a with
  | ⟨0, _⟩ => show p.val = win0_6.index t (0 : Fin 2) * 512 + 1 * p.val; omega
  | ⟨1, _⟩ => show t.val * 256 + q.val = win0_6.index t (1 : Fin 2) * 256 + 1 * q.val; omega

/-- Every entry of the array is in the block of the point that owns its column tile. -/
theorem cover6 (i : S512x2048.Idx) :
    ∃ t : Fin cfg0.N, (cfg0.win 6).flush t = true ∧ i ∈ ((cfg0.win 6).blk t).view.set := by
  have h0 : (i 0).val < 512 := (i 0).isLt
  have h1 : (i 1).val < 2048 := (i 1).isLt
  have hN : cfg0.N = 8 := N_0
  have hlt : (i 1).val / 256 < cfg0.N := by rw [hN]; omega
  obtain ⟨-, -, -, -, -, -, -, -, -, -, -, -, -, -, e0, e1, -⟩ := idx_facts ⟨(i 1).val / 256, hlt⟩
  refine ⟨⟨(i 1).val / 256, hlt⟩, flush0_6 _, ?_⟩
  show i ∈ ((View.whole main_v8_0).slice (win0_6.rect ⟨(i 1).val / 256, hlt⟩)).set
  rw [View.set_slice_whole, Rect.mem_set_unit]
  intro a
  match a with
  | ⟨0, _⟩ =>
    show win0_6.index ⟨(i 1).val / 256, hlt⟩ (0 : Fin 2) * 512 ≤ (i 0).val
      ∧ (i 0).val < win0_6.index ⟨(i 1).val / 256, hlt⟩ (0 : Fin 2) * 512 + 512
    rw [e0]; omega
  | ⟨1, _⟩ =>
    show win0_6.index ⟨(i 1).val / 256, hlt⟩ (1 : Fin 2) * 256 ≤ (i 1).val
      ∧ (i 1).val < win0_6.index ⟨(i 1).val / 256, hlt⟩ (1 : Fin 2) * 256 + 256
    rw [e1]; show (i 1).val / 256 * 256 ≤ (i 1).val ∧ (i 1).val < (i 1).val / 256 * 256 + 256; omega

/-- The hidden state's array after the region is the specification's. -/
theorem final_hx (c : Dev nD) (bx bh : SGxH.Idx → EReal)
    (hb : ∀ (g : Fin 4) (q : Fin 2048), (V c main_v7 : S4x2048.Idx → EReal) (ix2 g q) = bx (ix2 g q) + bh (ix2 g q)) :
    ((dat0 (F := Ideal) V c).arrAt 6 cfg0.N : S512x2048.Idx → EReal)
      = hxArr (V c main_v6) (V c main_arg1) (V c main_arg2) (V c main_arg4) bx (V c main_arg6) bh :=
  (dat0 (F := Ideal) V c).arrAt_eq_of_cover 6 (hxArr (V c main_v6) (V c main_arg1) (V c main_arg2) (V c main_arg4) bx (V c main_arg6) bh)
    (fun t _ => flushed6_eq V c bx bh hb t) (fun i => cover6 i)

/-- The same for the hidden state's second copy: the narrower float format changes nothing on the extended reals. -/
theorem flushed8_eq (c : Dev nD) (bx bh : SGxH.Idx → EReal)
    (hb : ∀ (g : Fin 4) (q : Fin 2048), (V c main_v7 : S4x2048.Idx → EReal) (ix2 g q) = bx (ix2 g q) + bh (ix2 g q))
    (t : Fin cfg0.N) :
    (dat0 (F := Ideal) V c).flushed 8 t = ((cfg0.win 8).blk t).view.read (Elt Ideal)
      (hxArr (V c main_v6) (V c main_arg1) (V c main_arg2) (V c main_arg4) bx (V c main_arg6) bh) := by
  obtain ⟨-, -, -, -, -, -, -, -, -, -, -, -, -, -, -, -, -, -, e0, e1⟩ := idx_facts t
  have ht : t.val < 8 := Nat.lt_of_lt_of_eq t.isLt (show cfg0.N = 8 from N_0)
  show (cfg0.win 8).cut (grid0.coords t) ((dat0 V c).after 8 t) = _
  rw [after0_8]
  unfold out0_8
  rw [View.canon_unit_zero hz2]
  rw [k0_pay1_eq]
  funext j
  obtain ⟨p, q, rfl⟩ : ∃ (p : Fin 512) (q : Fin 256), j = ix2 p q := ⟨j 0, j 1, eq_ix2 (n0 := 512) (n1 := 256) j⟩
  have hQ : t.val * 256 + q.val < 2048 := by have := q.isLt; omega
  rw [View.read_apply]
  refine (hxTile_eq (V c main_v6) (V c main_arg1) (V c main_arg2) (V c main_arg4) bx (V c main_arg6) bh
    (iblk0 V c 0 t) (iblk0 V c 1 t) (iblk0 V c 2 t) (iblk0 V c 3 t) (iblk0 V c 4 t) (iblk0 V c 5 t) p q ⟨t.val * 256 + q.val, hQ⟩
    (fun e => iblk_x V c t p e) (fun k => iblk_h V c t p k) (iblk_c V c t p q _ rfl)
    (fun g e => iblk_wx V c t g q e _ rfl) (fun g k => iblk_wh V c t g q k _ rfl)
    (fun g => (iblk_b V c t g q _ rfl).trans (hb g _))).trans ?_
  show hxArr (V c main_v6) (V c main_arg1) (V c main_arg2) (V c main_arg4) bx (V c main_arg6) bh (ix2 p ⟨t.val * 256 + q.val, hQ⟩) = hxArr (V c main_v6) (V c main_arg1) (V c main_arg2) (V c main_arg4) bx (V c main_arg6) bh _
  refine congrArg _ (funext fun a => Fin.ext ?_)
  match a with
  | ⟨0, _⟩ => show p.val = win0_8.index t (0 : Fin 2) * 512 + 1 * p.val; omega
  | ⟨1, _⟩ => show t.val * 256 + q.val = win0_8.index t (1 : Fin 2) * 256 + 1 * q.val; omega

/-- Every entry of the array is in the block of the point that owns its column tile. -/
theorem cover8 (i : S512x2048.Idx) :
    ∃ t : Fin cfg0.N, (cfg0.win 8).flush t = true ∧ i ∈ ((cfg0.win 8).blk t).view.set := by
  have h0 : (i 0).val < 512 := (i 0).isLt
  have h1 : (i 1).val < 2048 := (i 1).isLt
  have hN : cfg0.N = 8 := N_0
  have hlt : (i 1).val / 256 < cfg0.N := by rw [hN]; omega
  obtain ⟨-, -, -, -, -, -, -, -, -, -, -, -, -, -, -, -, -, -, e0, e1⟩ := idx_facts ⟨(i 1).val / 256, hlt⟩
  refine ⟨⟨(i 1).val / 256, hlt⟩, flush0_8 _, ?_⟩
  show i ∈ ((View.whole main_v8_2).slice (win0_8.rect ⟨(i 1).val / 256, hlt⟩)).set
  rw [View.set_slice_whole, Rect.mem_set_unit]
  intro a
  match a with
  | ⟨0, _⟩ =>
    show win0_8.index ⟨(i 1).val / 256, hlt⟩ (0 : Fin 2) * 512 ≤ (i 0).val
      ∧ (i 0).val < win0_8.index ⟨(i 1).val / 256, hlt⟩ (0 : Fin 2) * 512 + 512
    rw [e0]; omega
  | ⟨1, _⟩ =>
    show win0_8.index ⟨(i 1).val / 256, hlt⟩ (1 : Fin 2) * 256 ≤ (i 1).val
      ∧ (i 1).val < win0_8.index ⟨(i 1).val / 256, hlt⟩ (1 : Fin 2) * 256 + 256
    rw [e1]; show (i 1).val / 256 * 256 ≤ (i 1).val ∧ (i 1).val < (i 1).val / 256 * 256 + 256; omega

/-- The hidden state's second array after the region is the specification's hidden state too. -/
theorem final_hxb (c : Dev nD) (bx bh : SGxH.Idx → EReal)
    (hb : ∀ (g : Fin 4) (q : Fin 2048), (V c main_v7 : S4x2048.Idx → EReal) (ix2 g q) = bx (ix2 g q) + bh (ix2 g q)) :
    ((dat0 (F := Ideal) V c).arrAt 8 cfg0.N : S512x2048.Idx → EReal)
      = hxArr (V c main_v6) (V c main_arg1) (V c main_arg2) (V c main_arg4) bx (V c main_arg6) bh :=
  (dat0 (F := Ideal) V c).arrAt_eq_of_cover 8 (hxArr (V c main_v6) (V c main_arg1) (V c main_arg2) (V c main_arg4) bx (V c main_arg6) bh)
    (fun t _ => flushed8_eq V c bx bh hb t) (fun i => cover8 i)

end Cert.KernelIdeal.ValueGate

end
-- ==== Proof.KI.KernelValue.lean ====
import proofs.«178993_j37374805410197_2_alg».proof.Proof.Gen.KernelIdeal.Launch
import proofs.«178993_j37374805410197_2_alg».proof.Proof.KI.Boundary
import proofs.«178993_j37374805410197_2_alg».proof.Proof.KI.ValueOut
import proofs.«178993_j37374805410197_2_alg».proof.Proof.KI.ValueGateFinal
import proofs.«178993_j37374805410197_2_alg».proof.Proof.Gen.KernelIdeal.Skeleton
import proofs.«178993_j37374805410197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunV

open Cert.KernelIdeal Cert.KernelIdeal.Gen Cert.KernelIdeal.Hand Cert.KernelIdeal.Hand1
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The idealized kernel's run, read: the three results are the specification's arrays of the arguments -/

variable (m : (ℓ : Loc nD τ sig) → Buf (Elt Ideal) ℓ) (ρ : Dev nD → PrngReg)

theorem kernel_cx (c : Dev nD) :
    ((dat0 (F := Ideal) (VA1 m ρ) c).arrAt 7 cfg0.N : S512x2048.Idx → EReal) = Cert.LstmSpec.cxArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.ValueGate.final_cx (VA1 m ρ) c (m ((c.tc : Thread nD τ).loc main_arg5)) (m ((c.tc : Thread nD τ).loc main_arg7)) (fun g q => by rw [VA1_main_v7]; rfl),
    VA1_main_v6, VA1_main_arg1, VA1_main_arg2, VA1_main_arg4, VA1_main_arg6]
theorem kernel_hx (c : Dev nD) :
    ((dat0 (F := Ideal) (VA1 m ρ) c).arrAt 6 cfg0.N : S512x2048.Idx → EReal) = Cert.LstmSpec.hxArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.ValueGate.final_hx (VA1 m ρ) c (m ((c.tc : Thread nD τ).loc main_arg5)) (m ((c.tc : Thread nD τ).loc main_arg7)) (fun g q => by rw [VA1_main_v7]; rfl),
    VA1_main_v6, VA1_main_arg1, VA1_main_arg2, VA1_main_arg4, VA1_main_arg6]
theorem kernel_hxb (c : Dev nD) :
    ((dat0 (F := Ideal) (VA1 m ρ) c).arrAt 8 cfg0.N : S512x2048.Idx → EReal) = Cert.LstmSpec.hxArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.ValueGate.final_hxb (VA1 m ρ) c (m ((c.tc : Thread nD τ).loc main_arg5)) (m ((c.tc : Thread nD τ).loc main_arg7)) (fun g q => by rw [VA1_main_v7]; rfl),
    VA1_main_v6, VA1_main_arg1, VA1_main_arg2, VA1_main_arg4, VA1_main_arg6]

/-- The logits of the specification's hidden state are the specification's logits. -/
theorem logits_spec (x : Cert.LstmSpec.SBxE.Idx → EReal) (h0 c0 : Cert.LstmSpec.SBxH.Idx → EReal) (Wx : Cert.LstmSpec.SGxHxE.Idx → EReal)
    (bx : Cert.LstmSpec.SGxH.Idx → EReal) (Wh : Cert.LstmSpec.SGxHxH.Idx → EReal) (bh : Cert.LstmSpec.SGxH.Idx → EReal)
    (Wd : Cert.LstmSpec.SVxH.Idx → EReal) (bd : Cert.LstmSpec.SV.Idx → EReal) :
    Cert.KernelIdeal.ValueOut.logits (Cert.LstmSpec.hxArr x h0 c0 Wx bx Wh bh) Wd bd = Cert.LstmSpec.outArr x h0 c0 Wx bx Wh bh Wd bd := rfl

theorem kernel_out (c : Dev nD) :
    ((dat1 (VA2 m ρ) c).arrAt 3 cfg1.N : S512x50257.Idx → EReal)
      = Cert.LstmSpec.outArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.KernelIdeal.ValueOut.final_out (VA2 m ρ) c, VA2_main_v8_2, kernel_hxb, VA2_main_arg8, VA2_main_arg9]
  exact logits_spec _ _ _ _ _ _ _ _ _

/-- THE RUN, READ: the idealized kernel terminates, nothing faulting, with the logits, the hidden state and the cell state
    at the specification's arrays of the arguments, and the arguments unchanged. -/
theorem kernel_run : θ_run defs (onTc (τ := τ) (main (F := Ideal))) ⟨m, fun _ => 0, ρ⟩ (fun r => ∀ c : Dev nD,
      r.2.mem ((c.tc : Thread nD τ).loc main_v9) = Cert.LstmSpec.outArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v8_0) = Cert.LstmSpec.hxArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v8_1) = Cert.LstmSpec.cxArr (Cert.RefBridge.xOf (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c _ (mem_uc main_v9 (by decide))).trans (WA3_main_v9 m ρ c)).trans (kernel_out m ρ c),
     ((h c _ (mem_uc main_v8_0 (by decide))).trans (WA3_main_v8_0 m ρ c)).trans (kernel_hx m ρ c),
     ((h c _ (mem_uc main_v8_1 (by decide))).trans (WA3_main_v8_1 m ρ c)).trans (kernel_cx m ρ c),
     (h c _ (mem_uc main_arg0 (by decide))).trans (WA3_main_arg0 m ρ c),
     (h c _ (mem_uc main_arg1 (by decide))).trans (WA3_main_arg1 m ρ c),
     (h c _ (mem_uc main_arg2 (by decide))).trans (WA3_main_arg2 m ρ c),
     (h c _ (mem_uc main_arg3 (by decide))).trans (WA3_main_arg3 m ρ c),
     (h c _ (mem_uc main_arg4 (by decide))).trans (WA3_main_arg4 m ρ c),
     (h c _ (mem_uc main_arg5 (by decide))).trans (WA3_main_arg5 m ρ c),
     (h c _ (mem_uc main_arg6 (by decide))).trans (WA3_main_arg6 m ρ c),
     (h c _ (mem_uc main_arg7 (by decide))).trans (WA3_main_arg7 m ρ c),
     (h c _ (mem_uc main_arg8 (by decide))).trans (WA3_main_arg8 m ρ c),
     (h c _ (mem_uc main_arg9 (by decide))).trans (WA3_main_arg9 m ρ c)⟩) (run_all m ρ)

end Cert.KernelIdeal.RunV

end
-- ==== Proof.K.Region0.lean ====
import proofs.«178993_j37374805410197_2_alg».proof.Proof.Gen.Kernel.Launch
import proofs.«178993_j37374805410197_2_alg».proof.Proof.Gen.Kernel.Skeleton
import proofs.«178993_j37374805410197_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate kernel's region (pipeline 0), at the contents `V` of the TensorCore's buffers when the region is entered

One grid point computes one column tile (256 hidden units) of the four gates for all 512 rows and stores the
tile of the new hidden state (in two float formats) and of the new cell state. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rA1 : Rect S512x1024 := Rect.unit (s := S512x1024) ![0, 0] S512x1024.size inb_S512x1024_S512x1024_0_0
abbrev rA2 : Rect S512x2048 := Rect.unit (s := S512x2048) ![0, 0] S512x2048.size inb_S512x2048_S512x2048_0_0
abbrev rA3 : Rect S512x256 := Rect.unit (s := S512x256) ![0, 0] S512x256.size inb_S512x256_S512x256_0_0
abbrev rX0 : Rect S4x256x1024 := Rect.unit (s := S4x256x1024) ![0, 0, 0] S1x256x1024.size inb_S4x256x1024_S1x256x1024_0_0_0
abbrev rH0 : Rect S4x256x2048 := Rect.unit (s := S4x256x2048) ![0, 0, 0] S1x256x2048.size inb_S4x256x2048_S1x256x2048_0_0_0
abbrev rB0 : Rect S4x256 := Rect.unit (s := S4x256) ![0, 0] S1x256.size inb_S4x256_S1x256_0_0
abbrev rX1 : Rect S4x256x1024 := Rect.unit (s := S4x256x1024) ![1, 0, 0] S1x256x1024.size inb_S4x256x1024_S1x256x1024_1_0_0
abbrev rH1 : Rect S4x256x2048 := Rect.unit (s := S4x256x2048) ![1, 0, 0] S1x256x2048.size inb_S4x256x2048_S1x256x2048_1_0_0
abbrev rB1 : Rect S4x256 := Rect.unit (s := S4x256) ![1, 0] S1x256.size inb_S4x256_S1x256_1_0
abbrev rX2 : Rect S4x256x1024 := Rect.unit (s := S4x256x1024) ![2, 0, 0] S1x256x1024.size inb_S4x256x1024_S1x256x1024_2_0_0
abbrev rH2 : Rect S4x256x2048 := Rect.unit (s := S4x256x2048) ![2, 0, 0] S1x256x2048.size inb_S4x256x2048_S1x256x2048_2_0_0
abbrev rB2 : Rect S4x256 := Rect.unit (s := S4x256) ![2, 0] S1x256.size inb_S4x256_S1x256_2_0
abbrev rX3 : Rect S4x256x1024 := Rect.unit (s := S4x256x1024) ![3, 0, 0] S1x256x1024.size inb_S4x256x1024_S1x256x1024_3_0_0
abbrev rH3 : Rect S4x256x2048 := Rect.unit (s := S4x256x2048) ![3, 0, 0] S1x256x2048.size inb_S4x256x2048_S1x256x2048_3_0_0
abbrev rB3 : Rect S4x256 := Rect.unit (s := S4x256) ![3, 0] S1x256.size inb_S4x256_S1x256_3_0

/-! ## What the body leaves in each output window's buffer -/

/-- The tile of the new cell state, from the six input blocks. -/
def cxTile (x1 : Vec F S512x1024 .f32) (x2 : Vec F S512x2048 .f32) (x3 : Vec F S512x256 .f32) (x4 : Vec F S4x256x1024 .f32) (x5 : Vec F S4x256x2048 .f32) (x6 : Vec F S4x256 .f32) : FVec F S512x256 .f32 :=
  k0_pay7 (k0_pay2 (View.ld x1 rA1)) (k0_pay3 (View.ld x2 rA2)) (View.ld x3 rA3) (k0_pay4 (View.ld x1 rA1) (View.ld x2 rA2) (View.ld x4 rX0) (View.ld x5 rH0) (View.ld x6 rB0)) (k0_pay5 (View.ld x1 rA1) (View.ld x2 rA2) (View.ld x4 rX1) (View.ld x5 rH1)) (k0_pay6 (View.ld x6 rB1)) (View.ld x4 rX3) (View.ld x5 rH3) (View.ld x6 rB3)
/-- The tile of the new hidden state, from the six input blocks. -/
def hxTile (x1 : Vec F S512x1024 .f32) (x2 : Vec F S512x2048 .f32) (x3 : Vec F S512x256 .f32) (x4 : Vec F S4x256x1024 .f32) (x5 : Vec F S4x256x2048 .f32) (x6 : Vec F S4x256 .f32) : FVec F S512x256 .f32 :=
  k0_pay8 (k0_pay2 (View.ld x1 rA1)) (k0_pay3 (View.ld x2 rA2)) (View.ld x3 rA3) (k0_pay4 (View.ld x1 rA1) (View.ld x2 rA2) (View.ld x4 rX0) (View.ld x5 rH0) (View.ld x6 rB0)) (k0_pay5 (View.ld x1 rA1) (View.ld x2 rA2) (View.ld x4 rX1) (View.ld x5 rH1)) (k0_pay6 (View.ld x6 rB1)) (View.ld x4 rX2) (View.ld x5 rH2) (View.ld x6 rB2) (View.ld x4 rX3) (View.ld x5 rH3) (View.ld x6 rB3)

def out0_6 (x1 : Vec F S512x1024 .f32) (x2 : Vec F S512x2048 .f32) (x3 : Vec F S512x256 .f32) (x4 : Vec F S4x256x1024 .f32) (x5 : Vec F S4x256x2048 .f32) (x6 : Vec F S4x256 .f32) : Vec F S512x256 .f32 := View.canon [⟨rA3, hxTile x1 x2 x3 x4 x5 x6⟩]
def out0_7 (x1 : Vec F S512x1024 .f32) (x2 : Vec F S512x2048 .f32) (x3 : Vec F S512x256 .f32) (x4 : Vec F S4x256x1024 .f32) (x5 : Vec F S4x256x2048 .f32) (x6 : Vec F S4x256 .f32) : Vec F S512x256 .f32 := View.canon [⟨rA3, cxTile x1 x2 x3 x4 x5 x6⟩]
def out0_8 (x1 : Vec F S512x1024 .f32) (x2 : Vec F S512x2048 .f32) (x3 : Vec F S512x256 .f32) (x4 : Vec F S4x256x1024 .f32) (x5 : Vec F S4x256x2048 .f32) (x6 : Vec F S4x256 .f32) : Vec F S512x256 .bf16 := View.canon [⟨rA3, k0_pay1 (hxTile x1 x2 x3 x4 x5 x6)⟩]

/-- One store of the whole tile covers the buffer. -/
theorem cover0_f32 (p0 : Vec F S512x256 .f32) (y : S512x256.Idx) :
    ∃ pc ∈ ([⟨rA3, p0⟩] : List (View.Piece (Elt F) S512x256 .f32)), y ∈ pc.1.set :=
  View.cover_of_tiled [⟨rA3, p0⟩] S512x256.size (by rfl) y
theorem cover0_bf16 (p0 : Vec F S512x256 .bf16) (y : S512x256.Idx) :
    ∃ pc ∈ ([⟨rA3, p0⟩] : List (View.Piece (Elt F) S512x256 .bf16)), y ∈ pc.1.set :=
  View.cover_of_tiled [⟨rA3, p0⟩] S512x256.size (by rfl) y

/-! ## The body's triple -/

set_option maxHeartbeats 4000000 in
/-- The kernel body on whole staging memrefs, the inputs' at contents `x1 … x6` and the outputs' at anything, runs to
    the continuation holding the inputs' as they were and the outputs' at the three tiles. -/
theorem sound_kernel0 (c : Dev nD) (E : Set ℕ) (i : grid0.Coords) (arg1 : Memref sig .tc .vmem S512x1024 .f32) (harg1 : arg1.IsWhole) (arg2 : Memref sig .tc .vmem S512x2048 .f32) (harg2 : arg2.IsWhole) (arg3 : Memref sig .tc .vmem S512x256 .f32) (harg3 : arg3.IsWhole) (arg4 : Memref sig .tc .vmem S4x256x1024 .f32) (harg4 : arg4.IsWhole) (arg5 : Memref sig .tc .vmem S4x256x2048 .f32) (harg5 : arg5.IsWhole) (arg6 : Memref sig .tc .vmem S4x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .bf16) (harg9 : arg9.IsWhole)
    (x1 : Vec F S512x1024 .f32) (x2 : Vec F S512x2048 .f32) (x3 : Vec F S512x256 .f32) (x4 : Vec F S4x256x1024 .f32) (x5 : Vec F S4x256x2048 .f32) (x6 : Vec F S4x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_6 x1 x2 x3 x4 x5 x6) ∗ owns (c : Thread nD τ) arg8 fullShare (out0_7 x1 x2 x3 x4 x5 x6) ∗ owns (c : Thread nD τ) arg9 fullShare (out0_8 x1 x2 x3 x4 x5 x6)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9) K := by
  simp only [cc0__gate_kernel_eq_skeleton]; unfold cc0__gate_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_f32 _)
  isplitl [H8]
  · iexists _; isplitr
    swap; · iexact H8
    ipureintro
    try dsimp only
    exact View.read_writes_eq_canon _ _ _ (cover0_f32 _)
  iexists _; isplitr
  swap; · iexact H9
  ipureintro
  try dsimp only
  exact View.read_writes_eq_canon _ _ _ (cover0_bf16 _)

/-! ## The pipeline's proof data -/

/-- The proof data of the gate pipeline on core `c`: the arrays as the region finds them; after the body at point `t`
    each input's buffer at its block and each output's at its tile of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Body.lean ====
import proofs.«178993_j37374805410197_2_alg».proof.Proof.Gen.Kernel.Launch
import proofs.«178993_j37374805410197_2_alg».proof.Proof.Gen.Kernel.Skeleton
import proofs.«178993_j37374805410197_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The decoder kernel's body (pipeline 1)

One grid point computes one tile of 1024 logits for all 512 rows: the hidden state (whole) against 1024 rows of the
decoder's weights, plus their biases. -/

abbrev rD1 : Rect S512x2048 := Rect.unit (s := S512x2048) ![0, 0] S512x2048.size inb_S512x2048_S512x2048_0_0
abbrev rD2 : Rect S1024x2048 := Rect.unit (s := S1024x2048) ![0, 0] S1024x2048.size inb_S1024x2048_S1024x2048_0_0
abbrev rD3 : Rect S1024 := Rect.unit (s := S1024) ![0] S1024.size inb_S1024_S1024_0
abbrev rD4 : Rect S512x1024 := Rect.unit (s := S512x1024) ![0, 0] S512x1024.size inb_S512x1024_S512x1024_0_0

/-- The tile of logits, from the three input blocks. -/
def outTile (y1 : Vec F S512x2048 .bf16) (y2 : Vec F S1024x2048 .f32) (y3 : Vec F S1024 .f32) : FVec F S512x1024 .f32 :=
  k1_pay1 (View.ld y1 rD1) (View.ld y2 rD2) (View.ld y3 rD3)

def out1_3 (y1 : Vec F S512x2048 .bf16) (y2 : Vec F S1024x2048 .f32) (y3 : Vec F S1024 .f32) : Vec F S512x1024 .f32 := View.canon [⟨rD4, outTile y1 y2 y3⟩]

/-- One store of the whole tile covers the buffer. -/
theorem cover1_3 (p0 : Vec F S512x1024 .f32) (y : S512x1024.Idx) :
    ∃ pc ∈ ([⟨rD4, p0⟩] : List (View.Piece (Elt F) S512x1024 .f32)), y ∈ pc.1.set :=
  View.cover_of_tiled [⟨rD4, p0⟩] S512x1024.size (by rfl) y

set_option maxHeartbeats 2000000 in
/-- The kernel body on whole staging memrefs, the inputs' at contents `y1 y2 y3` and the output's at anything, runs to
    the continuation holding the inputs' as they were and the output's at the tile. -/
theorem sound_kernel1 (c : Dev nD) (E : Set ℕ) (i : grid1.Coords) (arg1 : Memref sig .tc .vmem S512x2048 .bf16) (harg1 : arg1.IsWhole) (arg2 : Memref sig .tc .vmem S1024x2048 .f32) (harg2 : arg2.IsWhole) (arg3 : Memref sig .tc .vmem S1024 .f32) (harg3 : arg3.IsWhole) (arg4 : Memref sig .tc .vmem S512x1024 .f32) (harg4 : arg4.IsWhole)
    (y1 : Vec F S512x2048 .bf16) (y2 : Vec F S1024x2048 .f32) (y3 : Vec F S1024 .f32) (K : PUnit → sProp 𝕄) :
    iprop(owns (c : Thread nD τ) arg1 fullShare y1 ∗ owns (c : Thread nD τ) arg2 fullShare y2 ∗ owns (c : Thread nD τ) arg3 fullShare y3 ∗ (∃ d, owns (c : Thread nD τ) arg4 fullShare d)
        ∗ (iprop(owns (c : Thread nD τ) arg1 fullShare y1 ∗ owns (c : Thread nD τ) arg2 fullShare y2 ∗ owns (c : Thread nD τ) arg3 fullShare y3 ∗ owns (c : Thread nD τ) arg4 fullShare (out1_3 y1 y2 y3)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_3 _)

end Cert.Kernel.Hand1

end
-- ==== Proof.K.FrameR1.lean ====
import proofs.«178993_j37374805410197_2_alg».proof.Proof.K.Region1Body

set_option maxRecDepth 16384

noncomputable section

namespace Cert.Kernel.HandFrame

open Cert.Kernel Cert.Kernel.Gen Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The decoder's region (pipeline 1) with its output window left unnamed, at the contents `V` found at entry

The vocabulary (50257) is not a multiple of the tile (1024): the last of the 50 tiles has 81 columns inside the arrays.
The fetches of the weights' rows and of the biases, and the write-back of the logits, are cut there, and the staging
buffers' rows past the cut hold words nothing names. That the argument arrays end unchanged reads nothing of the
logits: the three input windows are stated exactly (the hidden state's block whole; the weights' and the biases'
buffers on the part the fetch fills), and of the logits' window nothing is said — whatever the body finds in its
buffer, and whatever it leaves there. -/

variable (V : (c : Dev nD) → (b : Ref sig .tc) → Buf (Elt F) ((c : Thread nD τ).loc b))

/-- Window `w`'s block at point `t`, read off its array as the region finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden state's staging buffer holds its (whole, uncut) block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The window this part of the certificate says nothing of: the logits (window 3). -/
def forgets1 : Fin 4 → Bool := fun w => w.val == 3

/-- The proof data of the decoder pipeline on core `c`: the arrays as the region finds them; after the body the hidden
    state's buffer at its block, the weights' and the biases' buffers at their blocks on the part a fetch fills (the rest
    at contents nothing names), the logits' buffer unnamed; nothing owed; full shares. -/
def dat1F (c : Dev nD) : Dat τ (Elt F) Unit ℕ (UR sig nD τ) ℕ cfg1 c where
  A w := V c (Pipeline.arrRef spec1 w)
  after w t := match w with
    | ⟨0, _⟩ => iblk1 V c 0 t
    | ⟨1, h⟩ => win1_1.fill (grid1.coords t) (Pipeline.Dat.unnamed (cfg := cfg1) ⟨1, h⟩ t) (iblk1 V c 1 t)
    | ⟨2, h⟩ => win1_2.fill (grid1.coords t) (Pipeline.Dat.unnamed (cfg := cfg1) ⟨2, h⟩ t) (iblk1 V c 2 t)
    | ⟨3, h⟩ => Pipeline.Dat.unnamed (cfg := cfg1) ⟨3, h⟩ t
  Φ _ := Pipeline.ΦA spec1 c
  q _ := fullShare
  owed _ := 0

theorem A_eq1 (c : Dev nD) (w : Fin cfg1.W) : (dat1F V c).A w = V c (Pipeline.arrRef spec1 w) := by
  dsimp only [dat1F]
theorem after1_0 (c : Dev nD) (t : Fin cfg1.N) : (dat1F V c).after 0 t = iblk1 V c 0 t := by dsimp only [dat1F]
theorem cut_after1_1 (c : Dev nD) (t : Fin cfg1.N) :
    win1_1.cut (grid1.coords t) ((dat1F V c).after 1 t) = iblk1 V c 1 t := by
  dsimp only [dat1F]; exact win1_1.cut_fill _ _ _
theorem cut_after1_2 (c : Dev nD) (t : Fin cfg1.N) :
    win1_2.cut (grid1.coords t) ((dat1F V c).after 2 t) = iblk1 V c 2 t := by
  dsimp only [dat1F]; exact win1_2.cut_fill _ _ _

theorem before1_0 (c : Dev nD) (t : Fin cfg1.N) (d) : (dat1F V c).before 0 t d = iblk1 V c 0 t :=
  before1_0_of V (dat1F V c) (A_eq1 V c 0) (after1_0 V c) t d
/-- The weights' and the biases' buffers just fetched: the block on the rows inside the array, `d` elsewhere. -/
theorem before1_1 (c : Dev nD) (t : Fin cfg1.N) (d) :
    (dat1F V c).before 1 t d = win1_1.fill (grid1.coords t) d (iblk1 V c 1 t) := by
  unfold Dat.before; rw [if_pos (fetch1_1 t)]; rfl
theorem before1_2 (c : Dev nD) (t : Fin cfg1.N) (d) :
    (dat1F V c).before 2 t d = win1_2.fill (grid1.coords t) d (iblk1 V c 2 t) := by
  unfold Dat.before; rw [if_pos (fetch1_2 t)]; rfl

/-! ## The body obligation -/

/-- What the body is called with at point `t`: the logits' buffer at anything, -/
def bodyPre1 (c : Dev nD) (t : Fin cfg1.N) : sProp 𝕄 :=
  iprop((dat1F V c).Φ t.castSucc ∗ (dat1F V c).owesAt () t.castSucc
    ∗ (∃ d, owns (c : Thread nD τ) (st1_0 t) fullShare ((dat1F V c).before 0 t d))
    ∗ (∃ d, owns (c : Thread nD τ) (st1_1 t) fullShare ((dat1F V c).before 1 t d))
    ∗ (∃ d, owns (c : Thread nD τ) (st1_2 t) fullShare ((dat1F V c).before 2 t d))
    ∗ (∃ X, owns (c : Thread nD τ) (st1_3 t) fullShare X))

/-- and what it returns: the clipped input windows' buffers stated on the part inside the arrays only, the logits'
    at anything. -/
def bodyPost1 (c : Dev nD) (t : Fin cfg1.N) : sProp 𝕄 :=
  iprop((dat1F V c).Φ t.succ ∗ (dat1F V c).owesAt () t.succ
    ∗ owns (c : Thread nD τ) (st1_0 t) fullShare ((dat1F V c).after 0 t)
    ∗ (∃ d, owns (c : Thread nD τ) (st1_1 t) fullShare (win1_1.fill (grid1.coords t) d (win1_1.cut (grid1.coords t) ((dat1F V c).after 1 t))))
    ∗ (∃ d, owns (c : Thread nD τ) (st1_2 t) fullShare (win1_2.fill (grid1.coords t) d (win1_2.cut (grid1.coords t) ((dat1F V c).after 2 t))))
    ∗ (∃ X, owns (c : Thread nD τ) (st1_3 t) fullShare X))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1F V c).Φ t.succ = (dat1F V c).Φ t.castSucc from rfl,
    show (dat1F V c).owesAt () t.succ = (dat1F V c).owesAt () t.castSucc from rfl,
    after1_0, cut_after1_1, cut_after1_2]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 (F := F) c Set.univ _ _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

/-- The library's body obligation in its loose form, the logits' window forgotten, at every point. -/
theorem body_obligation1 (c : Dev nD) :
    BodyObligationLoose (dat1F V c) (defs₀ (F := F)) Variants.none () Set.univ forgets1 := fun t => by
  rw [bigSep_W1, bigSep_W1]
  exact sound_body1 V c t

end Cert.Kernel.HandFrame

end
-- ==== Proof.K.Frame.lean ====
import proofs.«178993_j37374805410197_2_alg».proof.Proof.K.Region0
import proofs.«178993_j37374805410197_2_alg».proof.Proof.K.FrameR1
import proofs.«178993_j37374805410197_2_alg».proof.Proof.Gen.Kernel.Regions

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The frame of the whole program: the argument arrays end as launched

@main is one stretch of host operations (the index normalisation, the embedding lookup, the sum of the two biases),
then the gates' region, then the decoder's region. No host operation writes an argument; the gates' region reads four of
them through input windows and writes three arrays of its own; the decoder's region reads two more and the hidden
state, and writes the logits' array only. The gates' region is stated exactly; of the decoder's, which runs last, the
logits' window is left unnamed, and the final state is read where the run leaves it: the decoder's input arrays as they
were at its entry, every buffer that is no array of the decoder as it was at its entry. -/

variable (m : (ℓ : Loc nD τ sig) → Buf (Elt F) ℓ) (ρ : Dev nD → PrngReg)

/-! ## The buffer contents at the boundaries -/

/-- The contents after the host stretch, read at the TensorCore's references (what the gates' region is entered at). -/
abbrev T1 : (c : Dev nD) → (b : Ref sig .tc) → Buf (Elt F) ((c : Thread nD τ).loc b) := fun c b => V1 m c b
/-- At the gates' region's exit: its arrays at what its write-backs leave, every other buffer as entered. -/
def B2 (c : Dev nD) : Valuation τ sig (Elt F) :=
  Pipeline.withArrays spec0 c (V1 m c) fun w => (Hand.dat0 (T1 m) c).arrAt w cfg0.N
theorem B2_arr (c : Dev nD) (w : Fin cfg0.W) :
    B2 m c (Proc.devRef .tc (Pipeline.arrRef spec0 w)) = (Hand.dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = V1 m c (Proc.devRef .tc b) := by
  unfold B2; exact Pipeline.withArrays_of_ne spec0 c _ _ b hb
/-- The same read at the TensorCore's references (what the decoder's region is entered at). -/
abbrev T2 : (c : Dev nD) → (b : Ref sig .tc) → Buf (Elt F) ((c : Thread nD τ).loc b) := fun c b => B2 m c b
theorem hF0 (c : Dev nD) (w : Fin cfg0.W) : (Hand.dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-! ### Every argument is, at the decoder's entry, as launched: the host stretch writes none, and the gates' region
    reads four through input windows (never written back) and bypasses the other six -/

theorem B2_main_arg0 (c : Dev nD) : B2 m c (Proc.devRef .tc main_arg0) = m ((c : Thread nD τ).loc main_arg0) :=
  (B2_of_ne m c main_arg0 (by decide)).trans <| (V1_of m c main_arg0 (by decide)).trans rfl
theorem B2_main_arg1 (c : Dev nD) : B2 m c (Proc.devRef .tc main_arg1) = m ((c : Thread nD τ).loc main_arg1) :=
  (B2_arr m c 1).trans <| (((Hand.dat0 (T1 m) c).arrAt_in 1 rfl _).trans (Hand.A_eq0 (T1 m) c 1)).trans <| (V1_of m c main_arg1 (by decide)).trans rfl
theorem B2_main_arg2 (c : Dev nD) : B2 m c (Proc.devRef .tc main_arg2) = m ((c : Thread nD τ).loc main_arg2) :=
  (B2_arr m c 2).trans <| (((Hand.dat0 (T1 m) c).arrAt_in 2 rfl _).trans (Hand.A_eq0 (T1 m) c 2)).trans <| (V1_of m c main_arg2 (by decide)).trans rfl
theorem B2_main_arg3 (c : Dev nD) : B2 m c (Proc.devRef .tc main_arg3) = m ((c : Thread nD τ).loc main_arg3) :=
  (B2_of_ne m c main_arg3 (by decide)).trans <| (V1_of m c main_arg3 (by decide)).trans rfl
theorem B2_main_arg4 (c : Dev nD) : B2 m c (Proc.devRef .tc main_arg4) = m ((c : Thread nD τ).loc main_arg4) :=
  (B2_arr m c 3).trans <| (((Hand.dat0 (T1 m) c).arrAt_in 3 rfl _).trans (Hand.A_eq0 (T1 m) c 3)).trans <| (V1_of m c main_arg4 (by decide)).trans rfl
theorem B2_main_arg5 (c : Dev nD) : B2 m c (Proc.devRef .tc main_arg5) = m ((c : Thread nD τ).loc main_arg5) :=
  (B2_of_ne m c main_arg5 (by decide)).trans <| (V1_of m c main_arg5 (by decide)).trans rfl
theorem B2_main_arg6 (c : Dev nD) : B2 m c (Proc.devRef .tc main_arg6) = m ((c : Thread nD τ).loc main_arg6) :=
  (B2_arr m c 4).trans <| (((Hand.dat0 (T1 m) c).arrAt_in 4 rfl _).trans (Hand.A_eq0 (T1 m) c 4)).trans <| (V1_of m c main_arg6 (by decide)).trans rfl
theorem B2_main_arg7 (c : Dev nD) : B2 m c (Proc.devRef .tc main_arg7) = m ((c : Thread nD τ).loc main_arg7) :=
  (B2_of_ne m c main_arg7 (by decide)).trans <| (V1_of m c main_arg7 (by decide)).trans rfl
theorem B2_main_arg8 (c : Dev nD) : B2 m c (Proc.devRef .tc main_arg8) = m ((c : Thread nD τ).loc main_arg8) :=
  (B2_of_ne m c main_arg8 (by decide)).trans <| (V1_of m c main_arg8 (by decide)).trans rfl
theorem B2_main_arg9 (c : Dev nD) : B2 m c (Proc.devRef .tc main_arg9) = m ((c : Thread nD τ).loc main_arg9) :=
  (B2_of_ne m c main_arg9 (by decide)).trans <| (V1_of m c main_arg9 (by decide)).trans rfl

/-! ## The proof data -/

/-- Every pipeline's exact proof data, each at its region's entry contents. -/
def pdatsD : (p : Fin 2) → (c : Dev nD) → Dat τ (Elt F) Unit ℕ (UR sig nD τ) ℕ (Pipeline.pin (pcfgs (F := F)) adm p) c
  | ⟨0, _⟩ => fun c => Hand.dat0 (T1 m) c
  | ⟨1, _⟩ => fun c => dat1F (T2 m) c
/-- The same read as relational data: the gates' exactly, the decoder's with the logits' window forgotten. -/
def rdats : (p : Fin 2) → (c : Dev nD) → RDat τ (Elt F) Unit ℕ (UR sig nD τ) ℕ (Pipeline.pin (pcfgs (F := F)) adm p) c
  | ⟨0, _⟩ => fun c => (Hand.dat0 (T1 m) c).toR
  | ⟨1, _⟩ => fun c => (dat1F (T2 m) c).toRForget forgets1

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev Rr (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rr

/-- The last thread state without the `owes`: the decoder's arrays at some contents its write-backs may leave, every
    unscoped buffer that is no array of the decoder as at the decoder's entry, the generator register at some state. -/
abbrev Tlast (c : Dev nD) : sProp 𝕄 :=
  iprop((rdats m 1 c).arraysAt cfg1.N
    ∗ Pipeline.unscopedRest (Ix := Unit) (Name := ℕ) (U := UR sig nD τ) (Lvl := ℕ) spec1 c (T2 m c)
    ∗ ∃ r, prngReg c r)

/-! ## The regions as segments -/

set_option backward.isDefEq.respectTransparency.types false in
/-- The gates' region: entered from every unscoped buffer at the contents after the host stretch, left at `B2`. -/
def regR0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Hand.body_obligation0 (T1 m) c).toR
  hwaits := Pipeline.RDat.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsD m) ((pdatsD m 0 c).share_full fun _ => rfl)
      (T1 m c) (T2 m c) ((pdatsD m 0 c).arrAt · cfg0.N) (hF0 m c) (hrest0 m c)
    rw [Pipeline.unscopedBufs_held] at hjoin
    rw [show (rdats m 0 c).arraysAt (Pipeline.pin (pcfgs (F := F)) adm 0).N = (pdatsD m 0 c).arrays ((pdatsD m 0 c).arrAt · cfg0.N)
      from (Hand.dat0 (T1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The decoder's region: entered from every unscoped buffer at `B2`; left with its arrays where the write-backs leave
    them and every other unscoped buffer untouched (`Tlast`). -/
def regR1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m) c).toRForget
  hwaits := Pipeline.RDat.hwaits_of_owed_zero _ _ _ _ L lv 1 fun _ _ => rfl
  pre c := iprop(StableHlo.held (c : Thread nD τ) (Pipeline.ucRefs τ sig) (B2 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## The last thread state read against a final state -/

/-- A TensorCore buffer that is unscoped and no array of the decoder is among those the last thread state holds as
    they were at the decoder's entry. -/
theorem mem_rest1 (b : Ref sig .tc) (h1 : ¬ b.isScoped) (h2 : b ∉ Finset.univ.image (Pipeline.arrRef spec1)) :
    b ∈ (Finset.univ.filter fun b : Ref sig .tc => ¬ b.isScoped) \ Finset.univ.image (Pipeline.arrRef spec1) :=
  Finset.mem_sdiff.mpr ⟨Finset.mem_filter.mpr ⟨Finset.mem_univ _, h1⟩, h2⟩

/-- What the frame claims of a final memory, on core `c`. -/
def QY (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)

set_option backward.isDefEq.respectTransparency.types false in
/-- The last thread state beside the state interpretation of a final state: the memory holds every argument as launched.
    Eight of them are buffers the decoder's region bypasses; the decoder's weights and biases are arrays of two of its
    input windows, which no write-back touches. -/
theorem read_last (c : Dev nD) (s' : Phys nD τ sig (Elt F)) :
    iprop(Tlast m c ∗ SI s') ⊢ (|={Set.univ}=> iprop(⌜QY m c s'.mem⌝ ∗ SI s') : sProp 𝕄) := by
  unfold Tlast Pipeline.unscopedRest
  iintro ⟨⟨Ha, Hrest, -⟩, HSI⟩
  ihave H1 := (Pipeline.RDat.arrays_read (pcfgs (F := F)) adm (rdats m) (p := 1) launch1.arr_whole c cfg1.N s') $$ [Ha HSI]
  · isplitl [Ha] <;> iassumption
  icases H1 with ⟨%hA, HSI⟩
  ihave H2 := (pointsTo_read_all ((Finset.univ.filter fun b : Ref sig .tc => ¬ b.isScoped) \ Finset.univ.image (Pipeline.arrRef spec1))
    (fun b : Ref sig .tc => (c : Thread nD τ).loc b) (T2 m c) s') $$ [Hrest HSI]
  · isplitl [Hrest] <;> iassumption
  icases H2 with ⟨%hR, HSI⟩
  imodintro
  isplitr
  · ipureintro
    have h8 : s'.mem.mem ((c : Thread nD τ).loc main_arg8) = m ((c : Thread nD τ).loc main_arg8) :=
      (((dat1F (T2 m) c).toRForget_arrAt_iff (fgt := forgets1) (w := 1) rfl cfg1.N _).mp (hA 1)).trans <|
        (((dat1F (T2 m) c).arrAt_in 1 rfl _).trans (A_eq1 (T2 m) c 1)).trans (B2_main_arg8 m c)
    have h9 : s'.mem.mem ((c : Thread nD τ).loc main_arg9) = m ((c : Thread nD τ).loc main_arg9) :=
      (((dat1F (T2 m) c).toRForget_arrAt_iff (fgt := forgets1) (w := 2) rfl cfg1.N _).mp (hA 2)).trans <|
        (((dat1F (T2 m) c).arrAt_in 2 rfl _).trans (A_eq1 (T2 m) c 2)).trans (B2_main_arg9 m c)
    exact ⟨(hR main_arg0 (mem_rest1 main_arg0 (by decide) (by decide))).trans (B2_main_arg0 m c),
      (hR main_arg1 (mem_rest1 main_arg1 (by decide) (by decide))).trans (B2_main_arg1 m c),
      (hR main_arg2 (mem_rest1 main_arg2 (by decide) (by decide))).trans (B2_main_arg2 m c),
      (hR main_arg3 (mem_rest1 main_arg3 (by decide) (by decide))).trans (B2_main_arg3 m c),
      (hR main_arg4 (mem_rest1 main_arg4 (by decide) (by decide))).trans (B2_main_arg4 m c),
      (hR main_arg5 (mem_rest1 main_arg5 (by decide) (by decide))).trans (B2_main_arg5 m c),
      (hR main_arg6 (mem_rest1 main_arg6 (by decide) (by decide))).trans (B2_main_arg6 m c),
      (hR main_arg7 (mem_rest1 main_arg7 (by decide) (by decide))).trans (B2_main_arg7 m c),
      h8, h9⟩
  · iexact HSI

/-! ## @main as segments, and the launch -/

/-- @main's three segments in order: the host stretch, the gates' region, the decoder's region. -/
abbrev segsR : List (Pipeline.RDat.Seg (pcfgs (F := F)) adm (rdats m) () defs₀ 𝒱₀ L lv) :=
  [ .host (hseg0 m), .region (regR0 m), .region (regR1 m) ]

set_option backward.isDefEq.respectTransparency.types false in
/-- THE FRAME, at any float instance: from any memory with zero counters, every weakly fair execution of @main on the
    TensorCores terminates, nothing faulting, and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.RDat.θ_run_regions_kit (pcfgs (F := F)) adm (rdats m) () cellOf_inj emb₁ defs₀ 𝒱₀ L lv m ρ main (segsR m)
    (fun c Q => by
      rewrite [main_chain c, Pipeline.RDat.Seg.run_eq_chain,
        show (segsR m).map Pipeline.RDat.Seg.prog = [
          StableHlo.seq hostOps0,
          Prog.lift (.customCall (Pipeline.entry 0) ()),
          Prog.lift (.customCall (Pipeline.entry 1) ()) ] from rfl]
      exact .rfl)
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tlast m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := QY m)
    (hfin := read_last m)
    (hQ := fun s h c => h c)

end Cert.Kernel.HandFrame

end
-- ==== Proof.lean ====
/-
  One LSTM step followed by a dense decoder, as two TPU kernels, against its jnp reference: the certificate's five claims.

  The kernel gathers the embedded rows `x = E[inp]` on the host, sums the two gate biases on the host, computes in a
  first region (a grid of 8 column tiles of 256 hidden units) the four gates `x·Wxᵀ + h0·Whᵀ + (bx + bh)`, the new cell
  state `σ(g0)·c0 + σ(g1)·tanh(g3)` and the new hidden state `σ(g2)·tanh(cx)`, and in a second region (a grid of 50 tiles
  of 1024 logits, the last one cut at the vocabulary's end) the logits `hx·Wdᵀ + bd`. The reference computes the same
  with each bias added right after its own product, and σ spelt `1 / (1 + e^(−x))`.
  On the extended reals the two are one function (`Cert.LstmSpec`): a change of float format is the identity, the
  kernel's logistic IS `1 / (1 + e^(−x))`, a matrix product into a zero accumulator is the plain sum, and the two
  groupings of the biases agree because addition is commutative and associative — no finiteness is used.
  `algebraic`: the idealized kernel's run ends with the three results at the specification's arrays of the arguments
  (`KI/`: the two regions' proof data, the run, each output array from its blocks; the last block of logits reads only
  rows of weights inside the array), and so does the reference's (`Ref*`). The frames: the idealized kernel's and the
  reference's from those runs; the word-level kernel's from a run whose second region forgets what its output holds,
  since at the word level a logit may depend on staging rows past the arrays' end (`K/`). `preserves` is `True`: the
  idealization rewrote nothing.
-/
import proofs.«178993_j37374805410197_2_alg».proof.Defs
import proofs.«178993_j37374805410197_2_alg».proof.Proof.Gen.Kernel
import proofs.«178993_j37374805410197_2_alg».proof.Proof.Gen.Kernel.Skeleton
import proofs.«178993_j37374805410197_2_alg».proof.Proof.Gen.Kernel.Launch
import proofs.«178993_j37374805410197_2_alg».proof.Proof.Gen.Kernel.Regions
import proofs.«178993_j37374805410197_2_alg».proof.Proof.Gen.Kernel.Points
import proofs.«178993_j37374805410197_2_alg».proof.Proof.Gen.KernelIdeal
import proofs.«178993_j37374805410197_2_alg».proof.Proof.Gen.KernelIdeal.Skeleton
import proofs.«178993_j37374805410197_2_alg».proof.Proof.Gen.KernelIdeal.Launch
import proofs.«178993_j37374805410197_2_alg».proof.Proof.Gen.KernelIdeal.Regions
import proofs.«178993_j37374805410197_2_alg».proof.Proof.Gen.KernelIdeal.Points
import proofs.«178993_j37374805410197_2_alg».proof.Proof.Gen.ReferenceIdeal
import proofs.«178993_j37374805410197_2_alg».proof.Proof.Gen.Pre_finite_inputs
import proofs.«178993_j37374805410197_2_alg».proof.Proof.Gen.ReferenceIdeal.Read
import proofs.«178993_j37374805410197_2_alg».proof.Proof.Spec
import proofs.«178993_j37374805410197_2_alg».proof.Proof.RefRun
import proofs.«178993_j37374805410197_2_alg».proof.Proof.KI.KernelValue
import proofs.«178993_j37374805410197_2_alg».proof.Proof.K.Frame
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.HandFrame.frame m ρ

/-- The idealized kernel runs and leaves its arguments unchanged: its run, read, with the results dropped. -/
theorem frame_ki : Cert.frame_KernelIdeal := fun m ρ _ =>
  (θ_run Cert.KernelIdeal.defs _ _).mono (fun _ h c => (h c).2.2.2) (Cert.KernelIdeal.RunV.kernel_run m ρ)

/-- The reference runs and leaves its arguments unchanged: its run, read, with the results dropped. -/
theorem frame_ri : Cert.frame_ReferenceIdeal := fun m ρ _ =>
  (θ_run Cert.ReferenceIdeal.defs _ _).mono (fun _ h c => (h c).2.2.2) (Cert.RefBridge.ref_run m ρ)

/-- On the extended reals both programs end with the logits, the hidden state and the cell state at the specification's
    arrays of the arguments, which agree. -/
theorem algebraic : Cert.algebraic_KernelIdeal_ReferenceIdeal := by
  intro m ρ m' ρ' _ hagree
  refine ⟨fun c => Cert.LstmSpec.outArr (Cert.RefBridge.xOf (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.LstmSpec.hxArr (Cert.RefBridge.xOf (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.LstmSpec.cxArr (Cert.RefBridge.xOf (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.RunV.kernel_run m ρ, ?_⟩
  refine (θ_run Cert.ReferenceIdeal.defs _ _).mono (fun _ h c => ?_) (Cert.RefBridge.ref_run m' ρ')
  obtain ⟨g0, g1, g2, g3, g4, g5, g6, g7, g8, g9⟩ := hagree c
  refine ⟨(h c).1.trans ?_, (h c).2.1.trans ?_, (h c).2.2.1.trans ?_, (h c).2.2.2⟩
  · rw [g0, g1, g2, g3, g4, g5, g6, g7, g8, g9]
  · rw [g0, g1, g2, g3, g4, g5, g6, g7]
  · rw [g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
